-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  bcast_S_S100000x64 : S_.BroadcastsInDim S100000x64 (![] : Fin 0 → Fin S100000x64.rank)
  reducesTo_S100000x64_S_d0_1 : S100000x64.ReducesTo [0, 1] S_
  bcast_S_S64 : S_.BroadcastsInDim S64 (![] : Fin 0 → Fin S64.rank)
  reducesTo_S64_S_d0 : S64.ReducesTo [0] S_
  bcast_S_S1000x64 : S_.BroadcastsInDim S1000x64 (![] : Fin 0 → Fin S1000x64.rank)
  reducesTo_S1000x64_S_d0_1 : S1000x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1000x64 .f32) (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1000x64 .f32 := Host.absf main_arg4
  let main_cst_6 : FVec F S_ .f32 := constant S_ .f32 0x7F800000#32
  let main_v20 : FVec F S1000x64 .f32 := broadcastInDim S1000x64 ![] bcast_S_S1000x64 main_cst_6
  let main_v21 : IVec S1000x64 1 := cmpf .olt main_v19 main_v20
  let main_c_7 : IVec S_ 1 := constantI S_ 1 1#1
  let main_v22 : IVec S_ 1 := (fun x v => Host.reduce IntOp.andi x v reducesTo_S1000x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x100000 .f32) (main_arg1 : FVec F S1024x1000 .f32) (main_arg2 : FVec F S100000x64 .f32) (main_arg3 : FVec F S64 .f32) (main_arg4 : FVec F S1000x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S1024x1000 .f32 := Host.absf main_arg1
  let main_cst_0 : FVec F S_ .f32 := constant S_ .f32 0x7F800000#32
  let main_v5 : FVec F S1024x1000 .f32 := broadcastInDim S1024x1000 ![] bcast_S_S1024x1000 main_cst_0
  let main_v6 : IVec S1024x1000 1 := cmpf .olt main_v4 main_v5
  let main_c_1 : IVec S_ 1 := constantI S_ 1 1#1
  let main_v7 : IVec S_ 1 := (fun x v => Host.reduce IntOp.andi x v reducesTo_S1024x1000_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S100000x1024 : Shape := ⟨2, ![100000, 1024]⟩
abbrev S64x100000 : Shape := ⟨2, ![64, 100000]⟩
abbrev S1000x1024 : Shape := ⟨2, ![1000, 1024]⟩
abbrev S64x1000 : Shape := ⟨2, ![64, 1000]⟩
abbrev S64x128 : Shape := ⟨2, ![64, 128]⟩
abbrev S1x64 : Shape := ⟨2, ![1, 64]⟩
abbrev S1x1 : Shape := ⟨2, ![1, 1]⟩
abbrev S1x1024 : Shape := ⟨2, ![1, 1024]⟩
abbrev S1024x1 : Shape := ⟨2, ![1024, 1]⟩
abbrev S2560x1024 : Shape := ⟨2, ![2560, 1024]⟩
abbrev S64x2560 : Shape := ⟨2, ![64, 2560]⟩
abbrev S64x1024 : Shape := ⟨2, ![64, 1024]⟩
abbrev S64x64 : Shape := ⟨2, ![64, 64]⟩

abbrev nBuf : Space → Nat
  | .hbm => 22
  | .vmem => 19
  | .smem => 0
  | _ => 0

abbrev bufTy : (tb : Table) → Fin (tcTables nBuf tb) → BufTy
  | .hbm, ⟨0, _⟩ => ⟨S1024x100000, .f32⟩
  | .hbm, ⟨1, _⟩ => ⟨S1024x1000, .f32⟩
  | .hbm, ⟨2, _⟩ => ⟨S100000x64, .f32⟩
  | .hbm, ⟨3, _⟩ => ⟨S64, .f32⟩
  | .hbm, ⟨4, _⟩ => ⟨S1000x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000x1024, .f32⟩
  | .hbm, ⟨11, _⟩ => ⟨S64x100000, .f32⟩
  | .hbm, ⟨12, _⟩ => ⟨S1000x1024, .f32⟩
  | .hbm, ⟨13, _⟩ => ⟨S64x1000, .f32⟩
  | .hbm, ⟨14, _⟩ => ⟨S64x1, .f32⟩
  | .hbm, ⟨15, _⟩ => ⟨S64x1, .f32⟩
  | .hbm, ⟨16, _⟩ => ⟨S64x128, .f32⟩
  | .hbm, ⟨17, _⟩ => ⟨S64x1, .f32⟩
  | .hbm, ⟨18, _⟩ => ⟨S1x64, .f32⟩
  | .hbm, ⟨19, _⟩ => ⟨S1x1, .f32⟩
  | .hbm, ⟨20, _⟩ => ⟨S1x1024, .f32⟩
  | .hbm, ⟨21, _⟩ => ⟨S1024x1, .f32⟩
  | .local _ .vmem, ⟨0, _⟩ => ⟨S2560x1024, .f32⟩
  | .local _ .vmem, ⟨1, _⟩ => ⟨S2560x1024, .f32⟩
  | .local _ .vmem, ⟨2, _⟩ => ⟨S64x2560, .f32⟩
  | .local _ .vmem, ⟨3, _⟩ => ⟨S64x2560, .f32⟩
  | .local _ .vmem, ⟨4, _⟩ => ⟨S2560x1024, .f32⟩
  | .local _ .vmem, ⟨5, _⟩ => ⟨S2560x1024, .f32⟩
  | .local _ .vmem, ⟨6, _⟩ => ⟨S64x2560, .f32⟩
  | .local _ .vmem, ⟨7, _⟩ => ⟨S64x2560, .f32⟩
  | .local _ .vmem, ⟨8, _⟩ => ⟨S1000x1024, .f32⟩
  | .local _ .vmem, ⟨9, _⟩ => ⟨S64x1000, .f32⟩
  | .local _ .vmem, ⟨10, _⟩ => ⟨S64x1, .f32⟩
  | .local _ .vmem, ⟨11, _⟩ => ⟨S64x1, .f32⟩
  | .local _ .vmem, ⟨12, _⟩ => ⟨S64x128, .f32⟩
  | .local _ .vmem, ⟨13, _⟩ => ⟨S64x1, .f32⟩
  | .local _ .vmem, ⟨14, _⟩ => ⟨S1x64, .f32⟩
  | .local _ .vmem, ⟨15, _⟩ => ⟨S1x1, .f32⟩
  | .local _ .vmem, ⟨16, _⟩ => ⟨S1x1024, .f32⟩
  | .local _ .vmem, ⟨17, _⟩ => ⟨S64x1024, .f32⟩
  | .local _ .vmem, ⟨18, _⟩ => ⟨S64x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![20], ![false]⟩

def k0_cond3 (i : grid0.Coords) : BitVec 1 :=
  let arg0 : BitVec 32 := BitVec.ofNat 32 (i 0).val
  let c19_i32_2 : BitVec 32 := 19#32
  let v6 : BitVec 1 := Scalar.cmpi .eq arg0 c19_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2560x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  transposes_S1024x100000_S100000x1024_1_0 : S1024x100000.Transposes [1, 0] S100000x1024
  transposes_S100000x64_S64x100000_1_0 : S100000x64.Transposes [1, 0] S64x100000
  transposes_S1024x1000_S1000x1024_1_0 : S1024x1000.Transposes [1, 0] S1000x1024
  transposes_S1000x64_S64x1000_1_0 : S1000x64.Transposes [1, 0] S64x1000
  shapeCasts_S64_S64x1 : S64.ShapeCasts S64x1
  transposes_S128x64_S64x128_1_0 : S128x64.Transposes [1, 0] S64x128
  transposes_S64x1_S1x64_1_0 : S64x1.Transposes [1, 0] S1x64
  shapeCasts_S1_S1x1 : S1.ShapeCasts S1x1
  transposes_S1x1024_S1024x1_1_0 : S1x1024.Transposes [1, 0] S1024x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  bitsLt_bf16_f32 : FTy.bits .bf16 < FTy.bits .f32
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  iota_S2560x1024_d0_w32 : S2560x1024.Iotas .tc 32 [0]
  iota_S64x2560_d1_w32 : S64x2560.Iotas .tc 32 [1]
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S64x128_o0_0_S64x64 : S64x128.Slices ![0, 0] S64x64
  slices_S64x128_o0_64_S64x64 : S64x128.Slices ![0, 64] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  dot_S64x1000_S1000x1024_S64x1024_1_0_0_1_n_n_wf : DotDims.WF S64x1000 S1000x1024 S64x1024 [1] [0] [0] [1] [] []
  dot_S64x2560_S2560x1024_S64x1024_1_0_0_1_n_n_wf : DotDims.WF S64x2560 S2560x1024 S64x1024 [1] [0] [0] [1] [] []
  dot_S64x64_S64x1024_S64x1024_1_0_0_1_n_n_wf : DotDims.WF S64x64 S64x1024 S64x1024 [1] [0] [0] [1] [] []
  dot_S1x64_S64x1024_S1x1024_1_0_0_1_n_n_wf : DotDims.WF S1x64 S64x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x1024.size a < S100000x1024.size a
  hwx0_0 : ∀ i : grid0.Coords, EltTy.bits .f32 = 32 ∨ (Rect.unit (s := S100000x1024) (fun a => cc0_transform_0 i a * S2560x1024.size a) (fun a => (Pipeline.Clip.of (cc0_transform_0 i a) (S2560x1024.size a) (S100000x1024.size a)).extent (S2560x1024.size a)) fun a => Pipeline.Clip.inb (Pipeline.Clip.ok_of (hstart0_0 i a))).WholeWords (EltTy.packing .f32)
  hwxs0_0 : ∀ i : grid0.Coords, EltTy.bits .f32 = 32 ∨ (Rect.unit (s := S2560x1024) (fun _ => 0) (fun a => (Pipeline.Clip.of (cc0_transform_0 i a) (S2560x1024.size a) (S100000x1024.size a)).extent (S2560x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x2560.size a < S64x100000.size a
  hwx0_1 : ∀ i : grid0.Coords, EltTy.bits .f32 = 32 ∨ (Rect.unit (s := S64x100000) (fun a => cc0_transform_1 i a * S64x2560.size a) (fun a => (Pipeline.Clip.of (cc0_transform_1 i a) (S64x2560.size a) (S64x100000.size a)).extent (S64x2560.size a)) fun a => Pipeline.Clip.inb (Pipeline.Clip.ok_of (hstart0_1 i a))).WholeWords (EltTy.packing .f32)
  hwxs0_1 : ∀ i : grid0.Coords, EltTy.bits .f32 = 32 ∨ (Rect.unit (s := S64x2560) (fun _ => 0) (fun a => (Pipeline.Clip.of (cc0_transform_1 i a) (S64x2560.size a) (S64x100000.size a)).extent (S64x2560.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2560x1024.size a < S100000x1024.size a
  hwx0_2 : ∀ i : grid0.Coords, EltTy.bits .f32 = 32 ∨ (Rect.unit (s := S100000x1024) (fun a => cc0_transform_2 i a * S2560x1024.size a) (fun a => (Pipeline.Clip.of (cc0_transform_2 i a) (S2560x1024.size a) (S100000x1024.size a)).extent (S2560x1024.size a)) fun a => Pipeline.Clip.inb (Pipeline.Clip.ok_of (hstart0_2 i a))).WholeWords (EltTy.packing .f32)
  hwxs0_2 : ∀ i : grid0.Coords, EltTy.bits .f32 = 32 ∨ (Rect.unit (s := S2560x1024) (fun _ => 0) (fun a => (Pipeline.Clip.of (cc0_transform_2 i a) (S2560x1024.size a) (S100000x1024.size a)).extent (S2560x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x2560.size a < S64x100000.size a
  hwx0_3 : ∀ i : grid0.Coords, EltTy.bits .f32 = 32 ∨ (Rect.unit (s := S64x100000) (fun a => cc0_transform_3 i a * S64x2560.size a) (fun a => (Pipeline.Clip.of (cc0_transform_3 i a) (S64x2560.size a) (S64x100000.size a)).extent (S64x2560.size a)) fun a => Pipeline.Clip.inb (Pipeline.Clip.ok_of (hstart0_3 i a))).WholeWords (EltTy.packing .f32)
  hwxs0_3 : ∀ i : grid0.Coords, EltTy.bits .f32 = 32 ∨ (Rect.unit (s := S64x2560) (fun _ => 0) (fun a => (Pipeline.Clip.of (cc0_transform_3 i a) (S64x2560.size a) (S64x100000.size a)).extent (S64x2560.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x1024.size a ≤ S1000x1024.size a
  hwx0_4 : ∀ i : grid0.Coords, EltTy.bits .f32 = 32 ∨ (Rect.block (s := S1000x1024) S1000x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1000.size a ≤ S64x1000.size a
  hwx0_5 : ∀ i : grid0.Coords, EltTy.bits .f32 = 32 ∨ (Rect.block (s := S64x1000) S64x1000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)

variable [Facts₀]

def dot_S64x1000_S1000x1024_S64x1024_1_0_0_1_n_n : DotDims S64x1000 S1000x1024 S64x1024 where
  lhsContracting := [1]
  rhsContracting := [0]
  lhsNonContracting := [0]
  rhsNonContracting := [1]
  lhsBatch := []
  rhsBatch := []
  wf := dot_S64x1000_S1000x1024_S64x1024_1_0_0_1_n_n_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf

abbrev win0_0 : Pipeline.Window sig grid0 :=
  Pipeline.Window.ofSpecClip (Memref.whole main_call0_v0) S2560x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S64x2560.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v0) S2560x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v1) S64x2560.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v2) S1000x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S64x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v8) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v9) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v10) S1x1024.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond3 i == 1#1) | ⟨_ + 13, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024x1000 : Shape := ⟨2, ![1024, 1000]⟩
abbrev S100000x64 : Shape := ⟨2, ![100000, 64]⟩
abbrev S64 : Shape := ⟨1, ![64]⟩
abbrev S1000x64 : Shape := ⟨2, ![1000, 64]⟩
abbrev S128x64 : Shape := ⟨2, ![128, 64]⟩
abbrev S64x1 : Shape := ⟨2, ![64, 1]⟩
abbrev S1 : Shape := ⟨1, ![1]⟩
abbrev S1024x64 : Shape := ⟨2, ![1024, 64]⟩
abbrev S1x64 : Shape := ⟨2, ![1, 64]⟩
abbrev S_ : Shape := ⟨0, ![]⟩
abbrev S1024x128 : Shape := ⟨2, ![1024, 128]⟩
abbrev S1024x1 : Shape := ⟨2, ![1024, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x1000, .f32⟩
  | .hbm, ⟨2, _⟩ => ⟨S100000x64, .f32⟩
  | .hbm, ⟨3, _⟩ => ⟨S64, .f32⟩
  | .hbm, ⟨4, _⟩ => ⟨S1000x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1024x64, .f32⟩
  | .hbm, ⟨11, _⟩ => ⟨S1x64, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S1024x128, .f32⟩
  | .hbm, ⟨25, _⟩ => ⟨S1024x64, .f32⟩
  | .hbm, ⟨26, _⟩ => ⟨S1x64, .f32⟩
  | .hbm, ⟨27, _⟩ => ⟨S1024x64, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S1024x1, .f32⟩
  | .hbm, ⟨33, _⟩ => ⟨S1x1, .f32⟩
  | .hbm, ⟨34, _⟩ => ⟨S1024x1, .f32⟩
  | .hbm, ⟨35, _⟩ => ⟨S1024x1, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_cst : Ref sig .tc := ⟨.hbm, 29, rfl⟩
abbrev main_call2_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x100000_S100000x64_S1024x64_1_0_0_1_n_n_wf : DotDims.WF S1024x100000 S100000x64 S1024x64 [1] [0] [0] [1] [] []
  dot_S1024x1000_S1000x64_S1024x64_1_0_0_1_n_n_wf : DotDims.WF S1024x1000 S1000x64 S1024x64 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S1024x1000_S1000x64_S1024x64_1_0_0_1_n_n : DotDims S1024x1000 S1000x64 S1024x64 where
  lhsContracting := [1]
  rhsContracting := [0]
  lhsNonContracting := [0]
  rhsNonContracting := [1]
  lhsBatch := []
  rhsBatch := []
  wf := dot_S1024x1000_S1000x64_S1024x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KernelFn.lean ====
/-
  The function the fused kernel computes, as one pure term of the ten arrays its launch is handed.

  The contraction over the 100000 features is walked in forty blocks of 2560, two per grid point: point t adds
  the products of blocks 2t and 2t+1 to a running 64 x 1024 sum that starts at zero.  Block 39 overhangs the
  arrays by 2400 positions; there the last point replaces both operands by zero before multiplying.  After
  the last point the sum gets its bias and a rectifier, is multiplied by the left half of the joining matrix,
  the rectified compound embedding by the right half, the joining bias and a second rectifier follow, and the
  output row is the product with the head's weights plus its bias.
-/
import proofs.«129949_g26456998544025_cont_9to1_950_20_alg».proof.Proof.Gen.KernelIdeal.Skeleton

noncomputable section

namespace Cert.KernelIdeal.Fn

open Idealize.ShloMosaic Idealize.SL.Sem Cert.KernelIdeal Cert.KernelIdeal.Gen

variable {F : FTy → Type} [FloatOps F]

/-- The word every position past the arrays' end is read as in the blocks below. -/
def zeroW : Elt F .f32 := Scalar.ofBits .f32 0x00000000#32

/-- Block j (of forty) of the transposed activations: rows 2560 j .. 2560 j + 2559 of a 100000 x 1024 array,
    a row past the array's end read as d. -/
def blkX (xT : S100000x1024.Idx → Elt F .f32) (j : Nat) (d : S2560x1024.Idx → Elt F .f32) : S2560x1024.Idx → Elt F .f32 :=
  fun y => if h : 2560 * j + (y 0).val < 100000 then xT (fun a => match a with | ⟨0, _⟩ => ⟨2560 * j + (y 0).val, h⟩ | ⟨1, _⟩ => y 1) else d y

/-- Block j (of forty) of the transposed weights: columns 2560 j .. 2560 j + 2559 of a 64 x 100000 array,
    a column past the array's end read as d. -/
def blkW (wT : S64x100000.Idx → Elt F .f32) (j : Nat) (d : S64x2560.Idx → Elt F .f32) : S64x2560.Idx → Elt F .f32 :=
  fun y => if h : 2560 * j + (y 1).val < 100000 then wT (fun a => match a with | ⟨0, _⟩ => y 0 | ⟨1, _⟩ => ⟨2560 * j + (y 1).val, h⟩) else d y

variable (xT : S100000x1024.Idx → Elt F .f32) (wT : S64x100000.Idx → Elt F .f32)

/-- The running sum after grid point t, for t below 19: the sum before it plus the two block products. -/
def acc : Nat → FVec F S64x1024 .f32
  | 0 => k0_pay3 (k0_pay1 (F := F)) (blkW wT 0 fun _ => zeroW) (blkX xT 0 fun _ => zeroW) (blkW wT 1 fun _ => zeroW) (blkX xT 1 fun _ => zeroW)
  | t + 1 => k0_pay3 (acc t) (blkW wT (2 * (t + 1)) fun _ => zeroW) (blkX xT (2 * (t + 1)) fun _ => zeroW)
      (blkW wT (2 * (t + 1) + 1) fun _ => zeroW) (blkX xT (2 * (t + 1) + 1) fun _ => zeroW)

/-- The sum after the last point: the masked product of block 39 and the product of block 38 added to the sum
    after point 18. -/
def accLast : FVec F S64x1024 .f32 :=
  k0_pay5 (blkX xT 39 fun _ => zeroW) (blkW wT 39 fun _ => zeroW) (acc xT wT 18) (blkW wT 38 fun _ => zeroW) (blkX xT 38 fun _ => zeroW)

/-- The output row, 1 x 1024, of the ten arrays the launch is handed. -/
def out (cT : S1000x1024.Idx → Elt F .f32) (cwT : S64x1000.Idx → Elt F .f32) (pbC cbC : S64x1.Idx → Elt F .f32)
    (jwT : S64x128.Idx → Elt F .f32) (jbC : S64x1.Idx → Elt F .f32) (owT : S1x64.Idx → Elt F .f32) (obC : S1x1.Idx → Elt F .f32) :
    FVec F S1x1024 .f32 :=
  k0_pay4 (k0_pay6 (accLast xT wT) pbC) (k0_pay7 (F := F)) jwT (k0_pay2 cwT cT cbC) jbC owT obC

end Cert.KernelIdeal.Fn

end
-- ==== Proof.Cases.lean ====
import proofs.«129949_g26456998544025_cont_9to1_950_20_alg».proof.Proof.KernelFn
import proofs.«129949_g26456998544025_cont_9to1_950_20_alg».proof.Proof.Gen.KernelIdeal.Launch
import proofs.«129949_g26456998544025_cont_9to1_950_20_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The three branch conditions over the grid coordinate, in closed form -/

/-- The first point only. -/
abbrev cond1 (i : grid0.Coords) : Prop := (Scalar.cmpi .ne (Scalar.extui (Scalar.cmpi .eq (BitVec.ofNat 32 (i 0).val) 0#32)) 0#32) = 1#1
/-- Every point but the last. -/
abbrev cond2 (i : grid0.Coords) : Prop := (Scalar.cmpi .ne (Scalar.extui (Scalar.cmpi .slt (BitVec.ofNat 32 (i 0).val) 19#32)) 0#32) = 1#1
/-- The last point only. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 19 :=
  (by decide +kernel : ∀ t : Fin grid0.N, cond2 (grid0.coords t) ↔ t.val < 19)
theorem hcond3 : ∀ t : Fin cfg0.N, cond3 (grid0.coords t) ↔ t.val = 19 :=
  (by decide +kernel : ∀ t : Fin grid0.N, cond3 (grid0.coords t) ↔ t.val = 19)

/-! ## Whole-buffer loads and stores -/

theorem hz2 : (![0, 0] : Fin 2 → Nat) = fun _ => 0 := funext fun a => by fin_cases a <;> rfl

/-- A load of a whole buffer through the box at the origin of the buffer's own sizes reads the buffer's contents. -/
theorem readAt_whole {sp : Space} {S : Shape} {e : EltTy} (M : Memref sig .tc sp S e) (hM : M.IsWhole) {off : Fin S.rank → Nat}
    (h : off = fun _ => 0) (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero h]

/-- The same for a buffer of two axes, its box written with literal offsets. -/
theorem readAt_whole2 {sp : Space} {sz : Fin 2 → Nat} {e : EltTy} (M : Memref sig .tc sp ⟨2, sz⟩ e) (hM : M.IsWhole)
    (inb : ∀ a, (![0, 0] : Fin 2 → Nat) a + sz a ≤ sz a) (x : (⟨2, sz⟩ : Shape).Idx → Elt F e) :
    View.readAt (Elt F) M.view (Rect.unit (s := ⟨2, sz⟩) ![0, 0] sz inb).toLoadRect (hM.unread x) = x :=
  readAt_whole M hM hz2 inb x

/-- A load through that box of what one store through it left reads the stored value. -/
theorem readCov_whole2 {sp : Space} {sz : Fin 2 → Nat} {e : EltTy} (v : View sig .tc sp ⟨2, sz⟩ e)
    (inb : ∀ a, (![0, 0] : Fin 2 → Nat) a + sz a ≤ sz a) (w : (⟨2, sz⟩ : Shape).Idx → Elt F e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero v hz2 inb w

/-- After a last store of w through that box the buffer holds w, whatever was stored before. -/
theorem owns_of_writes {sp : Space} {S : Shape} {e : EltTy} (c : Dev nD) (M : Memref sig .tc sp S e) {off : Fin S.rank → Nat}
    (h : off = fun _ => 0) (inb : ∀ a, off a + S.size a ≤ S.size a) (f : M.view.ty.Contents (Elt F)) (w : S.Idx → Elt F e)
    (L : List (View.Piece (Elt F) S e)) :
    (M.view.loc (c : Thread nD τ) ↦[M.view.set]{fullShare} M.view.writes (Elt F) f ((⟨Rect.unit off S.size inb, w⟩ : View.Piece (Elt F) S e) :: L) : sProp 𝕄)
      ⊢ owns (c : Thread nD τ) M fullShare w := by
  have hr : M.view.read (Elt F) (M.view.writes (Elt F) f ((⟨Rect.unit off S.size inb, w⟩ : View.Piece (Elt F) S e) :: L)) = w := by
    subst h
    rw [View.read_writes_eq_canon M.view f _ (fun y => ⟨⟨Rect.unit (fun _ => 0) S.size inb, w⟩, List.mem_cons_self .., by
      rw [Rect.mem_set_unit]; intro a; exact ⟨Nat.zero_le _, by have := (y a).isLt; omega⟩⟩), View.canon_cons_unit_zero rfl]
  unfold owns
  iintro H
  iexists _
  isplitr
  · ipureintro; exact hr
  · iexact H

/-- A buffer held at contents x is held at whatever reads back as x. -/
theorem owns_of_unread {sp : Space} {S : Shape} {e : EltTy} (c : Dev nD) (M : Memref sig .tc sp S e) (hM : M.IsWhole) (x : S.Idx → Elt F e) :
    (M.view.loc (c : Thread nD τ) ↦[M.view.set]{fullShare} hM.unread x : sProp 𝕄) ⊢ owns (c : Thread nD τ) M fullShare x := by
  unfold owns
  iintro H
  iexists _
  isplitr
  · ipureintro; exact hM.read_unread x
  · iexact H

/-- The same two facts with the ownership written out. -/
theorem ex_of_writes {sp : Space} {S : Shape} {e : EltTy} (c : Dev nD) (M : Memref sig .tc sp S e) {off : Fin S.rank → Nat}
    (h : off = fun _ => 0) (inb : ∀ a, off a + S.size a ≤ S.size a) (f : M.view.ty.Contents (Elt F)) (w : S.Idx → Elt F e)
    (L : List (View.Piece (Elt F) S e)) :
    (M.view.loc (c : Thread nD τ) ↦[M.view.set]{fullShare} M.view.writes (Elt F) f ((⟨Rect.unit off S.size inb, w⟩ : View.Piece (Elt F) S e) :: L) : sProp 𝕄)
      ⊢ iprop(∃ g, ⌜M.view.read (Elt F) g = w⌝ ∗ M.view.loc (c : Thread nD τ) ↦[M.view.set]{fullShare} g) := by
  have := owns_of_writes (F := F) c M h inb f w L
  unfold owns at this
  exact this

theorem ex_of_unread {sp : Space} {S : Shape} {e : EltTy} (c : Dev nD) (M : Memref sig .tc sp S e) (hM : M.IsWhole) (x : S.Idx → Elt F e) :
    (M.view.loc (c : Thread nD τ) ↦[M.view.set]{fullShare} hM.unread x : sProp 𝕄)
      ⊢ iprop(∃ g, ⌜M.view.read (Elt F) g = x⌝ ∗ M.view.loc (c : Thread nD τ) ↦[M.view.set]{fullShare} g) := by
  have := owns_of_unread (F := F) c M hM x
  unfold owns at this
  exact this

end Cert.KernelIdeal.Hand

end
-- ==== Proof.Mask.lean ====
/-
  The last grid point's block product only sees the first 160 rows of its activation block and the first 160
  columns of its weight block.

  Block 39 overhangs the arrays by 2400 positions.  Before multiplying, the last point replaces row r of the
  activation block and column r of the weight block by zero wherever r is 160 or more (a select against the row
  or column number compared with 160).  So two activation blocks that agree on rows 0..159, and two weight
  blocks that agree on columns 0..159, give the same sum.  Nothing here depends on what a float is.
-/
import proofs.«129949_g26456998544025_cont_9to1_950_20_alg».proof.Proof.Gen.KernelIdeal.Skeleton
import Idealize.ShloMosaic.Lib.Pipeline.Value
import Idealize.ShloMosaic.Lib.ValueIdx
import Idealize.ShloMosaic.Lib.WordArith

noncomputable section

namespace Cert.KernelIdeal.Hand

open Idealize.ShloMosaic Idealize.SL.Sem Cert.KernelIdeal Cert.KernelIdeal.Gen

variable {F : FTy → Type} [FloatOps F]

/-- For a number n small enough to read signed as itself, the comparison word of "n below 160" is one exactly
    when n is below 160. -/
theorem lt160_iff (n : Nat) (hn : n < 2 ^ 31) : IntOp.cmpi .slt (BitVec.ofNat 32 n) 160#32 = 1#1 ↔ n < 160 := by
  rw [IntOp.cmpi_slt, WordArith.toInt_ofNat_small n hn]
  have e : (160#32 : BitVec 32).toInt = 160 := by decide
  rw [e]
  omega

/-- A select against "row number below 160" only reads rows 0..159 of its first operand. -/
theorem select_rows {α : Type} (hi : S2560x1024.Iotas .tc 32 [0]) (a a' z : S2560x1024.Idx → α)
    (h : ∀ y : S2560x1024.Idx, (y 0).val < 160 → a y = a' y) :
    select (cmpi .slt (iota .tc S2560x1024 32 [0] hi) (broadcast S2560x1024 160#32)) a z
      = select (cmpi .slt (iota .tc S2560x1024 32 [0] hi) (broadcast S2560x1024 160#32)) a' z := by
  funext y
  show Scalar.select (IntOp.cmpi .slt (iota .tc S2560x1024 32 [0] hi y) 160#32) (a y) (z y)
    = Scalar.select (IntOp.cmpi .slt (iota .tc S2560x1024 32 [0] hi y) 160#32) (a' y) (z y)
  rw [iota_single_apply]
  unfold Scalar.select
  by_cases hc : IntOp.cmpi .slt (BitVec.ofNat 32 (y 0).val) 160#32 = (1 : BitVec 1)
  · rw [if_pos hc, if_pos hc]
    exact h y ((lt160_iff _ (by have := ValueIdx.idx2_lt0 y; omega)).mp hc)
  · rw [if_neg hc, if_neg hc]

/-- A select against "column number below 160" only reads columns 0..159 of its first operand. -/
theorem select_cols {α : Type} (hi : S64x2560.Iotas .tc 32 [1]) (a a' z : S64x2560.Idx → α)
    (h : ∀ y : S64x2560.Idx, (y 1).val < 160 → a y = a' y) :
    select (cmpi .slt (iota .tc S64x2560 32 [1] hi) (broadcast S64x2560 160#32)) a z
      = select (cmpi .slt (iota .tc S64x2560 32 [1] hi) (broadcast S64x2560 160#32)) a' z := by
  funext y
  show Scalar.select (IntOp.cmpi .slt (iota .tc S64x2560 32 [1] hi y) 160#32) (a y) (z y)
    = Scalar.select (IntOp.cmpi .slt (iota .tc S64x2560 32 [1] hi y) 160#32) (a' y) (z y)
  rw [iota_single_apply]
  unfold Scalar.select
  by_cases hc : IntOp.cmpi .slt (BitVec.ofNat 32 (y 1).val) 160#32 = (1 : BitVec 1)
  · rw [if_pos hc, if_pos hc]
    exact h y ((lt160_iff _ (by have := ValueIdx.idx2_lt1 y; omega)).mp hc)
  · rw [if_neg hc, if_neg hc]

/-- The last point's sum depends on its activation block of block 39 only through rows 0..159 and on its weight
    block of block 39 only through columns 0..159. -/
theorem pay5_mask (x3 x3' : Vec F S2560x1024 .f32) (x4 x4' : Vec F S64x2560 .f32) (s : Vec F S64x1024 .f32)
    (x2 : Vec F S64x2560 .f32) (x1 : Vec F S2560x1024 .f32)
    (h3 : ∀ y : S2560x1024.Idx, (y 0).val < 160 → x3 y = x3' y)
    (h4 : ∀ y : S64x2560.Idx, (y 1).val < 160 → x4 y = x4' y) :
    k0_pay5 x3 x4 s x2 x1 = k0_pay5 x3' x4' s x2 x1 := by
  unfold k0_pay5
  dsimp only
  rw [select_rows _ (shapeCast S2560x1024 x3 _) (shapeCast S2560x1024 x3' _) _
      (fun y hy => by rw [shapeCast_self, shapeCast_self]; exact h3 y hy),
    select_cols _ (shapeCast S64x2560 x4 _) (shapeCast S64x2560 x4' _) _
      (fun y hy => by rw [shapeCast_self, shapeCast_self]; exact h4 y hy)]

end Cert.KernelIdeal.Hand

end
-- ==== Proof.Data.lean ====
import proofs.«129949_g26456998544025_cont_9to1_950_20_alg».proof.Proof.Cases
import proofs.«129949_g26456998544025_cont_9to1_950_20_alg».proof.Proof.Mask

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core c's buffer contents when the launch is reached: after the ten transposes and reshapes of the arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The array behind window w. -/
abbrev arrOf (c : Dev nD) (w : Fin cfg0.W) : Buf (Elt F) ((cfg0.win w).arr.view.loc (c : Thread nD τ)) :=
  V m c (Pipeline.arrRef spec0 w)

/-- What input window w's current staging buffer holds at point t: the block fetched at the last point at or before
    t that fetched it (on the part of the buffer a clipped fetch does not fill, a word nothing reads). -/
abbrev blkAt (c : Dev nD) (w : Fin cfg0.W) (t : Fin cfg0.N) : (cfg0.win w).block.Idx → Elt F (cfg0.win w).elt :=
  Pipeline.heldIn cfg0 (arrOf m c) w t.val t.isLt

/-! ## What the scratch buffers and the output buffer hold, point by point -/

/-- The running sum after point n. -/
def sumAt (c : Dev nD) : (n : ℕ) → n < cfg0.N → FVec F S64x1024 .f32
  | 0, h => k0_pay3 (k0_pay1 (F := F)) (blkAt m c 1 ⟨0, h⟩) (blkAt m c 0 ⟨0, h⟩) (blkAt m c 3 ⟨0, h⟩) (blkAt m c 2 ⟨0, h⟩)
  | n + 1, h =>
    if n + 1 < 19 then
      k0_pay3 (sumAt c n (Nat.lt_of_succ_lt h)) (blkAt m c 1 ⟨n + 1, h⟩) (blkAt m c 0 ⟨n + 1, h⟩) (blkAt m c 3 ⟨n + 1, h⟩) (blkAt m c 2 ⟨n + 1, h⟩)
    else
      k0_pay5 (blkAt m c 2 ⟨n + 1, h⟩) (blkAt m c 3 ⟨n + 1, h⟩) (sumAt c n (Nat.lt_of_succ_lt h)) (blkAt m c 1 ⟨n + 1, h⟩) (blkAt m c 0 ⟨n + 1, h⟩)

theorem N20 : cfg0.N = 20 := N_0

/-- The first and the last point. -/
abbrev tFirst : Fin cfg0.N := ⟨0, by rw [N20]; omega⟩
abbrev tLast : Fin cfg0.N := ⟨19, by rw [N20]; omega⟩

/-- The rectified compound embedding, computed at the first point. -/
def embAt (c : Dev nD) : FVec F S64x1024 .f32 := k0_pay2 (blkAt m c 5 tFirst) (blkAt m c 4 tFirst) (blkAt m c 7 tFirst)

/-- The output row, stored at the last point. -/
def rowAt (c : Dev nD) : FVec F S1x1024 .f32 :=
  k0_pay4 (k0_pay6 (sumAt m c 19 tLast.isLt) (blkAt m c 6 tLast)) (k0_pay7 (F := F)) (blkAt m c 8 tLast) (embAt m c)
    (blkAt m c 9 tLast) (blkAt m c 10 tLast) (blkAt m c 11 tLast)

/-- The two scratch operands as memrefs. -/
abbrev scM0 : Memref sig .tc .vmem S64x1024 .f32 := Memref.whole cc0_scratch0
abbrev scM1 : Memref sig .tc .vmem S64x1024 .f32 := Memref.whole cc0_scratch1

/-- The invariant between points: before the first point the two scratch buffers hold anything; after point n the
    first holds the running sum and the second the compound embedding. -/
def PhiS (c : Dev nD) : (n : ℕ) → n ≤ cfg0.N → sProp 𝕄
  | 0, _ => Pipeline.ΦA spec0 c
  | n + 1, hn => iprop(owns (c : Thread nD τ) scM0 fullShare (sumAt m c n hn) ∗ owns (c : Thread nD τ) scM1 fullShare (embAt m c)
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0 fullShare (sumAt m c n hn) ∗ owns (c : Thread nD τ) scM1 fullShare (embAt m c)
      ∗ (∃ r, prngReg c r)) := rfl

theorem PhiS_pos (c : Dev nD) (n : ℕ) (h : n ≤ cfg0.N) (hz : n ≠ 0) :
    PhiS m c n h = iprop(owns (c : Thread nD τ) scM0 fullShare (sumAt m c (n - 1) (by omega)) ∗ owns (c : Thread nD τ) scM1 fullShare (embAt m c)
      ∗ (∃ r, prngReg c r)) := by
  cases n with
  | zero => exact absurd rfl hz
  | succ n => rfl

/-- The invariant before the first point, with the scratch buffers as memrefs. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The proof data of the pipeline on core c.  The two arrays that two windows share are held half and half by
    those windows; every other array whole. -/
def dats (_ : Fin 1) (c : Dev nD) : Dat τ (Elt F) Unit ℕ (UR sig nD τ) ℕ cfg0 c where
  A w := arrOf m c w
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => blkAt m c 6 t
    | ⟨7, _⟩ => blkAt m c 7 t
    | ⟨8, _⟩ => blkAt m c 8 t
    | ⟨9, _⟩ => blkAt m c 9 t
    | ⟨10, _⟩ => blkAt m c 10 t
    | ⟨11, _⟩ => blkAt m c 11 t
    | ⟨12, _⟩ => rowAt m c
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = arrOf m c w := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

end Cert.KernelIdeal.Hand

end
-- ==== Proof.Runs.lean ====
import proofs.«129949_g26456998544025_cont_9to1_950_20_alg».proof.Proof.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (c : Dev nD) (i : grid0.Coords)
    (a1 : Memref sig .tc .vmem S2560x1024 .f32) (h1 : a1.IsWhole) (a2 : Memref sig .tc .vmem S64x2560 .f32) (h2 : a2.IsWhole)
    (a3 : Memref sig .tc .vmem S2560x1024 .f32) (h3 : a3.IsWhole) (a4 : Memref sig .tc .vmem S64x2560 .f32) (h4 : a4.IsWhole)
    (a5 : Memref sig .tc .vmem S1000x1024 .f32) (h5 : a5.IsWhole) (a6 : Memref sig .tc .vmem S64x1000 .f32) (h6 : a6.IsWhole)
    (a7 : Memref sig .tc .vmem S64x1 .f32) (h7 : a7.IsWhole) (a8 : Memref sig .tc .vmem S64x1 .f32) (h8 : a8.IsWhole)
    (a9 : Memref sig .tc .vmem S64x128 .f32) (h9 : a9.IsWhole) (a10 : Memref sig .tc .vmem S64x1 .f32) (h10 : a10.IsWhole)
    (a11 : Memref sig .tc .vmem S1x64 .f32) (h11 : a11.IsWhole) (a12 : Memref sig .tc .vmem S1x1 .f32) (h12 : a12.IsWhole)
    (a13 : Memref sig .tc .vmem S1x1024 .f32) (h13 : a13.IsWhole) (a14 : Memref sig .tc .vmem S64x1024 .f32) (h14 : a14.IsWhole)
    (a15 : Memref sig .tc .vmem S64x1024 .f32) (h15 : a15.IsWhole)

/-! ## The kernel body, case by case

At each grid point exactly one assignment of the three branch conditions holds.  In every case the body leaves its
input buffers as it found them; what it leaves in the two scratch buffers and in the output buffer is stated through
the payload terms of the body's stores. -/

set_option maxHeartbeats 3200000 in
/-- The first point: the running sum is zeroed, then the first two block products are added to it; the rectified
    compound embedding goes into the second scratch buffer. -/
theorem run_first (hc1 : cond1 i) (hc2 : cond2 i) (hc3 : ¬cond3 i)
    (x1 : Vec F S2560x1024 .f32) (x2 : Vec F S64x2560 .f32) (x3 : Vec F S2560x1024 .f32) (x4 : Vec F S64x2560 .f32)
    (x5 : Vec F S1000x1024 .f32) (x6 : Vec F S64x1000 .f32) (x8 : Vec F S64x1 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4
        ∗ owns (c : Thread nD τ) a5 fullShare x5 ∗ owns (c : Thread nD τ) a6 fullShare x6 ∗ owns (c : Thread nD τ) a8 fullShare x8
        ∗ (∃ d, owns (c : Thread nD τ) a14 fullShare d) ∗ (∃ d, owns (c : Thread nD τ) a15 fullShare d)
        ∗ (iprop(owns (c : Thread nD τ) a1 fullShare x1 ∗ owns (c : Thread nD τ) a2 fullShare x2 ∗ owns (c : Thread nD τ) a3 fullShare x3
        ∗ owns (c : Thread nD τ) a4 fullShare x4
            ∗ owns (c : Thread nD τ) a5 fullShare x5 ∗ owns (c : Thread nD τ) a6 fullShare x6 ∗ owns (c : Thread nD τ) a8 fullShare x8
            ∗ owns (c : Thread nD τ) a14 fullShare (k0_pay3 (k0_pay1 (F := F)) x2 x1 x4 x3)
            ∗ owns (c : Thread nD τ) a15 fullShare (k0_pay2 x6 x5 x8)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩,
    ⟨%ds, %fs, -, HS⟩, ⟨%dc, %fc, -, HC⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hf8
  sl_exec (disch := first | exact hc1 | exact hc2 | exact hc3)
  sl_step
  sl_unfold_words
  simp only [readAt_whole2, readCov_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  isplitl [H5]; · iapply (ex_of_unread c a5 h5 x5); iexact H5
  isplitl [H6]; · iapply (ex_of_unread c a6 h6 x6); iexact H6
  isplitl [H8]; · iapply (ex_of_unread c a8 h8 x8); iexact H8
  isplitl [HS]; · iapply (ex_of_writes c a14 hz2 _ _ _ _); iexact HS
  iapply (ex_of_writes c a15 hz2 _ _ _ _); iexact HC

set_option maxHeartbeats 1600000 in
/-- A middle point: the two block products are added to the running sum. -/
theorem run_mid (hc1 : ¬cond1 i) (hc2 : cond2 i) (hc3 : ¬cond3 i)
    (x1 : Vec F S2560x1024 .f32) (x2 : Vec F S64x2560 .f32) (x3 : Vec F S2560x1024 .f32) (x4 : Vec F S64x2560 .f32) (s : Vec F S64x1024 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a14 fullShare s
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a14 fullShare (k0_pay3 s x2 x1 x4 x3)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%fs, %hfs, HS⟩, Hk⟩
  obtain rfl := h1.eq_unread hf1; obtain rfl := h2.eq_unread hf2; obtain rfl := h3.eq_unread hf3; obtain rfl := h4.eq_unread hf4
  obtain rfl := h14.eq_unread hfs
  sl_exec (disch := first | exact hc1 | exact hc2 | exact hc3)
  sl_step
  simp only [readAt_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  iapply (ex_of_writes c a14 hz2 _ _ _ _); iexact HS

set_option maxHeartbeats 6400000 in
/-- The last point: the masked product of the overhanging block and the product of the block before it are added to
    the running sum, and the head of the network is applied to the result: the output row is stored. -/
theorem run_last (hc1 : ¬cond1 i) (hc2 : ¬cond2 i) (hc3 : cond3 i)
    (x1 : Vec F S2560x1024 .f32) (x2 : Vec F S64x2560 .f32) (x3 : Vec F S2560x1024 .f32) (x4 : Vec F S64x2560 .f32)
    (x7 : Vec F S64x1 .f32) (x9 : Vec F S64x128 .f32) (x10 : Vec F S64x1 .f32) (x11 : Vec F S1x64 .f32) (x12 : Vec F S1x1 .f32)
    (xo : Vec F S1x1024 .f32) (s : Vec F S64x1024 .f32) (ce : Vec F S64x1024 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4
        ∗ owns (c : Thread nD τ) a7 fullShare x7 ∗ owns (c : Thread nD τ) a9 fullShare x9 ∗ owns (c : Thread nD τ) a10 fullShare x10
        ∗ owns (c : Thread nD τ) a11 fullShare x11 ∗ owns (c : Thread nD τ) a12 fullShare x12 ∗ owns (c : Thread nD τ) a13 fullShare xo
        ∗ owns (c : Thread nD τ) a14 fullShare s ∗ owns (c : Thread nD τ) a15 fullShare ce
        ∗ (iprop(owns (c : Thread nD τ) a1 fullShare x1 ∗ owns (c : Thread nD τ) a2 fullShare x2 ∗ owns (c : Thread nD τ) a3 fullShare x3
        ∗ owns (c : Thread nD τ) a4 fullShare x4
            ∗ owns (c : Thread nD τ) a7 fullShare x7 ∗ owns (c : Thread nD τ) a9 fullShare x9 ∗ owns (c : Thread nD τ) a10 fullShare x10
            ∗ owns (c : Thread nD τ) a11 fullShare x11 ∗ owns (c : Thread nD τ) a12 fullShare x12
            ∗ owns (c : Thread nD τ) a13 fullShare (k0_pay4 (k0_pay6 (k0_pay5 x3 x4 s x2 x1) x7) (k0_pay7 (F := F)) x9 ce x10 x11 x12)
            ∗ owns (c : Thread nD τ) a14 fullShare (k0_pay5 x3 x4 s x2 x1) ∗ owns (c : Thread nD τ) a15 fullShare ce) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f7, %hf7, H7⟩, ⟨%f9, %hf9, H9⟩, ⟨%f10, %hf10, H10⟩,
    ⟨%f11, %hf11, H11⟩, ⟨%f12, %hf12, H12⟩, ⟨%fo, %hfo, HO⟩, ⟨%fs, %hfs, HS⟩, ⟨%fc, %hfc, HC⟩, Hk⟩
  obtain rfl := h1.eq_unread hf1; obtain rfl := h2.eq_unread hf2; obtain rfl := h3.eq_unread hf3; obtain rfl := h4.eq_unread hf4
  obtain rfl := h7.eq_unread hf7; obtain rfl := h9.eq_unread hf9; obtain rfl := h10.eq_unread hf10; obtain rfl := h11.eq_unread hf11
  obtain rfl := h12.eq_unread hf12; obtain rfl := h13.eq_unread hfo; obtain rfl := h14.eq_unread hfs; obtain rfl := h15.eq_unread hfc
  sl_exec (disch := first | exact hc1 | exact hc2 | exact hc3)
  sl_step
  sl_unfold_words
  simp only [readAt_whole2, readCov_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  isplitl [H7]; · iapply (ex_of_unread c a7 h7 x7); iexact H7
  isplitl [H9]; · iapply (ex_of_unread c a9 h9 x9); iexact H9
  isplitl [H10]; · iapply (ex_of_unread c a10 h10 x10); iexact H10
  isplitl [H11]; · iapply (ex_of_unread c a11 h11 x11); iexact H11
  isplitl [H12]; · iapply (ex_of_unread c a12 h12 x12); iexact H12
  isplitl [HO]; · iapply (ex_of_writes c a13 hz2 _ _ _ _); iexact HO
  isplitl [HS]; · iapply (ex_of_writes c a14 hz2 _ _ _ _); iexact HS
  iapply (ex_of_unread c a15 h15 ce); iexact HC

end Cert.KernelIdeal.Hand

end
-- ==== Proof.Body.lean ====
import proofs.«129949_g26456998544025_cont_9to1_950_20_alg».proof.Proof.Data
import proofs.«129949_g26456998544025_cont_9to1_950_20_alg».proof.Proof.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a fetch is cut

The even blocks (windows 0 and 1) always lie inside the arrays; the odd blocks (windows 2 and 3) do except at the last
point, where only the first 160 of the block's 2560 positions along the contracted axis are inside. -/

theorem clip_0 : ∀ (t : Fin cfg0.N) a, (cfg0.win 0).clip (cfg0.grid.coords t) a = none :=
  (by decide +kernel : ∀ (t : Fin grid0.N) a, win0_0.clip (grid0.coords t) a = none)
theorem clip_1 : ∀ (t : Fin cfg0.N) a, (cfg0.win 1).clip (cfg0.grid.coords t) a = none :=
  (by decide +kernel : ∀ (t : Fin grid0.N) a, win0_1.clip (grid0.coords t) a = none)
theorem clip_2 : ∀ (t : Fin cfg0.N), t.val < 19 → ∀ a, (cfg0.win 2).clip (cfg0.grid.coords t) a = none :=
  (by decide +kernel : ∀ (t : Fin grid0.N), t.val < 19 → ∀ a, win0_2.clip (grid0.coords t) a = none)
theorem clip_3 : ∀ (t : Fin cfg0.N), t.val < 19 → ∀ a, (cfg0.win 3).clip (cfg0.grid.coords t) a = none :=
  (by decide +kernel : ∀ (t : Fin grid0.N), t.val < 19 → ∀ a, win0_3.clip (grid0.coords t) a = none)
/-- At the last point the odd blocks keep 160 rows (columns) of 2560. -/
theorem xsize_2 : ∀ a, (cfg0.win 2).xsize (cfg0.grid.coords tLast) a = (![160, 1024] : Fin 2 → Nat) a :=
  (by decide +kernel : ∀ a, win0_2.xsize (grid0.coords ⟨19, by decide⟩) a = (![160, 1024] : Fin 2 → Nat) a)
theorem xsize_3 : ∀ a, (cfg0.win 3).xsize (cfg0.grid.coords tLast) a = (![64, 160] : Fin 2 → Nat) a :=
  (by decide +kernel : ∀ a, win0_3.xsize (grid0.coords ⟨19, by decide⟩) a = (![64, 160] : Fin 2 → Nat) a)

/-! ## What the body finds in each staging buffer -/

/-- A window fetched at t whose block lies inside the array: the buffer holds the block, whatever it held before. -/
theorem before_inside (c : Dev nD) (w : Fin cfg0.W) (t : Fin cfg0.N) (hf : (cfg0.win w).fetch t = true)
    (hclip : ∀ a, (cfg0.win w).clip (cfg0.grid.coords t) a = none) (d) : (dats m 0 c).before w t d = blkAt m c w t := by
  rw [(dats m 0 c).before_fetched w t hf]
  show _ = Pipeline.heldIn cfg0 (arrOf m c) w t.val t.isLt
  rw [Pipeline.heldIn_of_fetch _ w t hf]
  unfold Dat.fetched Dat.blockOf
  exact Pipeline.fill_of_clip_none w _ hclip _ _ _

theorem before_0 (c : Dev nD) (t : Fin cfg0.N) (d) : (dats m 0 c).before 0 t d = blkAt m c 0 t :=
  before_inside m c 0 t (fetch0_0 t) (clip_0 t) d
theorem before_1 (c : Dev nD) (t : Fin cfg0.N) (d) : (dats m 0 c).before 1 t d = blkAt m c 1 t :=
  before_inside m c 1 t (fetch0_1 t) (clip_1 t) d
theorem before_2 (c : Dev nD) (t : Fin cfg0.N) (ht : t.val < 19) (d) : (dats m 0 c).before 2 t d = blkAt m c 2 t :=
  before_inside m c 2 t (fetch0_2 t) (clip_2 t ht) d
theorem before_3 (c : Dev nD) (t : Fin cfg0.N) (ht : t.val < 19) (d) : (dats m 0 c).before 3 t d = blkAt m c 3 t :=
  before_inside m c 3 t (fetch0_3 t) (clip_3 t ht) d

/-- A window whose one block is the whole array, fetched once: the buffer holds it at every point. -/
theorem before_4 (c : Dev nD) (t : Fin cfg0.N) (d) : (dats m 0 c).before 4 t d = blkAt m c 4 t :=
  (dats m 0 c).before_eq_heldIn 4 rfl (fun _ => rfl) (fun _ _ => rfl) (fun t => by dsimp only [dats]) t d
theorem before_5 (c : Dev nD) (t : Fin cfg0.N) (d) : (dats m 0 c).before 5 t d = blkAt m c 5 t :=
  (dats m 0 c).before_eq_heldIn 5 rfl (fun _ => rfl) (fun _ _ => rfl) (fun t => by dsimp only [dats]) t d
theorem before_6 (c : Dev nD) (t : Fin cfg0.N) (d) : (dats m 0 c).before 6 t d = blkAt m c 6 t :=
  (dats m 0 c).before_eq_heldIn 6 rfl (fun _ => rfl) (fun _ _ => rfl) (fun t => by dsimp only [dats]) t d
theorem before_7 (c : Dev nD) (t : Fin cfg0.N) (d) : (dats m 0 c).before 7 t d = blkAt m c 7 t :=
  (dats m 0 c).before_eq_heldIn 7 rfl (fun _ => rfl) (fun _ _ => rfl) (fun t => by dsimp only [dats]) t d
theorem before_8 (c : Dev nD) (t : Fin cfg0.N) (d) : (dats m 0 c).before 8 t d = blkAt m c 8 t :=
  (dats m 0 c).before_eq_heldIn 8 rfl (fun _ => rfl) (fun _ _ => rfl) (fun t => by dsimp only [dats]) t d
theorem before_9 (c : Dev nD) (t : Fin cfg0.N) (d) : (dats m 0 c).before 9 t d = blkAt m c 9 t :=
  (dats m 0 c).before_eq_heldIn 9 rfl (fun _ => rfl) (fun _ _ => rfl) (fun t => by dsimp only [dats]) t d
theorem before_10 (c : Dev nD) (t : Fin cfg0.N) (d) : (dats m 0 c).before 10 t d = blkAt m c 10 t :=
  (dats m 0 c).before_eq_heldIn 10 rfl (fun _ => rfl) (fun _ _ => rfl) (fun t => by dsimp only [dats]) t d
theorem before_11 (c : Dev nD) (t : Fin cfg0.N) (d) : (dats m 0 c).before 11 t d = blkAt m c 11 t :=
  (dats m 0 c).before_eq_heldIn 11 rfl (fun _ => rfl) (fun _ _ => rfl) (fun t => by dsimp only [dats]) t d

/-- What a fetched window's buffer is handed back as: the block on the part the fetch filled, the rest as found. -/
theorem keep (c : Dev nD) (w : Fin cfg0.W) (t : Fin cfg0.N) (hf : (cfg0.win w).fetch t = true) (d) :
    (cfg0.win w).fill (cfg0.grid.coords t) d ((cfg0.win w).cut (cfg0.grid.coords t) (blkAt m c w t)) = (dats m 0 c).before w t d := by
  rw [(dats m 0 c).before_fetched w t hf, show blkAt m c w t = _ from Pipeline.heldIn_of_fetch _ w t hf, Window.cut_fill]
  rfl

/-- At the last point the two odd blocks, as found and as named, agree on the positions inside the arrays. -/
theorem last_2 (c : Dev nD) (d) (y : S2560x1024.Idx) (hy : (y 0).val < 160) :
    (dats m 0 c).before 2 tLast d y = blkAt m c 2 tLast y := by
  have hm : (cfg0.win 2).moved (cfg0.grid.coords tLast) y = true :=
    ((cfg0.win 2).moved_iff _ y).mpr fun a => by
      rw [xsize_2 a]; match a with | ⟨0, _⟩ => exact hy | ⟨1, _⟩ => exact (y 1).isLt
  rw [(dats m 0 c).before_fetched 2 tLast (fetch0_2 tLast), show blkAt m c 2 tLast = _ from Pipeline.heldIn_of_fetch _ 2 tLast (fetch0_2 tLast)]
  unfold Dat.fetched Dat.blockOf Window.fill
  rw [dif_pos hm, dif_pos hm]; rfl
theorem last_3 (c : Dev nD) (d) (y : S64x2560.Idx) (hy : (y 1).val < 160) :
    (dats m 0 c).before 3 tLast d y = blkAt m c 3 tLast y := by
  have hm : (cfg0.win 3).moved (cfg0.grid.coords tLast) y = true :=
    ((cfg0.win 3).moved_iff _ y).mpr fun a => by
      rw [xsize_3 a]; match a with | ⟨0, _⟩ => exact (y 0).isLt | ⟨1, _⟩ => exact hy
  rw [(dats m 0 c).before_fetched 3 tLast (fetch0_3 tLast), show blkAt m c 3 tLast = _ from Pipeline.heldIn_of_fetch _ 3 tLast (fetch0_3 tLast)]
  unfold Dat.fetched Dat.blockOf Window.fill
  rw [dif_pos hm, dif_pos hm]; rfl

/-! ## The running sum, point by point -/

theorem sumAt_mid (c : Dev nD) (t : Fin cfg0.N) (h0 : t.val ≠ 0) (h19 : t.val < 19) :
    sumAt m c t.val t.isLt = k0_pay3 (sumAt m c (t.val - 1) (by omega)) (blkAt m c 1 t) (blkAt m c 0 t) (blkAt m c 3 t) (blkAt m c 2 t) := by
  obtain ⟨n, hn⟩ := t
  cases n with
  | zero => exact absurd rfl h0
  | succ n => exact (if_pos h19).trans rfl

theorem sumAt_last (c : Dev nD) :
    sumAt m c 19 tLast.isLt = k0_pay5 (blkAt m c 2 tLast) (blkAt m c 3 tLast) (sumAt m c 18 (by rw [N20]; omega)) (blkAt m c 1 tLast) (blkAt m c 0 tLast) :=
  (if_neg (by decide : ¬ (18 + 1 < 19))).trans rfl

/-! ## The body obligation -/

theorem idle_12 : ∀ t : Fin cfg0.N, t.val < 19 → cfg0.idle 12 (cfg0.grid.coords t) = true :=
  (by decide +kernel : ∀ t : Fin grid0.N, t.val < 19 → idle0 12 (grid0.coords t) = true)
theorem live_12 : cfg0.idle 12 (cfg0.grid.coords tLast) = false := by
  have h : ∀ t : Fin grid0.N, t.val = 19 → idle0 12 (grid0.coords t) = false := by decide +kernel
  exact h tLast rfl
theorem noflush_12 (t : Fin cfg0.N) (ht : t.val < 19) : (cfg0.win 12).flush t = false := by
  have := flush0_12 t
  cases h : (cfg0.win 12).flush t
  · rfl
  · have := this.mp h; omega

theorem leaves_0 (c : Dev nD) (t : Fin cfg0.N) :
    (dats m 0 c).leaves 0 t = iprop(∃ d, owns (c : Thread nD τ) (st0_0 t) fullShare ((dats m 0 c).before 0 t d)) := by
  show iprop(∃ d, owns (c : Thread nD τ) (st0_0 t) fullShare ((cfg0.win 0).fill (cfg0.grid.coords t) d ((cfg0.win 0).cut (cfg0.grid.coords t) ((dats m 0 c).after 0 t)))) = _
  simp only [show (dats m 0 c).after 0 t = blkAt m c 0 t from by dsimp only [dats], keep m c 0 t (fetch0_0 t)]
theorem leaves_1 (c : Dev nD) (t : Fin cfg0.N) :
    (dats m 0 c).leaves 1 t = iprop(∃ d, owns (c : Thread nD τ) (st0_1 t) fullShare ((dats m 0 c).before 1 t d)) := by
  show iprop(∃ d, owns (c : Thread nD τ) (st0_1 t) fullShare ((cfg0.win 1).fill (cfg0.grid.coords t) d ((cfg0.win 1).cut (cfg0.grid.coords t) ((dats m 0 c).after 1 t)))) = _
  simp only [show (dats m 0 c).after 1 t = blkAt m c 1 t from by dsimp only [dats], keep m c 1 t (fetch0_1 t)]
theorem leaves_2 (c : Dev nD) (t : Fin cfg0.N) :
    (dats m 0 c).leaves 2 t = iprop(∃ d, owns (c : Thread nD τ) (st0_2 t) fullShare ((dats m 0 c).before 2 t d)) := by
  show iprop(∃ d, owns (c : Thread nD τ) (st0_2 t) fullShare ((cfg0.win 2).fill (cfg0.grid.coords t) d ((cfg0.win 2).cut (cfg0.grid.coords t) ((dats m 0 c).after 2 t)))) = _
  simp only [show (dats m 0 c).after 2 t = blkAt m c 2 t from by dsimp only [dats], keep m c 2 t (fetch0_2 t)]
theorem leaves_3 (c : Dev nD) (t : Fin cfg0.N) :
    (dats m 0 c).leaves 3 t = iprop(∃ d, owns (c : Thread nD τ) (st0_3 t) fullShare ((dats m 0 c).before 3 t d)) := by
  show iprop(∃ d, owns (c : Thread nD τ) (st0_3 t) fullShare ((cfg0.win 3).fill (cfg0.grid.coords t) d ((cfg0.win 3).cut (cfg0.grid.coords t) ((dats m 0 c).after 3 t)))) = _
  simp only [show (dats m 0 c).after 3 t = blkAt m c 3 t from by dsimp only [dats], keep m c 3 t (fetch0_3 t)]
theorem leaves_4 (c : Dev nD) (t : Fin cfg0.N) :
    (dats m 0 c).leaves 4 t = owns (c : Thread nD τ) (st0_4 t) fullShare (blkAt m c 4 t) := by
  show owns (c : Thread nD τ) (st0_4 t) fullShare ((dats m 0 c).after 4 t) = _
  rw [show (dats m 0 c).after 4 t = blkAt m c 4 t from by dsimp only [dats]]
theorem leaves_5 (c : Dev nD) (t : Fin cfg0.N) :
    (dats m 0 c).leaves 5 t = owns (c : Thread nD τ) (st0_5 t) fullShare (blkAt m c 5 t) := by
  show owns (c : Thread nD τ) (st0_5 t) fullShare ((dats m 0 c).after 5 t) = _
  rw [show (dats m 0 c).after 5 t = blkAt m c 5 t from by dsimp only [dats]]
theorem leaves_6 (c : Dev nD) (t : Fin cfg0.N) :
    (dats m 0 c).leaves 6 t = owns (c : Thread nD τ) (st0_6 t) fullShare (blkAt m c 6 t) := by
  show owns (c : Thread nD τ) (st0_6 t) fullShare ((dats m 0 c).after 6 t) = _
  rw [show (dats m 0 c).after 6 t = blkAt m c 6 t from by dsimp only [dats]]
theorem leaves_7 (c : Dev nD) (t : Fin cfg0.N) :
    (dats m 0 c).leaves 7 t = owns (c : Thread nD τ) (st0_7 t) fullShare (blkAt m c 7 t) := by
  show owns (c : Thread nD τ) (st0_7 t) fullShare ((dats m 0 c).after 7 t) = _
  rw [show (dats m 0 c).after 7 t = blkAt m c 7 t from by dsimp only [dats]]
theorem leaves_8 (c : Dev nD) (t : Fin cfg0.N) :
    (dats m 0 c).leaves 8 t = owns (c : Thread nD τ) (st0_8 t) fullShare (blkAt m c 8 t) := by
  show owns (c : Thread nD τ) (st0_8 t) fullShare ((dats m 0 c).after 8 t) = _
  rw [show (dats m 0 c).after 8 t = blkAt m c 8 t from by dsimp only [dats]]
theorem leaves_9 (c : Dev nD) (t : Fin cfg0.N) :
    (dats m 0 c).leaves 9 t = owns (c : Thread nD τ) (st0_9 t) fullShare (blkAt m c 9 t) := by
  show owns (c : Thread nD τ) (st0_9 t) fullShare ((dats m 0 c).after 9 t) = _
  rw [show (dats m 0 c).after 9 t = blkAt m c 9 t from by dsimp only [dats]]
theorem leaves_10 (c : Dev nD) (t : Fin cfg0.N) :
    (dats m 0 c).leaves 10 t = owns (c : Thread nD τ) (st0_10 t) fullShare (blkAt m c 10 t) := by
  show owns (c : Thread nD τ) (st0_10 t) fullShare ((dats m 0 c).after 10 t) = _
  rw [show (dats m 0 c).after 10 t = blkAt m c 10 t from by dsimp only [dats]]
theorem leaves_11 (c : Dev nD) (t : Fin cfg0.N) :
    (dats m 0 c).leaves 11 t = owns (c : Thread nD τ) (st0_11 t) fullShare (blkAt m c 11 t) := by
  show owns (c : Thread nD τ) (st0_11 t) fullShare ((dats m 0 c).after 11 t) = _
  rw [show (dats m 0 c).after 11 t = blkAt m c 11 t from by dsimp only [dats]]
theorem leaves_12_idle (c : Dev nD) (t : Fin cfg0.N) (ht : t.val < 19) :
    (dats m 0 c).leaves 12 t = iprop(∃ d, owns (c : Thread nD τ) (st0_12 t) fullShare ((dats m 0 c).before 12 t d)) :=
  (dats m 0 c).leaves_idle 12 t (idle_12 t ht) (noflush_12 t ht)
theorem leaves_12_last (c : Dev nD) :
    (dats m 0 c).leaves 12 tLast = owns (c : Thread nD τ) (st0_12 tLast) fullShare (rowAt m c) := by
  unfold Dat.leaves; rw [live_12]
  show owns (c : Thread nD τ) (st0_12 tLast) fullShare ((dats m 0 c).after 12 tLast) = _
  rw [show (dats m 0 c).after 12 tLast = rowAt m c from by dsimp only [dats]]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t)

set_option maxHeartbeats 8000000 in
/-- The body at any point.  At the first point the invariant hands over the scratch buffers at anything and takes
    them back at the first partial sum and the compound embedding; at a middle point the sum grows by two block
    products; at the last point the sum is completed — the positions of the overhanging block past the arrays'
    end do not matter, both operands being zeroed there — and the output row is stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11]
  simp only [before_0, before_1, before_4, before_5, before_6, before_7, before_8, before_9, before_10, before_11]
  have hN : t.val < 20 := lt_of_lt_of_eq t.isLt N20
  by_cases h0 : t.val = 0
  · have h19 : t.val < 19 := by omega
    rw [leaves_12_idle m c t h19]
    simp only [before_2 m c t h19, before_3 m c t h19]
    rw [PhiS_castSucc m c t, PhiS_zero m c _ _ h0, PhiA_eq]
    have hs : sumAt m c t.val t.isLt = k0_pay3 (k0_pay1 (F := F)) (blkAt m c 1 t) (blkAt m c 0 t) (blkAt m c 3 t) (blkAt m c 2 t) := by
      obtain ⟨n, hn⟩ := t
      cases n with
      | zero => rfl
      | succ n => exact absurd h0 (Nat.succ_ne_zero n)
    have he : embAt m c = k0_pay2 (blkAt m c 5 t) (blkAt m c 4 t) (blkAt m c 7 t) := by
      have ht : t = tFirst := Fin.ext h0
      subst ht; rfl
    rw [hs, he]
    iintro ⟨⟨⟨HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid0.coords t) _ _ _ _ _ _ _ _ _ _ _ _ _ _ _ _ _ _ _ _ _ _ _ _ _ _ _ _ _ _ ((hcond1 t).mpr h0) ((hcond2 t).mpr h19) (fun h => by have := (hcond3 t).mp h; omega)
      (blkAt m c 0 t) (blkAt m c 1 t) (blkAt m c 2 t) (blkAt m c 3 t) (blkAt m c 4 t) (blkAt m c 5 t) (blkAt m c 7 t) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [HS]; · iexact HS
    isplitl [HC]; · iexact HC
    iintro ⟨H0, H1, H2, H3, H4, H5, H7, HS, HC⟩
    isplitl [HS HC Hg]
    · isplitl [HS]; · iexact HS
      isplitl [HC]; · iexact HC
      iexact Hg
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · by_cases h19 : t.val < 19
    · rw [leaves_12_idle m c t h19]
      simp only [before_2 m c t h19, before_3 m c t h19]
      rw [PhiS_castSucc m c t, PhiS_pos m c _ _ h0, sumAt_mid m c t h0 h19]
      iintro ⟨⟨HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_mid c (grid0.coords t) _ _ _ _ _ _ _ _ _ _ _ _ _ _ _ _ _ _ _ _ _ _ _ _ _ _ _ _ _ _ (fun h => h0 ((hcond1 t).mp h)) ((hcond2 t).mpr h19) (fun h => by have := (hcond3 t).mp h; omega)
        (blkAt m c 0 t) (blkAt m c 1 t) (blkAt m c 2 t) (blkAt m c 3 t) (sumAt m c (t.val - 1) (by omega)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HC Hg]
      · isplitl [HS]; · iexact HS
        isplitl [HC]; · iexact HC
        iexact Hg
      isplitl [Ho]; · iexact Ho
      isplitl [H0]; · iexists d0; iexact H0
      isplitl [H1]; · iexists d1; iexact H1
      isplitl [H2]; · iexists d2; iexact H2
      isplitl [H3]; · iexists d3; iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists d12; iexact H12
    · have ht : t = tLast := Fin.ext (by show t.val = 19; omega)
      subst ht
      rw [leaves_12_last]
      unfold rowAt
      rw [PhiS_castSucc m c tLast, PhiS_pos m c _ _ h0, sumAt_last]
      iintro ⟨⟨HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have hm := pay5_mask ((dats m 0 c).before 2 tLast d2) (blkAt m c 2 tLast) ((dats m 0 c).before 3 tLast d3) (blkAt m c 3 tLast)
        (sumAt m c 18 (by rw [N20]; omega)) (blkAt m c 1 tLast) (blkAt m c 0 tLast) (last_2 m c d2) (last_3 m c d3)
      iapply (run_last c (grid0.coords tLast) _ _ _ _ _ _ _ _ _ _ _ _ _ _ _ _ _ _ _ _ _ _ _ _ _ _ _ _ _ _ (fun h => h0 ((hcond1 tLast).mp h)) (fun h => h19 ((hcond2 tLast).mp h)) ((hcond3 tLast).mpr rfl)
        (blkAt m c 0 tLast) (blkAt m c 1 tLast) ((dats m 0 c).before 2 tLast d2) ((dats m 0 c).before 3 tLast d3)
        (blkAt m c 6 tLast) (blkAt m c 8 tLast) (blkAt m c 9 tLast) (blkAt m c 10 tLast) (blkAt m c 11 tLast)
        ((dats m 0 c).before 12 tLast d12) (sumAt m c 18 (by rw [N20]; omega)) (embAt m c) Set.univ _)
      isplitl [H0]; · iexact H0
      isplitl [H1]; · iexact H1
      isplitl [H2]; · iexact H2
      isplitl [H3]; · iexact H3
      isplitl [H6]; · iexact H6
      isplitl [H8]; · iexact H8
      isplitl [H9]; · iexact H9
      isplitl [H10]; · iexact H10
      isplitl [H11]; · iexact H11
      isplitl [H12]; · iexact H12
      isplitl [HS]; · iexact HS
      isplitl [HC]; · iexact HC
      rw [hm]
      iintro ⟨H0, H1, H2, H3, H6, H8, H9, H10, H11, H12, HS, HC⟩
      isplitl [HS HC Hg]
      · isplitl [HS]; · iexact HS
        isplitl [HC]; · iexact HC
        iexact Hg
      isplitl [Ho]; · iexact Ho
      isplitl [H0]; · iexists d0; iexact H0
      isplitl [H1]; · iexists d1; iexact H1
      isplitl [H2]; · iexists d2; iexact H2
      isplitl [H3]; · iexists d3; iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N20]; omega), PhiA_eq]
  iintro ⟨HS, HC, Hg⟩
  isplitl [HS HC]
  · isplitl [HS]
    · iexists _; iexact HS
    · iexists _; iexact HC
  iexact Hg

end Cert.KernelIdeal.Hand

end
-- ==== Proof.CasesK.lean ====
import proofs.«129949_g26456998544025_cont_9to1_950_20_alg».proof.Proof.Gen.Kernel.Skeleton
import proofs.«129949_g26456998544025_cont_9to1_950_20_alg».proof.Proof.Gen.Kernel.Launch
import proofs.«129949_g26456998544025_cont_9to1_950_20_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The three branch conditions over the grid coordinate, in closed form -/

/-- The first point only. -/
abbrev cond1 (i : grid0.Coords) : Prop := (Scalar.cmpi .ne (Scalar.extui (Scalar.cmpi .eq (BitVec.ofNat 32 (i 0).val) 0#32)) 0#32) = 1#1
/-- Every point but the last. -/
abbrev cond2 (i : grid0.Coords) : Prop := (Scalar.cmpi .ne (Scalar.extui (Scalar.cmpi .slt (BitVec.ofNat 32 (i 0).val) 19#32)) 0#32) = 1#1
/-- The last point only. -/
abbrev cond3 (i : grid0.Coords) : Prop := k0_cond3 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 19 :=
  (by decide +kernel : ∀ t : Fin grid0.N, cond2 (grid0.coords t) ↔ t.val < 19)
theorem hcond3 : ∀ t : Fin cfg0.N, cond3 (grid0.coords t) ↔ t.val = 19 :=
  (by decide +kernel : ∀ t : Fin grid0.N, cond3 (grid0.coords t) ↔ t.val = 19)

/-! ## Whole-buffer loads and stores -/

theorem hz2 : (![0, 0] : Fin 2 → Nat) = fun _ => 0 := funext fun a => by fin_cases a <;> rfl

/-- A load of a whole buffer through the box at the origin of the buffer's own sizes reads the buffer's contents. -/
theorem readAt_whole {sp : Space} {S : Shape} {e : EltTy} (M : Memref sig .tc sp S e) (hM : M.IsWhole) {off : Fin S.rank → Nat}
    (h : off = fun _ => 0) (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero h]

/-- The same for a buffer of two axes, its box written with literal offsets. -/
theorem readAt_whole2 {sp : Space} {sz : Fin 2 → Nat} {e : EltTy} (M : Memref sig .tc sp ⟨2, sz⟩ e) (hM : M.IsWhole)
    (inb : ∀ a, (![0, 0] : Fin 2 → Nat) a + sz a ≤ sz a) (x : (⟨2, sz⟩ : Shape).Idx → Elt F e) :
    View.readAt (Elt F) M.view (Rect.unit (s := ⟨2, sz⟩) ![0, 0] sz inb).toLoadRect (hM.unread x) = x :=
  readAt_whole M hM hz2 inb x

/-- A load through that box of what one store through it left reads the stored value. -/
theorem readCov_whole2 {sp : Space} {sz : Fin 2 → Nat} {e : EltTy} (v : View sig .tc sp ⟨2, sz⟩ e)
    (inb : ∀ a, (![0, 0] : Fin 2 → Nat) a + sz a ≤ sz a) (w : (⟨2, sz⟩ : Shape).Idx → Elt F e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero v hz2 inb w

/-- After a last store of w through that box the buffer holds w, whatever was stored before. -/
theorem owns_of_writes {sp : Space} {S : Shape} {e : EltTy} (c : Dev nD) (M : Memref sig .tc sp S e) {off : Fin S.rank → Nat}
    (h : off = fun _ => 0) (inb : ∀ a, off a + S.size a ≤ S.size a) (f : M.view.ty.Contents (Elt F)) (w : S.Idx → Elt F e)
    (L : List (View.Piece (Elt F) S e)) :
    (M.view.loc (c : Thread nD τ) ↦[M.view.set]{fullShare} M.view.writes (Elt F) f ((⟨Rect.unit off S.size inb, w⟩ : View.Piece (Elt F) S e) :: L) : sProp 𝕄)
      ⊢ owns (c : Thread nD τ) M fullShare w := by
  have hr : M.view.read (Elt F) (M.view.writes (Elt F) f ((⟨Rect.unit off S.size inb, w⟩ : View.Piece (Elt F) S e) :: L)) = w := by
    subst h
    rw [View.read_writes_eq_canon M.view f _ (fun y => ⟨⟨Rect.unit (fun _ => 0) S.size inb, w⟩, List.mem_cons_self .., by
      rw [Rect.mem_set_unit]; intro a; exact ⟨Nat.zero_le _, by have := (y a).isLt; omega⟩⟩), View.canon_cons_unit_zero rfl]
  unfold owns
  iintro H
  iexists _
  isplitr
  · ipureintro; exact hr
  · iexact H

/-- A buffer held at contents x is held at whatever reads back as x. -/
theorem owns_of_unread {sp : Space} {S : Shape} {e : EltTy} (c : Dev nD) (M : Memref sig .tc sp S e) (hM : M.IsWhole) (x : S.Idx → Elt F e) :
    (M.view.loc (c : Thread nD τ) ↦[M.view.set]{fullShare} hM.unread x : sProp 𝕄) ⊢ owns (c : Thread nD τ) M fullShare x := by
  unfold owns
  iintro H
  iexists _
  isplitr
  · ipureintro; exact hM.read_unread x
  · iexact H

/-- The same two facts with the ownership written out. -/
theorem ex_of_writes {sp : Space} {S : Shape} {e : EltTy} (c : Dev nD) (M : Memref sig .tc sp S e) {off : Fin S.rank → Nat}
    (h : off = fun _ => 0) (inb : ∀ a, off a + S.size a ≤ S.size a) (f : M.view.ty.Contents (Elt F)) (w : S.Idx → Elt F e)
    (L : List (View.Piece (Elt F) S e)) :
    (M.view.loc (c : Thread nD τ) ↦[M.view.set]{fullShare} M.view.writes (Elt F) f ((⟨Rect.unit off S.size inb, w⟩ : View.Piece (Elt F) S e) :: L) : sProp 𝕄)
      ⊢ iprop(∃ g, ⌜M.view.read (Elt F) g = w⌝ ∗ M.view.loc (c : Thread nD τ) ↦[M.view.set]{fullShare} g) := by
  have := owns_of_writes (F := F) c M h inb f w L
  unfold owns at this
  exact this

theorem ex_of_unread {sp : Space} {S : Shape} {e : EltTy} (c : Dev nD) (M : Memref sig .tc sp S e) (hM : M.IsWhole) (x : S.Idx → Elt F e) :
    (M.view.loc (c : Thread nD τ) ↦[M.view.set]{fullShare} hM.unread x : sProp 𝕄)
      ⊢ iprop(∃ g, ⌜M.view.read (Elt F) g = x⌝ ∗ M.view.loc (c : Thread nD τ) ↦[M.view.set]{fullShare} g) := by
  have := owns_of_unread (F := F) c M hM x
  unfold owns at this
  exact this

end Cert.Kernel.Hand

end
-- ==== Proof.MaskK.lean ====
/-
  The last grid point's block product only sees the first 160 rows of its activation block and the first 160
  columns of its weight block.

  Block 39 overhangs the arrays by 2400 positions.  Before multiplying, the last point replaces row r of the
  activation block and column r of the weight block by zero wherever r is 160 or more (a select against the row
  or column number compared with 160).  So two activation blocks that agree on rows 0..159, and two weight
  blocks that agree on columns 0..159, give the same sum.  Nothing here depends on what a float is.
-/
import proofs.«129949_g26456998544025_cont_9to1_950_20_alg».proof.Proof.Gen.Kernel.Skeleton
import Idealize.ShloMosaic.Lib.Pipeline.Value
import Idealize.ShloMosaic.Lib.ValueIdx
import Idealize.ShloMosaic.Lib.WordArith

noncomputable section

namespace Cert.Kernel.Hand

open Idealize.ShloMosaic Idealize.SL.Sem Cert.Kernel Cert.Kernel.Gen

variable {F : FTy → Type} [FloatOps F]

/-- For a number n small enough to read signed as itself, the comparison word of "n below 160" is one exactly
    when n is below 160. -/
theorem lt160_iff (n : Nat) (hn : n < 2 ^ 31) : IntOp.cmpi .slt (BitVec.ofNat 32 n) 160#32 = 1#1 ↔ n < 160 := by
  rw [IntOp.cmpi_slt, WordArith.toInt_ofNat_small n hn]
  have e : (160#32 : BitVec 32).toInt = 160 := by decide
  rw [e]
  omega

/-- A select against "row number below 160" only reads rows 0..159 of its first operand. -/
theorem select_rows {α : Type} (hi : S2560x1024.Iotas .tc 32 [0]) (a a' z : S2560x1024.Idx → α)
    (h : ∀ y : S2560x1024.Idx, (y 0).val < 160 → a y = a' y) :
    select (cmpi .slt (iota .tc S2560x1024 32 [0] hi) (broadcast S2560x1024 160#32)) a z
      = select (cmpi .slt (iota .tc S2560x1024 32 [0] hi) (broadcast S2560x1024 160#32)) a' z := by
  funext y
  show Scalar.select (IntOp.cmpi .slt (iota .tc S2560x1024 32 [0] hi y) 160#32) (a y) (z y)
    = Scalar.select (IntOp.cmpi .slt (iota .tc S2560x1024 32 [0] hi y) 160#32) (a' y) (z y)
  rw [iota_single_apply]
  unfold Scalar.select
  by_cases hc : IntOp.cmpi .slt (BitVec.ofNat 32 (y 0).val) 160#32 = (1 : BitVec 1)
  · rw [if_pos hc, if_pos hc]
    exact h y ((lt160_iff _ (by have := ValueIdx.idx2_lt0 y; omega)).mp hc)
  · rw [if_neg hc, if_neg hc]

/-- A select against "column number below 160" only reads columns 0..159 of its first operand. -/
theorem select_cols {α : Type} (hi : S64x2560.Iotas .tc 32 [1]) (a a' z : S64x2560.Idx → α)
    (h : ∀ y : S64x2560.Idx, (y 1).val < 160 → a y = a' y) :
    select (cmpi .slt (iota .tc S64x2560 32 [1] hi) (broadcast S64x2560 160#32)) a z
      = select (cmpi .slt (iota .tc S64x2560 32 [1] hi) (broadcast S64x2560 160#32)) a' z := by
  funext y
  show Scalar.select (IntOp.cmpi .slt (iota .tc S64x2560 32 [1] hi y) 160#32) (a y) (z y)
    = Scalar.select (IntOp.cmpi .slt (iota .tc S64x2560 32 [1] hi y) 160#32) (a' y) (z y)
  rw [iota_single_apply]
  unfold Scalar.select
  by_cases hc : IntOp.cmpi .slt (BitVec.ofNat 32 (y 1).val) 160#32 = (1 : BitVec 1)
  · rw [if_pos hc, if_pos hc]
    exact h y ((lt160_iff _ (by have := ValueIdx.idx2_lt1 y; omega)).mp hc)
  · rw [if_neg hc, if_neg hc]

/-- The last point's sum depends on its activation block of block 39 only through rows 0..159 and on its weight
    block of block 39 only through columns 0..159. -/
theorem pay5_mask (x3 x3' : Vec F S2560x1024 .f32) (x4 x4' : Vec F S64x2560 .f32) (s : Vec F S64x1024 .f32)
    (x2 : Vec F S64x2560 .f32) (x1 : Vec F S2560x1024 .f32)
    (h3 : ∀ y : S2560x1024.Idx, (y 0).val < 160 → x3 y = x3' y)
    (h4 : ∀ y : S64x2560.Idx, (y 1).val < 160 → x4 y = x4' y) :
    k0_pay5 x3 x4 s x2 x1 = k0_pay5 x3' x4' s x2 x1 := by
  unfold k0_pay5
  dsimp only
  rw [select_rows _ (shapeCast S2560x1024 x3 _) (shapeCast S2560x1024 x3' _) _
      (fun y hy => by rw [shapeCast_self, shapeCast_self]; exact h3 y hy),
    select_cols _ (shapeCast S64x2560 x4 _) (shapeCast S64x2560 x4' _) _
      (fun y hy => by rw [shapeCast_self, shapeCast_self]; exact h4 y hy)]

end Cert.Kernel.Hand

end
-- ==== Proof.DataK.lean ====
import proofs.«129949_g26456998544025_cont_9to1_950_20_alg».proof.Proof.CasesK
import proofs.«129949_g26456998544025_cont_9to1_950_20_alg».proof.Proof.MaskK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core c's buffer contents when the launch is reached: after the ten transposes and reshapes of the arguments. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The array behind window w. -/
abbrev arrOf (c : Dev nD) (w : Fin cfg0.W) : Buf (Elt F) ((cfg0.win w).arr.view.loc (c : Thread nD τ)) :=
  V m c (Pipeline.arrRef spec0 w)

/-- What input window w's current staging buffer holds at point t: the block fetched at the last point at or before
    t that fetched it (on the part of the buffer a clipped fetch does not fill, a word nothing reads). -/
abbrev blkAt (c : Dev nD) (w : Fin cfg0.W) (t : Fin cfg0.N) : (cfg0.win w).block.Idx → Elt F (cfg0.win w).elt :=
  Pipeline.heldIn cfg0 (arrOf m c) w t.val t.isLt

/-! ## What the scratch buffers and the output buffer hold, point by point -/

/-- The running sum after point n. -/
def sumAt (c : Dev nD) : (n : ℕ) → n < cfg0.N → FVec F S64x1024 .f32
  | 0, h => k0_pay3 (k0_pay1 (F := F)) (blkAt m c 1 ⟨0, h⟩) (blkAt m c 0 ⟨0, h⟩) (blkAt m c 3 ⟨0, h⟩) (blkAt m c 2 ⟨0, h⟩)
  | n + 1, h =>
    if n + 1 < 19 then
      k0_pay3 (sumAt c n (Nat.lt_of_succ_lt h)) (blkAt m c 1 ⟨n + 1, h⟩) (blkAt m c 0 ⟨n + 1, h⟩) (blkAt m c 3 ⟨n + 1, h⟩) (blkAt m c 2 ⟨n + 1, h⟩)
    else
      k0_pay5 (blkAt m c 2 ⟨n + 1, h⟩) (blkAt m c 3 ⟨n + 1, h⟩) (sumAt c n (Nat.lt_of_succ_lt h)) (blkAt m c 1 ⟨n + 1, h⟩) (blkAt m c 0 ⟨n + 1, h⟩)

theorem N20 : cfg0.N = 20 := N_0

/-- The first and the last point. -/
abbrev tFirst : Fin cfg0.N := ⟨0, by rw [N20]; omega⟩
abbrev tLast : Fin cfg0.N := ⟨19, by rw [N20]; omega⟩

/-- The rectified compound embedding, computed at the first point. -/
def embAt (c : Dev nD) : FVec F S64x1024 .f32 := k0_pay2 (blkAt m c 5 tFirst) (blkAt m c 4 tFirst) (blkAt m c 7 tFirst)

/-- The output row, stored at the last point. -/
def rowAt (c : Dev nD) : FVec F S1x1024 .f32 :=
  k0_pay4 (k0_pay6 (sumAt m c 19 tLast.isLt) (blkAt m c 6 tLast)) (k0_pay7 (F := F)) (blkAt m c 8 tLast) (embAt m c)
    (blkAt m c 9 tLast) (blkAt m c 10 tLast) (blkAt m c 11 tLast)

/-- The two scratch operands as memrefs. -/
abbrev scM0 : Memref sig .tc .vmem S64x1024 .f32 := Memref.whole cc0_scratch0
abbrev scM1 : Memref sig .tc .vmem S64x1024 .f32 := Memref.whole cc0_scratch1

/-- The invariant between points: before the first point the two scratch buffers hold anything; after point n the
    first holds the running sum and the second the compound embedding. -/
def PhiS (c : Dev nD) : (n : ℕ) → n ≤ cfg0.N → sProp 𝕄
  | 0, _ => Pipeline.ΦA spec0 c
  | n + 1, hn => iprop(owns (c : Thread nD τ) scM0 fullShare (sumAt m c n hn) ∗ owns (c : Thread nD τ) scM1 fullShare (embAt m c)
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0 fullShare (sumAt m c n hn) ∗ owns (c : Thread nD τ) scM1 fullShare (embAt m c)
      ∗ (∃ r, prngReg c r)) := rfl

theorem PhiS_pos (c : Dev nD) (n : ℕ) (h : n ≤ cfg0.N) (hz : n ≠ 0) :
    PhiS m c n h = iprop(owns (c : Thread nD τ) scM0 fullShare (sumAt m c (n - 1) (by omega)) ∗ owns (c : Thread nD τ) scM1 fullShare (embAt m c)
      ∗ (∃ r, prngReg c r)) := by
  cases n with
  | zero => exact absurd rfl hz
  | succ n => rfl

/-- The invariant before the first point, with the scratch buffers as memrefs. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The proof data of the pipeline on core c.  The two arrays that two windows share are held half and half by
    those windows; every other array whole. -/
def dats (_ : Fin 1) (c : Dev nD) : Dat τ (Elt F) Unit ℕ (UR sig nD τ) ℕ cfg0 c where
  A w := arrOf m c w
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => blkAt m c 6 t
    | ⟨7, _⟩ => blkAt m c 7 t
    | ⟨8, _⟩ => blkAt m c 8 t
    | ⟨9, _⟩ => blkAt m c 9 t
    | ⟨10, _⟩ => blkAt m c 10 t
    | ⟨11, _⟩ => blkAt m c 11 t
    | ⟨12, _⟩ => rowAt m c
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
  owed _ := 0

theorem A_eq (c : Dev nD) (w : Fin cfg0.W) : (dats m 0 c).A w = arrOf m c w := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

end Cert.Kernel.Hand

end
-- ==== Proof.RunsK.lean ====
import proofs.«129949_g26456998544025_cont_9to1_950_20_alg».proof.Proof.CasesK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (c : Dev nD) (i : grid0.Coords)
    (a1 : Memref sig .tc .vmem S2560x1024 .f32) (h1 : a1.IsWhole) (a2 : Memref sig .tc .vmem S64x2560 .f32) (h2 : a2.IsWhole)
    (a3 : Memref sig .tc .vmem S2560x1024 .f32) (h3 : a3.IsWhole) (a4 : Memref sig .tc .vmem S64x2560 .f32) (h4 : a4.IsWhole)
    (a5 : Memref sig .tc .vmem S1000x1024 .f32) (h5 : a5.IsWhole) (a6 : Memref sig .tc .vmem S64x1000 .f32) (h6 : a6.IsWhole)
    (a7 : Memref sig .tc .vmem S64x1 .f32) (h7 : a7.IsWhole) (a8 : Memref sig .tc .vmem S64x1 .f32) (h8 : a8.IsWhole)
    (a9 : Memref sig .tc .vmem S64x128 .f32) (h9 : a9.IsWhole) (a10 : Memref sig .tc .vmem S64x1 .f32) (h10 : a10.IsWhole)
    (a11 : Memref sig .tc .vmem S1x64 .f32) (h11 : a11.IsWhole) (a12 : Memref sig .tc .vmem S1x1 .f32) (h12 : a12.IsWhole)
    (a13 : Memref sig .tc .vmem S1x1024 .f32) (h13 : a13.IsWhole) (a14 : Memref sig .tc .vmem S64x1024 .f32) (h14 : a14.IsWhole)
    (a15 : Memref sig .tc .vmem S64x1024 .f32) (h15 : a15.IsWhole)

/-! ## The kernel body, case by case

At each grid point exactly one assignment of the three branch conditions holds.  In every case the body leaves its
input buffers as it found them; what it leaves in the two scratch buffers and in the output buffer is stated through
the payload terms of the body's stores. -/

set_option maxHeartbeats 3200000 in
/-- The first point: the running sum is zeroed, then the first two block products are added to it; the rectified
    compound embedding goes into the second scratch buffer. -/
theorem run_first (hc1 : cond1 i) (hc2 : cond2 i) (hc3 : ¬cond3 i)
    (x1 : Vec F S2560x1024 .f32) (x2 : Vec F S64x2560 .f32) (x3 : Vec F S2560x1024 .f32) (x4 : Vec F S64x2560 .f32)
    (x5 : Vec F S1000x1024 .f32) (x6 : Vec F S64x1000 .f32) (x8 : Vec F S64x1 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4
        ∗ owns (c : Thread nD τ) a5 fullShare x5 ∗ owns (c : Thread nD τ) a6 fullShare x6 ∗ owns (c : Thread nD τ) a8 fullShare x8
        ∗ (∃ d, owns (c : Thread nD τ) a14 fullShare d) ∗ (∃ d, owns (c : Thread nD τ) a15 fullShare d)
        ∗ (iprop(owns (c : Thread nD τ) a1 fullShare x1 ∗ owns (c : Thread nD τ) a2 fullShare x2 ∗ owns (c : Thread nD τ) a3 fullShare x3
        ∗ owns (c : Thread nD τ) a4 fullShare x4
            ∗ owns (c : Thread nD τ) a5 fullShare x5 ∗ owns (c : Thread nD τ) a6 fullShare x6 ∗ owns (c : Thread nD τ) a8 fullShare x8
            ∗ owns (c : Thread nD τ) a14 fullShare (k0_pay3 (k0_pay1 (F := F)) x2 x1 x4 x3)
            ∗ owns (c : Thread nD τ) a15 fullShare (k0_pay2 x6 x5 x8)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩,
    ⟨%ds, %fs, -, HS⟩, ⟨%dc, %fc, -, HC⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hf8
  sl_exec (disch := first | exact hc1 | exact hc2 | exact hc3)
  sl_step
  sl_unfold_words
  simp only [readAt_whole2, readCov_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  isplitl [H5]; · iapply (ex_of_unread c a5 h5 x5); iexact H5
  isplitl [H6]; · iapply (ex_of_unread c a6 h6 x6); iexact H6
  isplitl [H8]; · iapply (ex_of_unread c a8 h8 x8); iexact H8
  isplitl [HS]; · iapply (ex_of_writes c a14 hz2 _ _ _ _); iexact HS
  iapply (ex_of_writes c a15 hz2 _ _ _ _); iexact HC

set_option maxHeartbeats 1600000 in
/-- A middle point: the two block products are added to the running sum. -/
theorem run_mid (hc1 : ¬cond1 i) (hc2 : cond2 i) (hc3 : ¬cond3 i)
    (x1 : Vec F S2560x1024 .f32) (x2 : Vec F S64x2560 .f32) (x3 : Vec F S2560x1024 .f32) (x4 : Vec F S64x2560 .f32) (s : Vec F S64x1024 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a14 fullShare s
        ∗ (iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a14 fullShare (k0_pay3 s x2 x1 x4 x3)) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%fs, %hfs, HS⟩, Hk⟩
  obtain rfl := h1.eq_unread hf1; obtain rfl := h2.eq_unread hf2; obtain rfl := h3.eq_unread hf3; obtain rfl := h4.eq_unread hf4
  obtain rfl := h14.eq_unread hfs
  sl_exec (disch := first | exact hc1 | exact hc2 | exact hc3)
  sl_step
  simp only [readAt_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  iapply (ex_of_writes c a14 hz2 _ _ _ _); iexact HS

set_option maxHeartbeats 6400000 in
/-- The last point: the masked product of the overhanging block and the product of the block before it are added to
    the running sum, and the head of the network is applied to the result: the output row is stored. -/
theorem run_last (hc1 : ¬cond1 i) (hc2 : ¬cond2 i) (hc3 : cond3 i)
    (x1 : Vec F S2560x1024 .f32) (x2 : Vec F S64x2560 .f32) (x3 : Vec F S2560x1024 .f32) (x4 : Vec F S64x2560 .f32)
    (x7 : Vec F S64x1 .f32) (x9 : Vec F S64x128 .f32) (x10 : Vec F S64x1 .f32) (x11 : Vec F S1x64 .f32) (x12 : Vec F S1x1 .f32)
    (xo : Vec F S1x1024 .f32) (s : Vec F S64x1024 .f32) (ce : Vec F S64x1024 .f32)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4
        ∗ owns (c : Thread nD τ) a7 fullShare x7 ∗ owns (c : Thread nD τ) a9 fullShare x9 ∗ owns (c : Thread nD τ) a10 fullShare x10
        ∗ owns (c : Thread nD τ) a11 fullShare x11 ∗ owns (c : Thread nD τ) a12 fullShare x12 ∗ owns (c : Thread nD τ) a13 fullShare xo
        ∗ owns (c : Thread nD τ) a14 fullShare s ∗ owns (c : Thread nD τ) a15 fullShare ce
        ∗ (iprop(owns (c : Thread nD τ) a1 fullShare x1 ∗ owns (c : Thread nD τ) a2 fullShare x2 ∗ owns (c : Thread nD τ) a3 fullShare x3
        ∗ owns (c : Thread nD τ) a4 fullShare x4
            ∗ owns (c : Thread nD τ) a7 fullShare x7 ∗ owns (c : Thread nD τ) a9 fullShare x9 ∗ owns (c : Thread nD τ) a10 fullShare x10
            ∗ owns (c : Thread nD τ) a11 fullShare x11 ∗ owns (c : Thread nD τ) a12 fullShare x12
            ∗ owns (c : Thread nD τ) a13 fullShare (k0_pay4 (k0_pay6 (k0_pay5 x3 x4 s x2 x1) x7) (k0_pay7 (F := F)) x9 ce x10 x11 x12)
            ∗ owns (c : Thread nD τ) a14 fullShare (k0_pay5 x3 x4 s x2 x1) ∗ owns (c : Thread nD τ) a15 fullShare ce) -∗ K ⟨⟩))
      ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14 a15 h15) K := by
  simp only [cc0__mlp_kernel_eq_skeleton]; unfold cc0__mlp_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f7, %hf7, H7⟩, ⟨%f9, %hf9, H9⟩, ⟨%f10, %hf10, H10⟩,
    ⟨%f11, %hf11, H11⟩, ⟨%f12, %hf12, H12⟩, ⟨%fo, %hfo, HO⟩, ⟨%fs, %hfs, HS⟩, ⟨%fc, %hfc, HC⟩, Hk⟩
  obtain rfl := h1.eq_unread hf1; obtain rfl := h2.eq_unread hf2; obtain rfl := h3.eq_unread hf3; obtain rfl := h4.eq_unread hf4
  obtain rfl := h7.eq_unread hf7; obtain rfl := h9.eq_unread hf9; obtain rfl := h10.eq_unread hf10; obtain rfl := h11.eq_unread hf11
  obtain rfl := h12.eq_unread hf12; obtain rfl := h13.eq_unread hfo; obtain rfl := h14.eq_unread hfs; obtain rfl := h15.eq_unread hfc
  sl_exec (disch := first | exact hc1 | exact hc2 | exact hc3)
  sl_step
  sl_unfold_words
  simp only [readAt_whole2, readCov_whole2]
  iapply Hk
  isplitl [H1]; · iapply (ex_of_unread c a1 h1 x1); iexact H1
  isplitl [H2]; · iapply (ex_of_unread c a2 h2 x2); iexact H2
  isplitl [H3]; · iapply (ex_of_unread c a3 h3 x3); iexact H3
  isplitl [H4]; · iapply (ex_of_unread c a4 h4 x4); iexact H4
  isplitl [H7]; · iapply (ex_of_unread c a7 h7 x7); iexact H7
  isplitl [H9]; · iapply (ex_of_unread c a9 h9 x9); iexact H9
  isplitl [H10]; · iapply (ex_of_unread c a10 h10 x10); iexact H10
  isplitl [H11]; · iapply (ex_of_unread c a11 h11 x11); iexact H11
  isplitl [H12]; · iapply (ex_of_unread c a12 h12 x12); iexact H12
  isplitl [HO]; · iapply (ex_of_writes c a13 hz2 _ _ _ _); iexact HO
  isplitl [HS]; · iapply (ex_of_writes c a14 hz2 _ _ _ _); iexact HS
  iapply (ex_of_unread c a15 h15 ce); iexact HC

end Cert.Kernel.Hand

end
-- ==== Proof.BodyK.lean ====
import proofs.«129949_g26456998544025_cont_9to1_950_20_alg».proof.Proof.DataK
import proofs.«129949_g26456998544025_cont_9to1_950_20_alg».proof.Proof.RunsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a fetch is cut

The even blocks (windows 0 and 1) always lie inside the arrays; the odd blocks (windows 2 and 3) do except at the last
point, where only the first 160 of the block's 2560 positions along the contracted axis are inside. -/

theorem clip_0 : ∀ (t : Fin cfg0.N) a, (cfg0.win 0).clip (cfg0.grid.coords t) a = none :=
  (by decide +kernel : ∀ (t : Fin grid0.N) a, win0_0.clip (grid0.coords t) a = none)
theorem clip_1 : ∀ (t : Fin cfg0.N) a, (cfg0.win 1).clip (cfg0.grid.coords t) a = none :=
  (by decide +kernel : ∀ (t : Fin grid0.N) a, win0_1.clip (grid0.coords t) a = none)
theorem clip_2 : ∀ (t : Fin cfg0.N), t.val < 19 → ∀ a, (cfg0.win 2).clip (cfg0.grid.coords t) a = none :=
  (by decide +kernel : ∀ (t : Fin grid0.N), t.val < 19 → ∀ a, win0_2.clip (grid0.coords t) a = none)
theorem clip_3 : ∀ (t : Fin cfg0.N), t.val < 19 → ∀ a, (cfg0.win 3).clip (cfg0.grid.coords t) a = none :=
  (by decide +kernel : ∀ (t : Fin grid0.N), t.val < 19 → ∀ a, win0_3.clip (grid0.coords t) a = none)
/-- At the last point the odd blocks keep 160 rows (columns) of 2560. -/
theorem xsize_2 : ∀ a, (cfg0.win 2).xsize (cfg0.grid.coords tLast) a = (![160, 1024] : Fin 2 → Nat) a :=
  (by decide +kernel : ∀ a, win0_2.xsize (grid0.coords ⟨19, by decide⟩) a = (![160, 1024] : Fin 2 → Nat) a)
theorem xsize_3 : ∀ a, (cfg0.win 3).xsize (cfg0.grid.coords tLast) a = (![64, 160] : Fin 2 → Nat) a :=
  (by decide +kernel : ∀ a, win0_3.xsize (grid0.coords ⟨19, by decide⟩) a = (![64, 160] : Fin 2 → Nat) a)

/-! ## What the body finds in each staging buffer -/

/-- A window fetched at t whose block lies inside the array: the buffer holds the block, whatever it held before. -/
theorem before_inside (c : Dev nD) (w : Fin cfg0.W) (t : Fin cfg0.N) (hf : (cfg0.win w).fetch t = true)
    (hclip : ∀ a, (cfg0.win w).clip (cfg0.grid.coords t) a = none) (d) : (dats m 0 c).before w t d = blkAt m c w t := by
  rw [(dats m 0 c).before_fetched w t hf]
  show _ = Pipeline.heldIn cfg0 (arrOf m c) w t.val t.isLt
  rw [Pipeline.heldIn_of_fetch _ w t hf]
  unfold Dat.fetched Dat.blockOf
  exact Pipeline.fill_of_clip_none w _ hclip _ _ _

theorem before_0 (c : Dev nD) (t : Fin cfg0.N) (d) : (dats m 0 c).before 0 t d = blkAt m c 0 t :=
  before_inside m c 0 t (fetch0_0 t) (clip_0 t) d
theorem before_1 (c : Dev nD) (t : Fin cfg0.N) (d) : (dats m 0 c).before 1 t d = blkAt m c 1 t :=
  before_inside m c 1 t (fetch0_1 t) (clip_1 t) d
theorem before_2 (c : Dev nD) (t : Fin cfg0.N) (ht : t.val < 19) (d) : (dats m 0 c).before 2 t d = blkAt m c 2 t :=
  before_inside m c 2 t (fetch0_2 t) (clip_2 t ht) d
theorem before_3 (c : Dev nD) (t : Fin cfg0.N) (ht : t.val < 19) (d) : (dats m 0 c).before 3 t d = blkAt m c 3 t :=
  before_inside m c 3 t (fetch0_3 t) (clip_3 t ht) d

/-- A window whose one block is the whole array, fetched once: the buffer holds it at every point. -/
theorem before_4 (c : Dev nD) (t : Fin cfg0.N) (d) : (dats m 0 c).before 4 t d = blkAt m c 4 t :=
  (dats m 0 c).before_eq_heldIn 4 rfl (fun _ => rfl) (fun _ _ => rfl) (fun t => by dsimp only [dats]) t d
theorem before_5 (c : Dev nD) (t : Fin cfg0.N) (d) : (dats m 0 c).before 5 t d = blkAt m c 5 t :=
  (dats m 0 c).before_eq_heldIn 5 rfl (fun _ => rfl) (fun _ _ => rfl) (fun t => by dsimp only [dats]) t d
theorem before_6 (c : Dev nD) (t : Fin cfg0.N) (d) : (dats m 0 c).before 6 t d = blkAt m c 6 t :=
  (dats m 0 c).before_eq_heldIn 6 rfl (fun _ => rfl) (fun _ _ => rfl) (fun t => by dsimp only [dats]) t d
theorem before_7 (c : Dev nD) (t : Fin cfg0.N) (d) : (dats m 0 c).before 7 t d = blkAt m c 7 t :=
  (dats m 0 c).before_eq_heldIn 7 rfl (fun _ => rfl) (fun _ _ => rfl) (fun t => by dsimp only [dats]) t d
theorem before_8 (c : Dev nD) (t : Fin cfg0.N) (d) : (dats m 0 c).before 8 t d = blkAt m c 8 t :=
  (dats m 0 c).before_eq_heldIn 8 rfl (fun _ => rfl) (fun _ _ => rfl) (fun t => by dsimp only [dats]) t d
theorem before_9 (c : Dev nD) (t : Fin cfg0.N) (d) : (dats m 0 c).before 9 t d = blkAt m c 9 t :=
  (dats m 0 c).before_eq_heldIn 9 rfl (fun _ => rfl) (fun _ _ => rfl) (fun t => by dsimp only [dats]) t d
theorem before_10 (c : Dev nD) (t : Fin cfg0.N) (d) : (dats m 0 c).before 10 t d = blkAt m c 10 t :=
  (dats m 0 c).before_eq_heldIn 10 rfl (fun _ => rfl) (fun _ _ => rfl) (fun t => by dsimp only [dats]) t d
theorem before_11 (c : Dev nD) (t : Fin cfg0.N) (d) : (dats m 0 c).before 11 t d = blkAt m c 11 t :=
  (dats m 0 c).before_eq_heldIn 11 rfl (fun _ => rfl) (fun _ _ => rfl) (fun t => by dsimp only [dats]) t d

/-- What a fetched window's buffer is handed back as: the block on the part the fetch filled, the rest as found. -/
theorem keep (c : Dev nD) (w : Fin cfg0.W) (t : Fin cfg0.N) (hf : (cfg0.win w).fetch t = true) (d) :
    (cfg0.win w).fill (cfg0.grid.coords t) d ((cfg0.win w).cut (cfg0.grid.coords t) (blkAt m c w t)) = (dats m 0 c).before w t d := by
  rw [(dats m 0 c).before_fetched w t hf, show blkAt m c w t = _ from Pipeline.heldIn_of_fetch _ w t hf, Window.cut_fill]
  rfl

/-- At the last point the two odd blocks, as found and as named, agree on the positions inside the arrays. -/
theorem last_2 (c : Dev nD) (d) (y : S2560x1024.Idx) (hy : (y 0).val < 160) :
    (dats m 0 c).before 2 tLast d y = blkAt m c 2 tLast y := by
  have hm : (cfg0.win 2).moved (cfg0.grid.coords tLast) y = true :=
    ((cfg0.win 2).moved_iff _ y).mpr fun a => by
      rw [xsize_2 a]; match a with | ⟨0, _⟩ => exact hy | ⟨1, _⟩ => exact (y 1).isLt
  rw [(dats m 0 c).before_fetched 2 tLast (fetch0_2 tLast), show blkAt m c 2 tLast = _ from Pipeline.heldIn_of_fetch _ 2 tLast (fetch0_2 tLast)]
  unfold Dat.fetched Dat.blockOf Window.fill
  rw [dif_pos hm, dif_pos hm]; rfl
theorem last_3 (c : Dev nD) (d) (y : S64x2560.Idx) (hy : (y 1).val < 160) :
    (dats m 0 c).before 3 tLast d y = blkAt m c 3 tLast y := by
  have hm : (cfg0.win 3).moved (cfg0.grid.coords tLast) y = true :=
    ((cfg0.win 3).moved_iff _ y).mpr fun a => by
      rw [xsize_3 a]; match a with | ⟨0, _⟩ => exact (y 0).isLt | ⟨1, _⟩ => exact hy
  rw [(dats m 0 c).before_fetched 3 tLast (fetch0_3 tLast), show blkAt m c 3 tLast = _ from Pipeline.heldIn_of_fetch _ 3 tLast (fetch0_3 tLast)]
  unfold Dat.fetched Dat.blockOf Window.fill
  rw [dif_pos hm, dif_pos hm]; rfl

/-! ## The running sum, point by point -/

theorem sumAt_mid (c : Dev nD) (t : Fin cfg0.N) (h0 : t.val ≠ 0) (h19 : t.val < 19) :
    sumAt m c t.val t.isLt = k0_pay3 (sumAt m c (t.val - 1) (by omega)) (blkAt m c 1 t) (blkAt m c 0 t) (blkAt m c 3 t) (blkAt m c 2 t) := by
  obtain ⟨n, hn⟩ := t
  cases n with
  | zero => exact absurd rfl h0
  | succ n => exact (if_pos h19).trans rfl

theorem sumAt_last (c : Dev nD) :
    sumAt m c 19 tLast.isLt = k0_pay5 (blkAt m c 2 tLast) (blkAt m c 3 tLast) (sumAt m c 18 (by rw [N20]; omega)) (blkAt m c 1 tLast) (blkAt m c 0 tLast) :=
  (if_neg (by decide : ¬ (18 + 1 < 19))).trans rfl

/-! ## The body obligation -/

theorem idle_12 : ∀ t : Fin cfg0.N, t.val < 19 → cfg0.idle 12 (cfg0.grid.coords t) = true :=
  (by decide +kernel : ∀ t : Fin grid0.N, t.val < 19 → idle0 12 (grid0.coords t) = true)
theorem live_12 : cfg0.idle 12 (cfg0.grid.coords tLast) = false := by
  have h : ∀ t : Fin grid0.N, t.val = 19 → idle0 12 (grid0.coords t) = false := by decide +kernel
  exact h tLast rfl
theorem noflush_12 (t : Fin cfg0.N) (ht : t.val < 19) : (cfg0.win 12).flush t = false := by
  have := flush0_12 t
  cases h : (cfg0.win 12).flush t
  · rfl
  · have := this.mp h; omega

theorem leaves_0 (c : Dev nD) (t : Fin cfg0.N) :
    (dats m 0 c).leaves 0 t = iprop(∃ d, owns (c : Thread nD τ) (st0_0 t) fullShare ((dats m 0 c).before 0 t d)) := by
  show iprop(∃ d, owns (c : Thread nD τ) (st0_0 t) fullShare ((cfg0.win 0).fill (cfg0.grid.coords t) d ((cfg0.win 0).cut (cfg0.grid.coords t) ((dats m 0 c).after 0 t)))) = _
  simp only [show (dats m 0 c).after 0 t = blkAt m c 0 t from by dsimp only [dats], keep m c 0 t (fetch0_0 t)]
theorem leaves_1 (c : Dev nD) (t : Fin cfg0.N) :
    (dats m 0 c).leaves 1 t = iprop(∃ d, owns (c : Thread nD τ) (st0_1 t) fullShare ((dats m 0 c).before 1 t d)) := by
  show iprop(∃ d, owns (c : Thread nD τ) (st0_1 t) fullShare ((cfg0.win 1).fill (cfg0.grid.coords t) d ((cfg0.win 1).cut (cfg0.grid.coords t) ((dats m 0 c).after 1 t)))) = _
  simp only [show (dats m 0 c).after 1 t = blkAt m c 1 t from by dsimp only [dats], keep m c 1 t (fetch0_1 t)]
theorem leaves_2 (c : Dev nD) (t : Fin cfg0.N) :
    (dats m 0 c).leaves 2 t = iprop(∃ d, owns (c : Thread nD τ) (st0_2 t) fullShare ((dats m 0 c).before 2 t d)) := by
  show iprop(∃ d, owns (c : Thread nD τ) (st0_2 t) fullShare ((cfg0.win 2).fill (cfg0.grid.coords t) d ((cfg0.win 2).cut (cfg0.grid.coords t) ((dats m 0 c).after 2 t)))) = _
  simp only [show (dats m 0 c).after 2 t = blkAt m c 2 t from by dsimp only [dats], keep m c 2 t (fetch0_2 t)]
theorem leaves_3 (c : Dev nD) (t : Fin cfg0.N) :
    (dats m 0 c).leaves 3 t = iprop(∃ d, owns (c : Thread nD τ) (st0_3 t) fullShare ((dats m 0 c).before 3 t d)) := by
  show iprop(∃ d, owns (c : Thread nD τ) (st0_3 t) fullShare ((cfg0.win 3).fill (cfg0.grid.coords t) d ((cfg0.win 3).cut (cfg0.grid.coords t) ((dats m 0 c).after 3 t)))) = _
  simp only [show (dats m 0 c).after 3 t = blkAt m c 3 t from by dsimp only [dats], keep m c 3 t (fetch0_3 t)]
theorem leaves_4 (c : Dev nD) (t : Fin cfg0.N) :
    (dats m 0 c).leaves 4 t = owns (c : Thread nD τ) (st0_4 t) fullShare (blkAt m c 4 t) := by
  show owns (c : Thread nD τ) (st0_4 t) fullShare ((dats m 0 c).after 4 t) = _
  rw [show (dats m 0 c).after 4 t = blkAt m c 4 t from by dsimp only [dats]]
theorem leaves_5 (c : Dev nD) (t : Fin cfg0.N) :
    (dats m 0 c).leaves 5 t = owns (c : Thread nD τ) (st0_5 t) fullShare (blkAt m c 5 t) := by
  show owns (c : Thread nD τ) (st0_5 t) fullShare ((dats m 0 c).after 5 t) = _
  rw [show (dats m 0 c).after 5 t = blkAt m c 5 t from by dsimp only [dats]]
theorem leaves_6 (c : Dev nD) (t : Fin cfg0.N) :
    (dats m 0 c).leaves 6 t = owns (c : Thread nD τ) (st0_6 t) fullShare (blkAt m c 6 t) := by
  show owns (c : Thread nD τ) (st0_6 t) fullShare ((dats m 0 c).after 6 t) = _
  rw [show (dats m 0 c).after 6 t = blkAt m c 6 t from by dsimp only [dats]]
theorem leaves_7 (c : Dev nD) (t : Fin cfg0.N) :
    (dats m 0 c).leaves 7 t = owns (c : Thread nD τ) (st0_7 t) fullShare (blkAt m c 7 t) := by
  show owns (c : Thread nD τ) (st0_7 t) fullShare ((dats m 0 c).after 7 t) = _
  rw [show (dats m 0 c).after 7 t = blkAt m c 7 t from by dsimp only [dats]]
theorem leaves_8 (c : Dev nD) (t : Fin cfg0.N) :
    (dats m 0 c).leaves 8 t = owns (c : Thread nD τ) (st0_8 t) fullShare (blkAt m c 8 t) := by
  show owns (c : Thread nD τ) (st0_8 t) fullShare ((dats m 0 c).after 8 t) = _
  rw [show (dats m 0 c).after 8 t = blkAt m c 8 t from by dsimp only [dats]]
theorem leaves_9 (c : Dev nD) (t : Fin cfg0.N) :
    (dats m 0 c).leaves 9 t = owns (c : Thread nD τ) (st0_9 t) fullShare (blkAt m c 9 t) := by
  show owns (c : Thread nD τ) (st0_9 t) fullShare ((dats m 0 c).after 9 t) = _
  rw [show (dats m 0 c).after 9 t = blkAt m c 9 t from by dsimp only [dats]]
theorem leaves_10 (c : Dev nD) (t : Fin cfg0.N) :
    (dats m 0 c).leaves 10 t = owns (c : Thread nD τ) (st0_10 t) fullShare (blkAt m c 10 t) := by
  show owns (c : Thread nD τ) (st0_10 t) fullShare ((dats m 0 c).after 10 t) = _
  rw [show (dats m 0 c).after 10 t = blkAt m c 10 t from by dsimp only [dats]]
theorem leaves_11 (c : Dev nD) (t : Fin cfg0.N) :
    (dats m 0 c).leaves 11 t = owns (c : Thread nD τ) (st0_11 t) fullShare (blkAt m c 11 t) := by
  show owns (c : Thread nD τ) (st0_11 t) fullShare ((dats m 0 c).after 11 t) = _
  rw [show (dats m 0 c).after 11 t = blkAt m c 11 t from by dsimp only [dats]]
theorem leaves_12_idle (c : Dev nD) (t : Fin cfg0.N) (ht : t.val < 19) :
    (dats m 0 c).leaves 12 t = iprop(∃ d, owns (c : Thread nD τ) (st0_12 t) fullShare ((dats m 0 c).before 12 t d)) :=
  (dats m 0 c).leaves_idle 12 t (idle_12 t ht) (noflush_12 t ht)
theorem leaves_12_last (c : Dev nD) :
    (dats m 0 c).leaves 12 tLast = owns (c : Thread nD τ) (st0_12 tLast) fullShare (rowAt m c) := by
  unfold Dat.leaves; rw [live_12]
  show owns (c : Thread nD τ) (st0_12 tLast) fullShare ((dats m 0 c).after 12 tLast) = _
  rw [show (dats m 0 c).after 12 tLast = rowAt m c from by dsimp only [dats]]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t)

set_option maxHeartbeats 8000000 in
/-- The body at any point.  At the first point the invariant hands over the scratch buffers at anything and takes
    them back at the first partial sum and the compound embedding; at a middle point the sum grows by two block
    products; at the last point the sum is completed — the positions of the overhanging block past the arrays'
    end do not matter, both operands being zeroed there — and the output row is stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11]
  simp only [before_0, before_1, before_4, before_5, before_6, before_7, before_8, before_9, before_10, before_11]
  have hN : t.val < 20 := lt_of_lt_of_eq t.isLt N20
  by_cases h0 : t.val = 0
  · have h19 : t.val < 19 := by omega
    rw [leaves_12_idle m c t h19]
    simp only [before_2 m c t h19, before_3 m c t h19]
    rw [PhiS_castSucc m c t, PhiS_zero m c _ _ h0, PhiA_eq]
    have hs : sumAt m c t.val t.isLt = k0_pay3 (k0_pay1 (F := F)) (blkAt m c 1 t) (blkAt m c 0 t) (blkAt m c 3 t) (blkAt m c 2 t) := by
      obtain ⟨n, hn⟩ := t
      cases n with
      | zero => rfl
      | succ n => exact absurd h0 (Nat.succ_ne_zero n)
    have he : embAt m c = k0_pay2 (blkAt m c 5 t) (blkAt m c 4 t) (blkAt m c 7 t) := by
      have ht : t = tFirst := Fin.ext h0
      subst ht; rfl
    rw [hs, he]
    iintro ⟨⟨⟨HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid0.coords t) _ _ _ _ _ _ _ _ _ _ _ _ _ _ _ _ _ _ _ _ _ _ _ _ _ _ _ _ _ _ ((hcond1 t).mpr h0) ((hcond2 t).mpr h19) (fun h => by have := (hcond3 t).mp h; omega)
      (blkAt m c 0 t) (blkAt m c 1 t) (blkAt m c 2 t) (blkAt m c 3 t) (blkAt m c 4 t) (blkAt m c 5 t) (blkAt m c 7 t) Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [HS]; · iexact HS
    isplitl [HC]; · iexact HC
    iintro ⟨H0, H1, H2, H3, H4, H5, H7, HS, HC⟩
    isplitl [HS HC Hg]
    · isplitl [HS]; · iexact HS
      isplitl [HC]; · iexact HC
      iexact Hg
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · by_cases h19 : t.val < 19
    · rw [leaves_12_idle m c t h19]
      simp only [before_2 m c t h19, before_3 m c t h19]
      rw [PhiS_castSucc m c t, PhiS_pos m c _ _ h0, sumAt_mid m c t h0 h19]
      iintro ⟨⟨HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_mid c (grid0.coords t) _ _ _ _ _ _ _ _ _ _ _ _ _ _ _ _ _ _ _ _ _ _ _ _ _ _ _ _ _ _ (fun h => h0 ((hcond1 t).mp h)) ((hcond2 t).mpr h19) (fun h => by have := (hcond3 t).mp h; omega)
        (blkAt m c 0 t) (blkAt m c 1 t) (blkAt m c 2 t) (blkAt m c 3 t) (sumAt m c (t.val - 1) (by omega)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HC Hg]
      · isplitl [HS]; · iexact HS
        isplitl [HC]; · iexact HC
        iexact Hg
      isplitl [Ho]; · iexact Ho
      isplitl [H0]; · iexists d0; iexact H0
      isplitl [H1]; · iexists d1; iexact H1
      isplitl [H2]; · iexists d2; iexact H2
      isplitl [H3]; · iexists d3; iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists d12; iexact H12
    · have ht : t = tLast := Fin.ext (by show t.val = 19; omega)
      subst ht
      rw [leaves_12_last]
      unfold rowAt
      rw [PhiS_castSucc m c tLast, PhiS_pos m c _ _ h0, sumAt_last]
      iintro ⟨⟨HS, HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have hm := pay5_mask ((dats m 0 c).before 2 tLast d2) (blkAt m c 2 tLast) ((dats m 0 c).before 3 tLast d3) (blkAt m c 3 tLast)
        (sumAt m c 18 (by rw [N20]; omega)) (blkAt m c 1 tLast) (blkAt m c 0 tLast) (last_2 m c d2) (last_3 m c d3)
      iapply (run_last c (grid0.coords tLast) _ _ _ _ _ _ _ _ _ _ _ _ _ _ _ _ _ _ _ _ _ _ _ _ _ _ _ _ _ _ (fun h => h0 ((hcond1 tLast).mp h)) (fun h => h19 ((hcond2 tLast).mp h)) ((hcond3 tLast).mpr rfl)
        (blkAt m c 0 tLast) (blkAt m c 1 tLast) ((dats m 0 c).before 2 tLast d2) ((dats m 0 c).before 3 tLast d3)
        (blkAt m c 6 tLast) (blkAt m c 8 tLast) (blkAt m c 9 tLast) (blkAt m c 10 tLast) (blkAt m c 11 tLast)
        ((dats m 0 c).before 12 tLast d12) (sumAt m c 18 (by rw [N20]; omega)) (embAt m c) Set.univ _)
      isplitl [H0]; · iexact H0
      isplitl [H1]; · iexact H1
      isplitl [H2]; · iexact H2
      isplitl [H3]; · iexact H3
      isplitl [H6]; · iexact H6
      isplitl [H8]; · iexact H8
      isplitl [H9]; · iexact H9
      isplitl [H10]; · iexact H10
      isplitl [H11]; · iexact H11
      isplitl [H12]; · iexact H12
      isplitl [HS]; · iexact HS
      isplitl [HC]; · iexact HC
      rw [hm]
      iintro ⟨H0, H1, H2, H3, H6, H8, H9, H10, H11, H12, HS, HC⟩
      isplitl [HS HC Hg]
      · isplitl [HS]; · iexact HS
        isplitl [HC]; · iexact HC
        iexact Hg
      isplitl [Ho]; · iexact Ho
      isplitl [H0]; · iexists d0; iexact H0
      isplitl [H1]; · iexists d1; iexact H1
      isplitl [H2]; · iexists d2; iexact H2
      isplitl [H3]; · iexists d3; iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N20]; omega), PhiA_eq]
  iintro ⟨HS, HC, Hg⟩
  isplitl [HS HC]
  · isplitl [HS]
    · iexists _; iexact HS
    · iexists _; iexact HC
  iexact Hg

end Cert.Kernel.Hand

end
-- ==== Proof.Launch.lean ====
/-
  The launch of the fused kernel: from the body's obligation at every grid point to a run of the whole program.

  The program transposes and reshapes its ten arguments, runs the kernel over its twenty grid points, and transposes the
  kernel's 1 x 1024 output row into the 1024 x 1 result.  Two of the transposed arrays are each read through two windows
  (the even and the odd blocks of the contraction), so the buffer behind each is held half and half by its two windows;
  every other array is held whole by its one window.  After the last point the closing transpose reads the output row's
  buffer and writes the result buffer; no argument is written anywhere.
-/
import proofs.«129949_g26456998544025_cont_9to1_950_20_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's lines allocate nothing. -/
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host's ten lines, the kernel's region, and the closing transpose. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub
    hostOps0_fresh main_chain

/-- Window w's array held at the window's share at the contents the launch finds: from the buffer behind it held whole
    at that share. -/
theorem arr_intro (c : Dev nD) (w : Fin 13) (q : PosShare TreeShare) (hq : (dats m 0 c).share w = q) :
    (((c : Thread nD τ).loc (Pipeline.arrRef spec0 w)) ↦{q} V m c (Pipeline.arrRef spec0 w) : sProp 𝕄)
      ⊢ (cfg0.win w).arr.view.loc (c : Thread nD τ) ↦[(cfg0.win w).arr.view.set]{(dats m 0 c).share w} (dats m 0 c).arrAt w 0 := by
  rw [(arr_whole0 w).set_eq_univ, hq]; exact .rfl

/-- The eleven buffers behind the thirteen windows, each whole at the full share, are the windows' arrays at the shares
    of the proof data: the two buffers that two windows read are split in two halves. -/
theorem arrays_of_bufs (c : Dev nD) :
    (Pipeline.arrBufs spec0 c (V m c) : sProp 𝕄) ⊢ (dats m 0 c).arrays ((dats m 0 c).arrAt · 0) := by
  classical
  have e : ∀ Φ : Ref sig .tc → sProp 𝕄, bigSep (Finset.univ.image (Pipeline.arrRef spec0)) Φ
      = iprop(Φ main_call0_v0 ∗ Φ main_call0_v1 ∗ Φ main_call0_v2 ∗ Φ main_call0_v3 ∗ Φ main_call0_v4 ∗ Φ main_call0_v5 ∗ Φ main_call0_v6 ∗ Φ main_call0_v7 ∗ Φ main_call0_v8 ∗ Φ main_call0_v9 ∗ Φ main_call0_v10) := fun Φ =>
    bigSep_eq_bigSepL_of_eq [main_call0_v0, main_call0_v1, main_call0_v2, main_call0_v3, main_call0_v4, main_call0_v5, main_call0_v6, main_call0_v7, main_call0_v8, main_call0_v9, main_call0_v10] (by decide) (by decide) Φ
  unfold Pipeline.arrBufs Dat.arrays
  rw [e, bigSep_W0]
  iintro ⟨H0, H1, H2, H3, H4, H5, H6, H7, H8, H9, H10⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iapply (arr_intro m c 0 fullShare.left rfl); iexact H0a
  isplitl [H1a]; · iapply (arr_intro m c 1 fullShare.left rfl); iexact H1a
  isplitl [H0b]; · iapply (arr_intro m c 2 fullShare.right rfl); iexact H0b
  isplitl [H1b]; · iapply (arr_intro m c 3 fullShare.right rfl); iexact H1b
  isplitl [H2]; · iapply (arr_intro m c 4 fullShare rfl); iexact H2
  isplitl [H3]; · iapply (arr_intro m c 5 fullShare rfl); iexact H3
  isplitl [H4]; · iapply (arr_intro m c 6 fullShare rfl); iexact H4
  isplitl [H5]; · iapply (arr_intro m c 7 fullShare rfl); iexact H5
  isplitl [H6]; · iapply (arr_intro m c 8 fullShare rfl); iexact H6
  isplitl [H7]; · iapply (arr_intro m c 9 fullShare rfl); iexact H7
  isplitl [H8]; · iapply (arr_intro m c 10 fullShare rfl); iexact H8
  isplitl [H9]; · iapply (arr_intro m c 11 fullShare rfl); iexact H9
  iapply (arr_intro m c 12 fullShare rfl); iexact H10

/-! ## After the region: the closing transpose -/

/-- Core c's buffers when the region is left: the output row in its buffer, every other buffer as the region found it. -/
def Wexit (c : Dev nD) : Valuation τ sig (Elt F) :=
  Function.update (V0 m c) (Proc.devRef .tc main_call0_v10) ((dats m 0 c).arrAt 12 cfg0.N)

/-- Its buffers after the closing transpose, read at a TensorCore reference. -/
abbrev Vend (c : Dev nD) (b : Ref sig .tc) : Buf (Elt F) ((c : Thread nD τ).loc b) :=
  StableHlo.after hostOps1 (Wexit m c) (Proc.devRef .tc b)

theorem Wexit_out (c : Dev nD) : Wexit m c (Proc.devRef .tc main_call0_v10) = (dats m 0 c).arrAt 12 cfg0.N := by
  unfold Wexit; exact Function.update_self ..

theorem Wexit_ne (c : Dev nD) (b : Ref sig .tc) (h : b ≠ main_call0_v10) : Wexit m c (Proc.devRef .tc b) = V m c b := by
  unfold Wexit; exact Function.update_of_ne (StableHlo.devRef_ne_of_ne h) ..

/-- The transpose leaves the output row's buffer as it was … -/
theorem Vend_out (c : Dev nD) : Vend m c main_call0_v10 = (dats m 0 c).arrAt 12 cfg0.N := by
  unfold Vend
  rw [hostOps1]
  after_results
  exact Wexit_out m c

/-- … writes its transpose to the result … -/
theorem Vend_res (c : Dev nD) :
    Vend m c main_v0 = transpose S1024x1 [1, 0] ((dats m 0 c).arrAt 12 cfg0.N) transposes_S1x1024_S1024x1_1_0 := by
  unfold Vend
  rw [hostOps1]
  after_results
  rw [Wexit_out]
  rfl

/-- … and touches no other buffer. -/
theorem Vend_ne (c : Dev nD) (b : Ref sig .tc) (h0 : b ≠ main_v0) (h1 : b ≠ main_call0_v10) : Vend m c b = V m c b := by
  unfold Vend
  rw [hostOps1]
  simp only [StableHlo.after_cons, StableHlo.after_nil]
  rw [StableHlo.unary_result_ne _ _ _ _ _ _ h0]
  exact Wexit_ne m c b h1

/-- The two buffers the transpose touches, held at a valuation. -/
theorem held_pair (c : Dev nD) (W : Valuation τ sig (Elt F)) :
    (StableHlo.held (c.tc : Thread nD τ) {Proc.devRef .tc main_call0_v10, Proc.devRef .tc main_v0} W : sProp 𝕄)
      = iprop((((c : Thread nD τ).loc main_call0_v10) ↦{fullShare} W (Proc.devRef .tc main_call0_v10))
          ∗ (((c : Thread nD τ).loc main_v0) ↦{fullShare} W (Proc.devRef .tc main_v0))) := by
  classical
  unfold StableHlo.held
  rw [bigSep_insert (by rw [Finset.mem_singleton]; exact StableHlo.devRef_ne_of_ne (by decide)), bigSep_singleton]
  rfl

/-- The windows' arrays with the output row's taken out. -/
theorem arrays_out (c : Dev nD) (G : (w : Fin cfg0.W) → Buf (Elt F) ((cfg0.win w).arr.view.loc (c : Thread nD τ))) :
    ((dats m 0 c).arrays G : sProp 𝕄)
      = iprop((((c : Thread nD τ).loc main_call0_v10) ↦{fullShare} G 12)
          ∗ bigSep (Finset.univ.erase (12 : Fin cfg0.W)) fun w : Fin cfg0.W =>
              (cfg0.win w).arr.view.loc (c : Thread nD τ) ↦[(cfg0.win w).arr.view.set]{(dats m 0 c).share w} G w) := by
  classical
  unfold Dat.arrays
  rw [bigSep_erase (Finset.mem_univ (12 : Fin cfg0.W)), (arr_whole0 12).set_eq_univ]
  rfl

set_option backward.isDefEq.respectTransparency.types false in
/-- The closing transpose run from the region's exit: it reads the output row's buffer and writes the result. -/
theorem tail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vend m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  classical
  have hin : (StableHlo.held (c.tc : Thread nD τ) {Proc.devRef .tc main_call0_v10, Proc.devRef .tc main_v0} (Wexit m c) : sProp 𝕄)
      = iprop((((c : Thread nD τ).loc main_call0_v10) ↦{fullShare} (dats m 0 c).arrAt 12 cfg0.N)
          ∗ (((c : Thread nD τ).loc main_v0) ↦{fullShare} V m c main_v0)) := by
    rw [held_pair, Wexit_out, Wexit_ne m c main_v0 (by decide)]
  have hout : (StableHlo.held (c.tc : Thread nD τ) {Proc.devRef .tc main_call0_v10, Proc.devRef .tc main_v0}
        (StableHlo.after ([hostOps1] : List (List (HloOp τ sig (Elt F)))).flatten (Wexit m c)) : sProp 𝕄)
      = iprop((((c : Thread nD τ).loc main_call0_v10) ↦{fullShare} (dats m 0 c).arrAt 12 cfg0.N)
          ∗ (((c : Thread nD τ).loc main_v0) ↦{fullShare} Vend m c main_v0)) := by
    rw [held_pair, List.flatten_cons, List.flatten_nil, List.append_nil]
    show iprop((((c : Thread nD τ).loc main_call0_v10) ↦{fullShare} Vend m c main_call0_v10) ∗ _) = _
    rw [Vend_out]
  have hsub : ∀ ops ∈ ([hostOps1] : List (List (HloOp τ sig (Elt F)))), ∀ op ∈ ops,
      op.bufs ⊆ ({Proc.devRef .tc main_call0_v10, Proc.devRef .tc main_v0} : Finset (DevRef τ sig)) := by
    intro ops hops op hop
    simp only [List.mem_cons, List.mem_nil_iff, or_false] at hops
    subst hops
    simp only [hostOps1, List.mem_cons, List.mem_nil_iff, or_false] at hop
    subst hop
    exact Finset.Subset.refl _
  have hfresh : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  rw [show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  rw [arrays_out m c, unscopedRest0_eq c (V m c), unscopedRest0_eq c (Vend m c)]
  rw [Vend_ne m c main_arg0 (by decide) (by decide), Vend_ne m c main_arg1 (by decide) (by decide), Vend_ne m c main_arg2 (by decide) (by decide), Vend_ne m c main_arg3 (by decide) (by decide), Vend_ne m c main_arg4 (by decide) (by decide), Vend_ne m c main_arg5 (by decide) (by decide), Vend_ne m c main_arg6 (by decide) (by decide), Vend_ne m c main_arg7 (by decide) (by decide), Vend_ne m c main_arg8 (by decide) (by decide), Vend_ne m c main_arg9 (by decide) (by decide)]
  have hw := Pipeline.wp_seqs_then (Ix := Unit) (Name := ℕ) (U := UR sig nD τ) (Lvl := ℕ) (pcfgs (F := F)) defs₀ Variants.none c
    {Proc.devRef .tc main_call0_v10, Proc.devRef .tc main_v0} [] [hostOps1] hsub hfresh (Wexit m c) (K := Q')
  rw [Pipeline.chain_nil, wp_pure, hout, hin] at hw
  iintro ⟨Hk, Hb, ⟨A12, Ar⟩, ⟨U0, U1, U2, U3, U4, U5, U6, U7, U8, U9, Uv⟩⟩
  iapply (hw) $$ [Hb A12 Uv]
  · isplitl [Hb]; · iexact Hb
    isplitl [A12] <;> iassumption
  iintro ⟨Hb, A12, Uv⟩
  imodintro
  iapply Hk
  isplitl [A12 Ar]
  · isplitl [A12] <;> iassumption
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  isplitl [U9]; · iexact U9
  iexact Uv

/-! ## The arguments are not written before the region -/

theorem V_main_arg0 (c : Dev nD) : V m c main_arg0 = m ((c : Thread nD τ).loc main_arg0) := by
  show StableHlo.after hostOps0 (fun b => m (c, b)) (Proc.devRef .tc main_arg0) = _
  rw [hostOps0]
  after_results
  all_goals rfl
theorem V_main_arg1 (c : Dev nD) : V m c main_arg1 = m ((c : Thread nD τ).loc main_arg1) := by
  show StableHlo.after hostOps0 (fun b => m (c, b)) (Proc.devRef .tc main_arg1) = _
  rw [hostOps0]
  after_results
  all_goals rfl
theorem V_main_arg2 (c : Dev nD) : V m c main_arg2 = m ((c : Thread nD τ).loc main_arg2) := by
  show StableHlo.after hostOps0 (fun b => m (c, b)) (Proc.devRef .tc main_arg2) = _
  rw [hostOps0]
  after_results
  all_goals rfl
theorem V_main_arg3 (c : Dev nD) : V m c main_arg3 = m ((c : Thread nD τ).loc main_arg3) := by
  show StableHlo.after hostOps0 (fun b => m (c, b)) (Proc.devRef .tc main_arg3) = _
  rw [hostOps0]
  after_results
  all_goals rfl
theorem V_main_arg4 (c : Dev nD) : V m c main_arg4 = m ((c : Thread nD τ).loc main_arg4) := by
  show StableHlo.after hostOps0 (fun b => m (c, b)) (Proc.devRef .tc main_arg4) = _
  rw [hostOps0]
  after_results
  all_goals rfl
theorem V_main_arg5 (c : Dev nD) : V m c main_arg5 = m ((c : Thread nD τ).loc main_arg5) := by
  show StableHlo.after hostOps0 (fun b => m (c, b)) (Proc.devRef .tc main_arg5) = _
  rw [hostOps0]
  after_results
  all_goals rfl
theorem V_main_arg6 (c : Dev nD) : V m c main_arg6 = m ((c : Thread nD τ).loc main_arg6) := by
  show StableHlo.after hostOps0 (fun b => m (c, b)) (Proc.devRef .tc main_arg6) = _
  rw [hostOps0]
  after_results
  all_goals rfl
theorem V_main_arg7 (c : Dev nD) : V m c main_arg7 = m ((c : Thread nD τ).loc main_arg7) := by
  show StableHlo.after hostOps0 (fun b => m (c, b)) (Proc.devRef .tc main_arg7) = _
  rw [hostOps0]
  after_results
  all_goals rfl
theorem V_main_arg8 (c : Dev nD) : V m c main_arg8 = m ((c : Thread nD τ).loc main_arg8) := by
  show StableHlo.after hostOps0 (fun b => m (c, b)) (Proc.devRef .tc main_arg8) = _
  rw [hostOps0]
  after_results
  all_goals rfl
theorem V_main_arg9 (c : Dev nD) : V m c main_arg9 = m ((c : Thread nD τ).loc main_arg9) := by
  show StableHlo.after hostOps0 (fun b => m (c, b)) (Proc.devRef .tc main_arg9) = _
  rw [hostOps0]
  after_results
  all_goals rfl

/-! ## The run -/

set_option maxHeartbeats 1600000 in
/-- The run of the whole program from the body's obligation: every execution terminates; the result buffer ends at the
    transpose of the output row the last grid point stored, and the ten arguments end as they began. -/
theorem run_of_body (hbody : ∀ c, BodyObligationLoose (dats m 0 c) (defs₀ (F := F)) Variants.none () Set.univ)
    (hin : ∀ c, Pipeline.ΦA spec0 c ⊢ (dats m 0 c).Φ 0) (hout : ∀ c, (dats m 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v0)
          = transpose S1024x1 [1, 0] ((dats m 0 c).arrAt 12 cfg0.N) transposes_S1x1024_S1024x1_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := arrays_of_bufs m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail m)
    (QY := fun c s => ∀ b ∈ ((Finset.univ.filter fun b : Ref sig .tc => ¬ b.isScoped) \ Finset.univ.image (Pipeline.arrRef spec0)), s.mem ((c.tc : Thread nD τ).loc b) = Vend m c b)
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0)) (fun b => (c.tc : Thread nD τ).loc b) (Vend m c) s')
      isplitl [HU] <;> iassumption)
    (hQ := fun s h c => ⟨((h c).2.2 main_v0 (by decide)).trans (Vend_res m c),
      ((h c).2.2 main_arg0 (by decide)).trans ((Vend_ne m c main_arg0 (by decide) (by decide)).trans (V_main_arg0 m c)),
      ((h c).2.2 main_arg1 (by decide)).trans ((Vend_ne m c main_arg1 (by decide) (by decide)).trans (V_main_arg1 m c)),
      ((h c).2.2 main_arg2 (by decide)).trans ((Vend_ne m c main_arg2 (by decide) (by decide)).trans (V_main_arg2 m c)),
      ((h c).2.2 main_arg3 (by decide)).trans ((Vend_ne m c main_arg3 (by decide) (by decide)).trans (V_main_arg3 m c)),
      ((h c).2.2 main_arg4 (by decide)).trans ((Vend_ne m c main_arg4 (by decide) (by decide)).trans (V_main_arg4 m c)),
      ((h c).2.2 main_arg5 (by decide)).trans ((Vend_ne m c main_arg5 (by decide) (by decide)).trans (V_main_arg5 m c)),
      ((h c).2.2 main_arg6 (by decide)).trans ((Vend_ne m c main_arg6 (by decide) (by decide)).trans (V_main_arg6 m c)),
      ((h c).2.2 main_arg7 (by decide)).trans ((Vend_ne m c main_arg7 (by decide) (by decide)).trans (V_main_arg7 m c)),
      ((h c).2.2 main_arg8 (by decide)).trans ((Vend_ne m c main_arg8 (by decide) (by decide)).trans (V_main_arg8 m c)),
      ((h c).2.2 main_arg9 (by decide)).trans ((Vend_ne m c main_arg9 (by decide) (by decide)).trans (V_main_arg9 m c))⟩)

end Cert.KernelIdeal.Hand

end
-- ==== Proof.LaunchK.lean ====
/-
  The launch of the fused kernel: from the body's obligation at every grid point to a run of the whole program.

  The program transposes and reshapes its ten arguments, runs the kernel over its twenty grid points, and transposes the
  kernel's 1 x 1024 output row into the 1024 x 1 result.  Two of the transposed arrays are each read through two windows
  (the even and the odd blocks of the contraction), so the buffer behind each is held half and half by its two windows;
  every other array is held whole by its one window.  After the last point the closing transpose reads the output row's
  buffer and writes the result buffer; no argument is written anywhere.
-/
import proofs.«129949_g26456998544025_cont_9to1_950_20_alg».proof.Proof.DataK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's lines allocate nothing. -/
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the host's ten lines, the kernel's region, and the closing transpose. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] hostOps0_sub
    hostOps0_fresh main_chain

/-- Window w's array held at the window's share at the contents the launch finds: from the buffer behind it held whole
    at that share. -/
theorem arr_intro (c : Dev nD) (w : Fin 13) (q : PosShare TreeShare) (hq : (dats m 0 c).share w = q) :
    (((c : Thread nD τ).loc (Pipeline.arrRef spec0 w)) ↦{q} V m c (Pipeline.arrRef spec0 w) : sProp 𝕄)
      ⊢ (cfg0.win w).arr.view.loc (c : Thread nD τ) ↦[(cfg0.win w).arr.view.set]{(dats m 0 c).share w} (dats m 0 c).arrAt w 0 := by
  rw [(arr_whole0 w).set_eq_univ, hq]; exact .rfl

/-- The eleven buffers behind the thirteen windows, each whole at the full share, are the windows' arrays at the shares
    of the proof data: the two buffers that two windows read are split in two halves. -/
theorem arrays_of_bufs (c : Dev nD) :
    (Pipeline.arrBufs spec0 c (V m c) : sProp 𝕄) ⊢ (dats m 0 c).arrays ((dats m 0 c).arrAt · 0) := by
  classical
  have e : ∀ Φ : Ref sig .tc → sProp 𝕄, bigSep (Finset.univ.image (Pipeline.arrRef spec0)) Φ
      = iprop(Φ main_call0_v0 ∗ Φ main_call0_v1 ∗ Φ main_call0_v2 ∗ Φ main_call0_v3 ∗ Φ main_call0_v4 ∗ Φ main_call0_v5 ∗ Φ main_call0_v6 ∗ Φ main_call0_v7 ∗ Φ main_call0_v8 ∗ Φ main_call0_v9 ∗ Φ main_call0_v10) := fun Φ =>
    bigSep_eq_bigSepL_of_eq [main_call0_v0, main_call0_v1, main_call0_v2, main_call0_v3, main_call0_v4, main_call0_v5, main_call0_v6, main_call0_v7, main_call0_v8, main_call0_v9, main_call0_v10] (by decide) (by decide) Φ
  unfold Pipeline.arrBufs Dat.arrays
  rw [e, bigSep_W0]
  iintro ⟨H0, H1, H2, H3, H4, H5, H6, H7, H8, H9, H10⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iapply (arr_intro m c 0 fullShare.left rfl); iexact H0a
  isplitl [H1a]; · iapply (arr_intro m c 1 fullShare.left rfl); iexact H1a
  isplitl [H0b]; · iapply (arr_intro m c 2 fullShare.right rfl); iexact H0b
  isplitl [H1b]; · iapply (arr_intro m c 3 fullShare.right rfl); iexact H1b
  isplitl [H2]; · iapply (arr_intro m c 4 fullShare rfl); iexact H2
  isplitl [H3]; · iapply (arr_intro m c 5 fullShare rfl); iexact H3
  isplitl [H4]; · iapply (arr_intro m c 6 fullShare rfl); iexact H4
  isplitl [H5]; · iapply (arr_intro m c 7 fullShare rfl); iexact H5
  isplitl [H6]; · iapply (arr_intro m c 8 fullShare rfl); iexact H6
  isplitl [H7]; · iapply (arr_intro m c 9 fullShare rfl); iexact H7
  isplitl [H8]; · iapply (arr_intro m c 10 fullShare rfl); iexact H8
  isplitl [H9]; · iapply (arr_intro m c 11 fullShare rfl); iexact H9
  iapply (arr_intro m c 12 fullShare rfl); iexact H10

/-! ## After the region: the closing transpose -/

/-- Core c's buffers when the region is left: the output row in its buffer, every other buffer as the region found it. -/
def Wexit (c : Dev nD) : Valuation τ sig (Elt F) :=
  Function.update (V0 m c) (Proc.devRef .tc main_call0_v10) ((dats m 0 c).arrAt 12 cfg0.N)

/-- Its buffers after the closing transpose, read at a TensorCore reference. -/
abbrev Vend (c : Dev nD) (b : Ref sig .tc) : Buf (Elt F) ((c : Thread nD τ).loc b) :=
  StableHlo.after hostOps1 (Wexit m c) (Proc.devRef .tc b)

theorem Wexit_out (c : Dev nD) : Wexit m c (Proc.devRef .tc main_call0_v10) = (dats m 0 c).arrAt 12 cfg0.N := by
  unfold Wexit; exact Function.update_self ..

theorem Wexit_ne (c : Dev nD) (b : Ref sig .tc) (h : b ≠ main_call0_v10) : Wexit m c (Proc.devRef .tc b) = V m c b := by
  unfold Wexit; exact Function.update_of_ne (StableHlo.devRef_ne_of_ne h) ..

/-- The transpose leaves the output row's buffer as it was … -/
theorem Vend_out (c : Dev nD) : Vend m c main_call0_v10 = (dats m 0 c).arrAt 12 cfg0.N := by
  unfold Vend
  rw [hostOps1]
  after_results
  exact Wexit_out m c

/-- … writes its transpose to the result … -/
theorem Vend_res (c : Dev nD) :
    Vend m c main_v0 = transpose S1024x1 [1, 0] ((dats m 0 c).arrAt 12 cfg0.N) transposes_S1x1024_S1024x1_1_0 := by
  unfold Vend
  rw [hostOps1]
  after_results
  rw [Wexit_out]
  rfl

/-- … and touches no other buffer. -/
theorem Vend_ne (c : Dev nD) (b : Ref sig .tc) (h0 : b ≠ main_v0) (h1 : b ≠ main_call0_v10) : Vend m c b = V m c b := by
  unfold Vend
  rw [hostOps1]
  simp only [StableHlo.after_cons, StableHlo.after_nil]
  rw [StableHlo.unary_result_ne _ _ _ _ _ _ h0]
  exact Wexit_ne m c b h1

/-- The two buffers the transpose touches, held at a valuation. -/
theorem held_pair (c : Dev nD) (W : Valuation τ sig (Elt F)) :
    (StableHlo.held (c.tc : Thread nD τ) {Proc.devRef .tc main_call0_v10, Proc.devRef .tc main_v0} W : sProp 𝕄)
      = iprop((((c : Thread nD τ).loc main_call0_v10) ↦{fullShare} W (Proc.devRef .tc main_call0_v10))
          ∗ (((c : Thread nD τ).loc main_v0) ↦{fullShare} W (Proc.devRef .tc main_v0))) := by
  classical
  unfold StableHlo.held
  rw [bigSep_insert (by rw [Finset.mem_singleton]; exact StableHlo.devRef_ne_of_ne (by decide)), bigSep_singleton]
  rfl

/-- The windows' arrays with the output row's taken out. -/
theorem arrays_out (c : Dev nD) (G : (w : Fin cfg0.W) → Buf (Elt F) ((cfg0.win w).arr.view.loc (c : Thread nD τ))) :
    ((dats m 0 c).arrays G : sProp 𝕄)
      = iprop((((c : Thread nD τ).loc main_call0_v10) ↦{fullShare} G 12)
          ∗ bigSep (Finset.univ.erase (12 : Fin cfg0.W)) fun w : Fin cfg0.W =>
              (cfg0.win w).arr.view.loc (c : Thread nD τ) ↦[(cfg0.win w).arr.view.set]{(dats m 0 c).share w} G w) := by
  classical
  unfold Dat.arrays
  rw [bigSep_erase (Finset.mem_univ (12 : Fin cfg0.W)), (arr_whole0 12).set_eq_univ]
  rfl

set_option backward.isDefEq.respectTransparency.types false in
/-- The closing transpose run from the region's exit: it reads the output row's buffer and writes the result. -/
theorem tail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vend m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  classical
  have hin : (StableHlo.held (c.tc : Thread nD τ) {Proc.devRef .tc main_call0_v10, Proc.devRef .tc main_v0} (Wexit m c) : sProp 𝕄)
      = iprop((((c : Thread nD τ).loc main_call0_v10) ↦{fullShare} (dats m 0 c).arrAt 12 cfg0.N)
          ∗ (((c : Thread nD τ).loc main_v0) ↦{fullShare} V m c main_v0)) := by
    rw [held_pair, Wexit_out, Wexit_ne m c main_v0 (by decide)]
  have hout : (StableHlo.held (c.tc : Thread nD τ) {Proc.devRef .tc main_call0_v10, Proc.devRef .tc main_v0}
        (StableHlo.after ([hostOps1] : List (List (HloOp τ sig (Elt F)))).flatten (Wexit m c)) : sProp 𝕄)
      = iprop((((c : Thread nD τ).loc main_call0_v10) ↦{fullShare} (dats m 0 c).arrAt 12 cfg0.N)
          ∗ (((c : Thread nD τ).loc main_v0) ↦{fullShare} Vend m c main_v0)) := by
    rw [held_pair, List.flatten_cons, List.flatten_nil, List.append_nil]
    show iprop((((c : Thread nD τ).loc main_call0_v10) ↦{fullShare} Vend m c main_call0_v10) ∗ _) = _
    rw [Vend_out]
  have hsub : ∀ ops ∈ ([hostOps1] : List (List (HloOp τ sig (Elt F)))), ∀ op ∈ ops,
      op.bufs ⊆ ({Proc.devRef .tc main_call0_v10, Proc.devRef .tc main_v0} : Finset (DevRef τ sig)) := by
    intro ops hops op hop
    simp only [List.mem_cons, List.mem_nil_iff, or_false] at hops
    subst hops
    simp only [hostOps1, List.mem_cons, List.mem_nil_iff, or_false] at hop
    subst hop
    exact Finset.Subset.refl _
  have hfresh : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  rw [show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  rw [arrays_out m c, unscopedRest0_eq c (V m c), unscopedRest0_eq c (Vend m c)]
  rw [Vend_ne m c main_arg0 (by decide) (by decide), Vend_ne m c main_arg1 (by decide) (by decide), Vend_ne m c main_arg2 (by decide) (by decide), Vend_ne m c main_arg3 (by decide) (by decide), Vend_ne m c main_arg4 (by decide) (by decide), Vend_ne m c main_arg5 (by decide) (by decide), Vend_ne m c main_arg6 (by decide) (by decide), Vend_ne m c main_arg7 (by decide) (by decide), Vend_ne m c main_arg8 (by decide) (by decide), Vend_ne m c main_arg9 (by decide) (by decide)]
  have hw := Pipeline.wp_seqs_then (Ix := Unit) (Name := ℕ) (U := UR sig nD τ) (Lvl := ℕ) (pcfgs (F := F)) defs₀ Variants.none c
    {Proc.devRef .tc main_call0_v10, Proc.devRef .tc main_v0} [] [hostOps1] hsub hfresh (Wexit m c) (K := Q')
  rw [Pipeline.chain_nil, wp_pure, hout, hin] at hw
  iintro ⟨Hk, Hb, ⟨A12, Ar⟩, ⟨U0, U1, U2, U3, U4, U5, U6, U7, U8, U9, Uv⟩⟩
  iapply (hw) $$ [Hb A12 Uv]
  · isplitl [Hb]; · iexact Hb
    isplitl [A12] <;> iassumption
  iintro ⟨Hb, A12, Uv⟩
  imodintro
  iapply Hk
  isplitl [A12 Ar]
  · isplitl [A12] <;> iassumption
  isplitl [U0]; · iexact U0
  isplitl [U1]; · iexact U1
  isplitl [U2]; · iexact U2
  isplitl [U3]; · iexact U3
  isplitl [U4]; · iexact U4
  isplitl [U5]; · iexact U5
  isplitl [U6]; · iexact U6
  isplitl [U7]; · iexact U7
  isplitl [U8]; · iexact U8
  isplitl [U9]; · iexact U9
  iexact Uv

/-! ## The arguments are not written before the region -/

theorem V_main_arg0 (c : Dev nD) : V m c main_arg0 = m ((c : Thread nD τ).loc main_arg0) := by
  show StableHlo.after hostOps0 (fun b => m (c, b)) (Proc.devRef .tc main_arg0) = _
  rw [hostOps0]
  after_results
  all_goals rfl
theorem V_main_arg1 (c : Dev nD) : V m c main_arg1 = m ((c : Thread nD τ).loc main_arg1) := by
  show StableHlo.after hostOps0 (fun b => m (c, b)) (Proc.devRef .tc main_arg1) = _
  rw [hostOps0]
  after_results
  all_goals rfl
theorem V_main_arg2 (c : Dev nD) : V m c main_arg2 = m ((c : Thread nD τ).loc main_arg2) := by
  show StableHlo.after hostOps0 (fun b => m (c, b)) (Proc.devRef .tc main_arg2) = _
  rw [hostOps0]
  after_results
  all_goals rfl
theorem V_main_arg3 (c : Dev nD) : V m c main_arg3 = m ((c : Thread nD τ).loc main_arg3) := by
  show StableHlo.after hostOps0 (fun b => m (c, b)) (Proc.devRef .tc main_arg3) = _
  rw [hostOps0]
  after_results
  all_goals rfl
theorem V_main_arg4 (c : Dev nD) : V m c main_arg4 = m ((c : Thread nD τ).loc main_arg4) := by
  show StableHlo.after hostOps0 (fun b => m (c, b)) (Proc.devRef .tc main_arg4) = _
  rw [hostOps0]
  after_results
  all_goals rfl
theorem V_main_arg5 (c : Dev nD) : V m c main_arg5 = m ((c : Thread nD τ).loc main_arg5) := by
  show StableHlo.after hostOps0 (fun b => m (c, b)) (Proc.devRef .tc main_arg5) = _
  rw [hostOps0]
  after_results
  all_goals rfl
theorem V_main_arg6 (c : Dev nD) : V m c main_arg6 = m ((c : Thread nD τ).loc main_arg6) := by
  show StableHlo.after hostOps0 (fun b => m (c, b)) (Proc.devRef .tc main_arg6) = _
  rw [hostOps0]
  after_results
  all_goals rfl
theorem V_main_arg7 (c : Dev nD) : V m c main_arg7 = m ((c : Thread nD τ).loc main_arg7) := by
  show StableHlo.after hostOps0 (fun b => m (c, b)) (Proc.devRef .tc main_arg7) = _
  rw [hostOps0]
  after_results
  all_goals rfl
theorem V_main_arg8 (c : Dev nD) : V m c main_arg8 = m ((c : Thread nD τ).loc main_arg8) := by
  show StableHlo.after hostOps0 (fun b => m (c, b)) (Proc.devRef .tc main_arg8) = _
  rw [hostOps0]
  after_results
  all_goals rfl
theorem V_main_arg9 (c : Dev nD) : V m c main_arg9 = m ((c : Thread nD τ).loc main_arg9) := by
  show StableHlo.after hostOps0 (fun b => m (c, b)) (Proc.devRef .tc main_arg9) = _
  rw [hostOps0]
  after_results
  all_goals rfl

/-! ## The run -/

set_option maxHeartbeats 1600000 in
/-- The run of the whole program from the body's obligation: every execution terminates; the result buffer ends at the
    transpose of the output row the last grid point stored, and the ten arguments end as they began. -/
theorem run_of_body (hbody : ∀ c, BodyObligationLoose (dats m 0 c) (defs₀ (F := F)) Variants.none () Set.univ)
    (hin : ∀ c, Pipeline.ΦA spec0 c ⊢ (dats m 0 c).Φ 0) (hout : ∀ c, (dats m 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v0)
          = transpose S1024x1 [1, 0] ((dats m 0 c).arrAt 12 cfg0.N) transposes_S1x1024_S1024x1_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := arrays_of_bufs m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail m)
    (QY := fun c s => ∀ b ∈ ((Finset.univ.filter fun b : Ref sig .tc => ¬ b.isScoped) \ Finset.univ.image (Pipeline.arrRef spec0)), s.mem ((c.tc : Thread nD τ).loc b) = Vend m c b)
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0)) (fun b => (c.tc : Thread nD τ).loc b) (Vend m c) s')
      isplitl [HU] <;> iassumption)
    (hQ := fun s h c => ⟨((h c).2.2 main_v0 (by decide)).trans (Vend_res m c),
      ((h c).2.2 main_arg0 (by decide)).trans ((Vend_ne m c main_arg0 (by decide) (by decide)).trans (V_main_arg0 m c)),
      ((h c).2.2 main_arg1 (by decide)).trans ((Vend_ne m c main_arg1 (by decide) (by decide)).trans (V_main_arg1 m c)),
      ((h c).2.2 main_arg2 (by decide)).trans ((Vend_ne m c main_arg2 (by decide) (by decide)).trans (V_main_arg2 m c)),
      ((h c).2.2 main_arg3 (by decide)).trans ((Vend_ne m c main_arg3 (by decide) (by decide)).trans (V_main_arg3 m c)),
      ((h c).2.2 main_arg4 (by decide)).trans ((Vend_ne m c main_arg4 (by decide) (by decide)).trans (V_main_arg4 m c)),
      ((h c).2.2 main_arg5 (by decide)).trans ((Vend_ne m c main_arg5 (by decide) (by decide)).trans (V_main_arg5 m c)),
      ((h c).2.2 main_arg6 (by decide)).trans ((Vend_ne m c main_arg6 (by decide) (by decide)).trans (V_main_arg6 m c)),
      ((h c).2.2 main_arg7 (by decide)).trans ((Vend_ne m c main_arg7 (by decide) (by decide)).trans (V_main_arg7 m c)),
      ((h c).2.2 main_arg8 (by decide)).trans ((Vend_ne m c main_arg8 (by decide) (by decide)).trans (V_main_arg8 m c)),
      ((h c).2.2 main_arg9 (by decide)).trans ((Vend_ne m c main_arg9 (by decide) (by decide)).trans (V_main_arg9 m c))⟩)

end Cert.Kernel.Hand

end
-- ==== Proof.Final.lean ====
import proofs.«129949_g26456998544025_cont_9to1_950_20_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array after the run

The output window's one block is the whole 1 x 1024 array, and it is written back once, after the last point: the
array ends holding the row stored there. -/

theorem flush_12_last (t : Fin cfg0.N) (h : (cfg0.win 12).flush t = true) : t = tLast :=
  Fin.ext (by have h1 := (flush0_12 t).mp h; have h2 := lt_of_lt_of_eq t.isLt N20; show t.val = 19; omega)

theorem flush_12_at_last : (cfg0.win 12).flush tLast = true := (flush0_12 tLast).mpr rfl

/-- The output window's block starts at the array's origin and has the array's extent. -/
theorem blk_12 : ∀ a, win0_12.index tLast a * win0_12.size a = 0 ∧ win0_12.xsize (grid0.coords tLast) a = S1x1024.size a := by
  have h : ∀ t : Fin grid0.N, t.val = 19 → ∀ a, win0_12.index t a * win0_12.size a = 0 ∧ win0_12.xsize (grid0.coords t) a = S1x1024.size a := by
    decide +kernel
  exact h tLast rfl

theorem final_12 (c : Dev nD) : (dats m 0 c).arrAt 12 cfg0.N = rowAt m c := by
  refine (dats m 0 c).arrAt_eq_of_cover 12 (rowAt m c) (fun t hf => ?_) (fun i => ⟨tLast, flush_12_at_last, ?_⟩)
  · obtain rfl := flush_12_last t hf
    show (cfg0.win 12).cut (cfg0.grid.coords tLast) ((dats m 0 c).after 12 tLast) = _
    rw [show (dats m 0 c).after 12 tLast = rowAt m c from by dsimp only [dats]]
    funext j
    rw [View.read_apply]
    show rowAt m c ((cfg0.win 12).xinj (cfg0.grid.coords tLast) j) = rowAt m c (((cfg0.win 12).blk tLast).view.emb j)
    congr 1
    funext a
    apply Fin.ext
    show (j a).val = win0_12.index tLast a * win0_12.size a + 1 * (j a).val
    rw [(blk_12 a).1]; omega
  · show i ∈ ((View.whole main_call0_v10).slice (win0_12.rect tLast)).set
    rw [View.set_slice_whole, Rect.mem_set_unit]
    intro a
    have hi := (i a).isLt
    show win0_12.index tLast a * win0_12.size a ≤ (i a : Nat) ∧ (i a : Nat) < win0_12.index tLast a * win0_12.size a + win0_12.xsize (grid0.coords tLast) a
    rw [(blk_12 a).1, (blk_12 a).2]
    refine ⟨Nat.zero_le _, ?_⟩
    rw [Nat.zero_add]
    exact hi

end Cert.KernelIdeal.Hand

end
-- ==== Proof.GlueBlocks.lean ====
/-
  What the thirteen windows of the fused kernel's pipeline hold in their staging buffers, point by point, in terms
  of the ten arrays the launch is handed.

  Windows 0 and 2 walk the transposed activations (100000 x 1024) in blocks of 2560 rows: at point t window 0 holds
  block 2t and window 2 block 2t+1.  Windows 1 and 3 walk the transposed weights (64 x 100000) the same way along
  the columns.  Blocks 0..38 lie inside the arrays; block 39, fetched by windows 2 and 3 at the last point,
  overhangs by 2400 positions and its fetch fills only the first 160 rows (columns) of the buffer.  The other eight
  input windows are fetched once, at the first point, whole, and keep what they were given.
-/
import proofs.«129949_g26456998544025_cont_9to1_950_20_alg».proof.Proof.Data
import proofs.«129949_g26456998544025_cont_9to1_950_20_alg».proof.Proof.KernelFn
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The word a clipped fetch leaves on the part of a staging buffer it does not fill. -/
abbrev junk : Elt F .f32 := @Classical.arbitrary _ (Elt.nonempty F .f32)

theorem lt20 (t : Fin cfg0.N) : t.val < 20 := lt_of_lt_of_eq t.isLt N20

/-! ## Where the windows' blocks lie, decided over the twenty points -/

theorem idx0_0 : ∀ t : Fin cfg0.N, win0_0.index t 0 = 2 * t.val ∧ win0_0.index t 1 = 0 :=
  (by decide +kernel : ∀ t : Fin grid0.N, win0_0.index t 0 = 2 * t.val ∧ win0_0.index t 1 = 0)
theorem xs0_0 : ∀ t : Fin cfg0.N, win0_0.xsize (grid0.coords t) 0 = 2560 ∧ win0_0.xsize (grid0.coords t) 1 = 1024 :=
  (by decide +kernel : ∀ t : Fin grid0.N, win0_0.xsize (grid0.coords t) 0 = 2560 ∧ win0_0.xsize (grid0.coords t) 1 = 1024)
theorem idx0_1 : ∀ t : Fin cfg0.N, win0_1.index t 0 = 0 ∧ win0_1.index t 1 = 2 * t.val :=
  (by decide +kernel : ∀ t : Fin grid0.N, win0_1.index t 0 = 0 ∧ win0_1.index t 1 = 2 * t.val)
theorem xs0_1 : ∀ t : Fin cfg0.N, win0_1.xsize (grid0.coords t) 0 = 64 ∧ win0_1.xsize (grid0.coords t) 1 = 2560 :=
  (by decide +kernel : ∀ t : Fin grid0.N, win0_1.xsize (grid0.coords t) 0 = 64 ∧ win0_1.xsize (grid0.coords t) 1 = 2560)
theorem idx0_2 : ∀ t : Fin cfg0.N, win0_2.index t 0 = 2 * t.val + 1 ∧ win0_2.index t 1 = 0 :=
  (by decide +kernel : ∀ t : Fin grid0.N, win0_2.index t 0 = 2 * t.val + 1 ∧ win0_2.index t 1 = 0)
theorem xs0_2 : ∀ t : Fin cfg0.N, win0_2.xsize (grid0.coords t) 0 = (if t.val = 19 then 160 else 2560) ∧ win0_2.xsize (grid0.coords t) 1 = 1024 :=
  (by decide +kernel : ∀ t : Fin grid0.N, win0_2.xsize (grid0.coords t) 0 = (if t.val = 19 then 160 else 2560) ∧ win0_2.xsize (grid0.coords t) 1 = 1024)
theorem idx0_3 : ∀ t : Fin cfg0.N, win0_3.index t 0 = 0 ∧ win0_3.index t 1 = 2 * t.val + 1 :=
  (by decide +kernel : ∀ t : Fin grid0.N, win0_3.index t 0 = 0 ∧ win0_3.index t 1 = 2 * t.val + 1)
theorem xs0_3 : ∀ t : Fin cfg0.N, win0_3.xsize (grid0.coords t) 0 = 64 ∧ win0_3.xsize (grid0.coords t) 1 = (if t.val = 19 then 160 else 2560) :=
  (by decide +kernel : ∀ t : Fin grid0.N, win0_3.xsize (grid0.coords t) 0 = 64 ∧ win0_3.xsize (grid0.coords t) 1 = (if t.val = 19 then 160 else 2560))

/-! ## The four moving windows: each staged block is a block of the transposed array -/

/-- Window 0 at point t holds block 2t of the transposed activations, at every position inside the array. -/
theorem blk0_apply (c : Dev nD) (t : Fin cfg0.N) (d : S2560x1024.Idx → Elt F .f32) (y : S2560x1024.Idx)
    (hc : 2560 * (2 * t.val) + (y 0).val < 100000) :
    blkAt m c 0 t y = Fn.blkX (V m c main_call0_v0) (2 * t.val) d y := by
  unfold blkAt
  rw [Pipeline.heldIn_of_fetch _ _ _ (fetch0_0 t)]
  have hy0 : (y 0).val < 2560 := (y 0).isLt
  have hy1 : (y 1).val < 1024 := (y 1).isLt
  have hm : win0_0.moved (grid0.coords t) y = true := (win0_0.moved_iff _ y).mpr fun a => by
    match a with
    | ⟨0, _⟩ => show (y 0).val < win0_0.xsize (grid0.coords t) 0; rw [(xs0_0 t).1]; exact hy0
    | ⟨1, _⟩ => show (y 1).val < win0_0.xsize (grid0.coords t) 1; rw [(xs0_0 t).2]; exact hy1
  unfold Window.fill Fn.blkX
  rw [dif_pos hm, dif_pos hc]
  show V m c main_call0_v0 (((cfg0.win 0).blk t).view.emb _) = _
  refine congrArg (V m c main_call0_v0) (funext fun a => Fin.ext ?_)
  match a with
  | ⟨0, _⟩ =>
    show win0_0.index t 0 * 2560 + 1 * (y 0).val = 2560 * (2 * t.val) + (y 0).val
    rw [(idx0_0 t).1]; omega
  | ⟨1, _⟩ =>
    show win0_0.index t 1 * 1024 + 1 * (y 1).val = (y 1).val
    rw [(idx0_0 t).2]; omega

/-- Window 1 at point t holds block 2t of the transposed weights, at every position inside the array. -/
theorem blk1_apply (c : Dev nD) (t : Fin cfg0.N) (d : S64x2560.Idx → Elt F .f32) (y : S64x2560.Idx)
    (hc : 2560 * (2 * t.val) + (y 1).val < 100000) :
    blkAt m c 1 t y = Fn.blkW (V m c main_call0_v1) (2 * t.val) d y := by
  unfold blkAt
  rw [Pipeline.heldIn_of_fetch _ _ _ (fetch0_1 t)]
  have hy0 : (y 0).val < 64 := (y 0).isLt
  have hy1 : (y 1).val < 2560 := (y 1).isLt
  have hm : win0_1.moved (grid0.coords t) y = true := (win0_1.moved_iff _ y).mpr fun a => by
    match a with
    | ⟨0, _⟩ => show (y 0).val < win0_1.xsize (grid0.coords t) 0; rw [(xs0_1 t).1]; exact hy0
    | ⟨1, _⟩ => show (y 1).val < win0_1.xsize (grid0.coords t) 1; rw [(xs0_1 t).2]; exact hy1
  unfold Window.fill Fn.blkW
  rw [dif_pos hm, dif_pos hc]
  show V m c main_call0_v1 (((cfg0.win 1).blk t).view.emb _) = _
  refine congrArg (V m c main_call0_v1) (funext fun a => Fin.ext ?_)
  match a with
  | ⟨0, _⟩ =>
    show win0_1.index t 0 * 64 + 1 * (y 0).val = (y 0).val
    rw [(idx0_1 t).1]; omega
  | ⟨1, _⟩ =>
    show win0_1.index t 1 * 2560 + 1 * (y 1).val = 2560 * (2 * t.val) + (y 1).val
    rw [(idx0_1 t).2]; omega

/-- Window 2 at point t holds block 2t+1 of the transposed activations, at every position inside the array. -/
theorem blk2_apply (c : Dev nD) (t : Fin cfg0.N) (d : S2560x1024.Idx → Elt F .f32) (y : S2560x1024.Idx)
    (hc : 2560 * (2 * t.val + 1) + (y 0).val < 100000) :
    blkAt m c 2 t y = Fn.blkX (V m c main_call0_v0) (2 * t.val + 1) d y := by
  unfold blkAt
  rw [Pipeline.heldIn_of_fetch _ _ _ (fetch0_2 t)]
  have hy0 : (y 0).val < 2560 := (y 0).isLt
  have hy1 : (y 1).val < 1024 := (y 1).isLt
  have hm : win0_2.moved (grid0.coords t) y = true := (win0_2.moved_iff _ y).mpr fun a => by
    match a with
    | ⟨0, _⟩ =>
      show (y 0).val < win0_2.xsize (grid0.coords t) 0
      rw [(xs0_2 t).1]; split <;> omega
    | ⟨1, _⟩ => show (y 1).val < win0_2.xsize (grid0.coords t) 1; rw [(xs0_2 t).2]; exact hy1
  unfold Window.fill Fn.blkX
  rw [dif_pos hm, dif_pos hc]
  show V m c main_call0_v0 (((cfg0.win 2).blk t).view.emb _) = _
  refine congrArg (V m c main_call0_v0) (funext fun a => Fin.ext ?_)
  match a with
  | ⟨0, _⟩ =>
    show win0_2.index t 0 * 2560 + 1 * (y 0).val = 2560 * (2 * t.val + 1) + (y 0).val
    rw [(idx0_2 t).1]; omega
  | ⟨1, _⟩ =>
    show win0_2.index t 1 * 1024 + 1 * (y 1).val = (y 1).val
    rw [(idx0_2 t).2]; omega

/-- Window 3 at point t holds block 2t+1 of the transposed weights, at every position inside the array. -/
theorem blk3_apply (c : Dev nD) (t : Fin cfg0.N) (d : S64x2560.Idx → Elt F .f32) (y : S64x2560.Idx)
    (hc : 2560 * (2 * t.val + 1) + (y 1).val < 100000) :
    blkAt m c 3 t y = Fn.blkW (V m c main_call0_v1) (2 * t.val + 1) d y := by
  unfold blkAt
  rw [Pipeline.heldIn_of_fetch _ _ _ (fetch0_3 t)]
  have hy0 : (y 0).val < 64 := (y 0).isLt
  have hy1 : (y 1).val < 2560 := (y 1).isLt
  have hm : win0_3.moved (grid0.coords t) y = true := (win0_3.moved_iff _ y).mpr fun a => by
    match a with
    | ⟨0, _⟩ => show (y 0).val < win0_3.xsize (grid0.coords t) 0; rw [(xs0_3 t).1]; exact hy0
    | ⟨1, _⟩ =>
      show (y 1).val < win0_3.xsize (grid0.coords t) 1
      rw [(xs0_3 t).2]; split <;> omega
  unfold Window.fill Fn.blkW
  rw [dif_pos hm, dif_pos hc]
  show V m c main_call0_v1 (((cfg0.win 3).blk t).view.emb _) = _
  refine congrArg (V m c main_call0_v1) (funext fun a => Fin.ext ?_)
  match a with
  | ⟨0, _⟩ =>
    show win0_3.index t 0 * 64 + 1 * (y 0).val = (y 0).val
    rw [(idx0_3 t).1]; omega
  | ⟨1, _⟩ =>
    show win0_3.index t 1 * 2560 + 1 * (y 1).val = 2560 * (2 * t.val + 1) + (y 1).val
    rw [(idx0_3 t).2]; omega

/-- Blocks 0..38 lie inside the arrays: whatever stands for positions past the end is never read. -/
theorem blk0_eq (c : Dev nD) (t : Fin cfg0.N) (d : S2560x1024.Idx → Elt F .f32) :
    blkAt m c 0 t = Fn.blkX (V m c main_call0_v0) (2 * t.val) d :=
  funext fun y => blk0_apply m c t d y (by have := lt20 t; have : (y 0).val < 2560 := (y 0).isLt; omega)
theorem blk1_eq (c : Dev nD) (t : Fin cfg0.N) (d : S64x2560.Idx → Elt F .f32) :
    blkAt m c 1 t = Fn.blkW (V m c main_call0_v1) (2 * t.val) d :=
  funext fun y => blk1_apply m c t d y (by have := lt20 t; have : (y 1).val < 2560 := (y 1).isLt; omega)
theorem blk2_eq (c : Dev nD) (t : Fin cfg0.N) (ht : t.val < 19) (d : S2560x1024.Idx → Elt F .f32) :
    blkAt m c 2 t = Fn.blkX (V m c main_call0_v0) (2 * t.val + 1) d :=
  funext fun y => blk2_apply m c t d y (by have : (y 0).val < 2560 := (y 0).isLt; omega)
theorem blk3_eq (c : Dev nD) (t : Fin cfg0.N) (ht : t.val < 19) (d : S64x2560.Idx → Elt F .f32) :
    blkAt m c 3 t = Fn.blkW (V m c main_call0_v1) (2 * t.val + 1) d :=
  funext fun y => blk3_apply m c t d y (by have : (y 1).val < 2560 := (y 1).isLt; omega)

/-! ## The eight resident windows: fetched once, at the first point, whole -/

/-- A window fetched at the first point only holds at every point what it was given there. -/
theorem held_const (c : Dev nD) (w : Fin cfg0.W) (X : (cfg0.win w).block.Idx → Elt F (cfg0.win w).elt)
    (hf : ∀ t : Fin cfg0.N, (cfg0.win w).fetch t = true ↔ t.val % 20 = 0)
    (h0 : Pipeline.heldIn cfg0 (arrOf m c) w 0 tFirst.isLt = X) :
    ∀ (n : ℕ) (h : n < cfg0.N), Pipeline.heldIn cfg0 (arrOf m c) w n h = X := by
  intro n
  induction n with
  | zero => intro _; exact h0
  | succ n ih =>
    intro h
    have hn : n + 1 < 20 := lt_of_lt_of_eq h N20
    have hnf : (cfg0.win w).fetch ⟨n + 1, h⟩ = false := by
      cases hb : (cfg0.win w).fetch ⟨n + 1, h⟩ with
      | false => rfl
      | true => have := (hf ⟨n + 1, h⟩).mp hb; simp only at this; omega
    rw [Pipeline.heldIn_of_not_fetch _ _ _ h hnf]
    exact ih _

theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)
theorem idx0_8 : ∀ t : Fin cfg0.N, win0_8.index t 0 = 0 ∧ win0_8.index t 1 = 0 :=
  (by decide +kernel : ∀ t : Fin grid0.N, win0_8.index t 0 = 0 ∧ win0_8.index t 1 = 0)
theorem idx0_9 : ∀ t : Fin cfg0.N, win0_9.index t 0 = 0 ∧ win0_9.index t 1 = 0 :=
  (by decide +kernel : ∀ t : Fin grid0.N, win0_9.index t 0 = 0 ∧ win0_9.index t 1 = 0)
theorem idx0_10 : ∀ t : Fin cfg0.N, win0_10.index t 0 = 0 ∧ win0_10.index t 1 = 0 :=
  (by decide +kernel : ∀ t : Fin grid0.N, win0_10.index t 0 = 0 ∧ win0_10.index t 1 = 0)
theorem idx0_11 : ∀ t : Fin cfg0.N, win0_11.index t 0 = 0 ∧ win0_11.index t 1 = 0 :=
  (by decide +kernel : ∀ t : Fin grid0.N, win0_11.index t 0 = 0 ∧ win0_11.index t 1 = 0)

/-- Window 4 holds the whole transposed compound features. -/
theorem blk4_eq (c : Dev nD) (t : Fin cfg0.N) : blkAt m c 4 t = V m c main_call0_v2 := by
  refine held_const m c 4 _ fetch0_4 ?_ t.val t.isLt
  refine (Pipeline.heldIn_of_fetch (arrOf m c) 4 tFirst ((fetch0_4 tFirst).mpr rfl)).trans ?_
  funext y
  show V m c main_call0_v2 (((cfg0.win 4).blk tFirst).view.emb _) = _
  refine congrArg (V m c main_call0_v2) (funext fun a => Fin.ext ?_)
  match a with
  | ⟨0, _⟩ => show win0_4.index tFirst 0 * 1000 + 1 * (y 0).val = (y 0).val; rw [(idx0_4 tFirst).1]; omega
  | ⟨1, _⟩ => show win0_4.index tFirst 1 * 1024 + 1 * (y 1).val = (y 1).val; rw [(idx0_4 tFirst).2]; omega

/-- Window 5 holds the whole transposed compound weights. -/
theorem blk5_eq (c : Dev nD) (t : Fin cfg0.N) : blkAt m c 5 t = V m c main_call0_v3 := by
  refine held_const m c 5 _ fetch0_5 ?_ t.val t.isLt
  refine (Pipeline.heldIn_of_fetch (arrOf m c) 5 tFirst ((fetch0_5 tFirst).mpr rfl)).trans ?_
  funext y
  show V m c main_call0_v3 (((cfg0.win 5).blk tFirst).view.emb _) = _
  refine congrArg (V m c main_call0_v3) (funext fun a => Fin.ext ?_)
  match a with
  | ⟨0, _⟩ => show win0_5.index tFirst 0 * 64 + 1 * (y 0).val = (y 0).val; rw [(idx0_5 tFirst).1]; omega
  | ⟨1, _⟩ => show win0_5.index tFirst 1 * 1000 + 1 * (y 1).val = (y 1).val; rw [(idx0_5 tFirst).2]; omega

/-- Window 6 holds the protein bias as a column. -/
theorem blk6_eq (c : Dev nD) (t : Fin cfg0.N) : blkAt m c 6 t = V m c main_call0_v4 := by
  refine held_const m c 6 _ fetch0_6 ?_ t.val t.isLt
  refine (Pipeline.heldIn_of_fetch (arrOf m c) 6 tFirst ((fetch0_6 tFirst).mpr rfl)).trans ?_
  funext y
  show V m c main_call0_v4 (((cfg0.win 6).blk tFirst).view.emb _) = _
  refine congrArg (V m c main_call0_v4) (funext fun a => Fin.ext ?_)
  match a with
  | ⟨0, _⟩ => show win0_6.index tFirst 0 * 64 + 1 * (y 0).val = (y 0).val; rw [(idx0_6 tFirst).1]; omega
  | ⟨1, _⟩ => show win0_6.index tFirst 1 * 1 + 1 * (y 1).val = (y 1).val; rw [(idx0_6 tFirst).2]; omega

/-- Window 7 holds the compound bias as a column. -/
theorem blk7_eq (c : Dev nD) (t : Fin cfg0.N) : blkAt m c 7 t = V m c main_call0_v5 := by
  refine held_const m c 7 _ fetch0_7 ?_ t.val t.isLt
  refine (Pipeline.heldIn_of_fetch (arrOf m c) 7 tFirst ((fetch0_7 tFirst).mpr rfl)).trans ?_
  funext y
  show V m c main_call0_v5 (((cfg0.win 7).blk tFirst).view.emb _) = _
  refine congrArg (V m c main_call0_v5) (funext fun a => Fin.ext ?_)
  match a with
  | ⟨0, _⟩ => show win0_7.index tFirst 0 * 64 + 1 * (y 0).val = (y 0).val; rw [(idx0_7 tFirst).1]; omega
  | ⟨1, _⟩ => show win0_7.index tFirst 1 * 1 + 1 * (y 1).val = (y 1).val; rw [(idx0_7 tFirst).2]; omega

/-- Window 8 holds the whole transposed joining matrix. -/
theorem blk8_eq (c : Dev nD) (t : Fin cfg0.N) : blkAt m c 8 t = V m c main_call0_v6 := by
  refine held_const m c 8 _ fetch0_8 ?_ t.val t.isLt
  refine (Pipeline.heldIn_of_fetch (arrOf m c) 8 tFirst ((fetch0_8 tFirst).mpr rfl)).trans ?_
  funext y
  show V m c main_call0_v6 (((cfg0.win 8).blk tFirst).view.emb _) = _
  refine congrArg (V m c main_call0_v6) (funext fun a => Fin.ext ?_)
  match a with
  | ⟨0, _⟩ => show win0_8.index tFirst 0 * 64 + 1 * (y 0).val = (y 0).val; rw [(idx0_8 tFirst).1]; omega
  | ⟨1, _⟩ => show win0_8.index tFirst 1 * 128 + 1 * (y 1).val = (y 1).val; rw [(idx0_8 tFirst).2]; omega

/-- Window 9 holds the joining bias as a column. -/
theorem blk9_eq (c : Dev nD) (t : Fin cfg0.N) : blkAt m c 9 t = V m c main_call0_v7 := by
  refine held_const m c 9 _ fetch0_9 ?_ t.val t.isLt
  refine (Pipeline.heldIn_of_fetch (arrOf m c) 9 tFirst ((fetch0_9 tFirst).mpr rfl)).trans ?_
  funext y
  show V m c main_call0_v7 (((cfg0.win 9).blk tFirst).view.emb _) = _
  refine congrArg (V m c main_call0_v7) (funext fun a => Fin.ext ?_)
  match a with
  | ⟨0, _⟩ => show win0_9.index tFirst 0 * 64 + 1 * (y 0).val = (y 0).val; rw [(idx0_9 tFirst).1]; omega
  | ⟨1, _⟩ => show win0_9.index tFirst 1 * 1 + 1 * (y 1).val = (y 1).val; rw [(idx0_9 tFirst).2]; omega

/-- Window 10 holds the head's weights as a row. -/
theorem blk10_eq (c : Dev nD) (t : Fin cfg0.N) : blkAt m c 10 t = V m c main_call0_v8 := by
  refine held_const m c 10 _ fetch0_10 ?_ t.val t.isLt
  refine (Pipeline.heldIn_of_fetch (arrOf m c) 10 tFirst ((fetch0_10 tFirst).mpr rfl)).trans ?_
  funext y
  show V m c main_call0_v8 (((cfg0.win 10).blk tFirst).view.emb _) = _
  refine congrArg (V m c main_call0_v8) (funext fun a => Fin.ext ?_)
  match a with
  | ⟨0, _⟩ => show win0_10.index tFirst 0 * 1 + 1 * (y 0).val = (y 0).val; rw [(idx0_10 tFirst).1]; omega
  | ⟨1, _⟩ => show win0_10.index tFirst 1 * 64 + 1 * (y 1).val = (y 1).val; rw [(idx0_10 tFirst).2]; omega

/-- Window 11 holds the head's bias. -/
theorem blk11_eq (c : Dev nD) (t : Fin cfg0.N) : blkAt m c 11 t = V m c main_call0_v9 := by
  refine held_const m c 11 _ fetch0_11 ?_ t.val t.isLt
  refine (Pipeline.heldIn_of_fetch (arrOf m c) 11 tFirst ((fetch0_11 tFirst).mpr rfl)).trans ?_
  funext y
  show V m c main_call0_v9 (((cfg0.win 11).blk tFirst).view.emb _) = _
  refine congrArg (V m c main_call0_v9) (funext fun a => Fin.ext ?_)
  match a with
  | ⟨0, _⟩ => show win0_11.index tFirst 0 * 1 + 1 * (y 0).val = (y 0).val; rw [(idx0_11 tFirst).1]; omega
  | ⟨1, _⟩ => show win0_11.index tFirst 1 * 1 + 1 * (y 1).val = (y 1).val; rw [(idx0_11 tFirst).2]; omega

end Cert.KernelIdeal.Hand

end
-- ==== Proof.Glue.lean ====
/-
  The row the fused kernel stores at its last grid point is the kernel's pure function of the ten arrays the launch
  is handed, and those arrays are the host's transposes and column reshapes of the program's arguments.

  The running sum after point n (n up to 18) is the sum of the products of blocks 0 .. 2n+1; at the last point
  block 38 is added whole and block 39 through its first 160 positions only, which are the ones inside the arrays.
  The compound embedding is computed at the first point from three resident windows, and the output row at the last
  point from the finished sum, the embedding and five more resident windows.
-/
import proofs.«129949_g26456998544025_cont_9to1_950_20_alg».proof.Proof.GlueBlocks

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-! ## The running sum, the compound embedding and the output row -/

/-- After point n, for n up to 18, the first scratch buffer holds the sum of the products of blocks 0 .. 2n+1. -/
theorem sumAt_eq (c : Dev nD) : ∀ (n : ℕ) (h : n < cfg0.N), n ≤ 18 →
    sumAt m c n h = Fn.acc (V m c main_call0_v0) (V m c main_call0_v1) n := by
  intro n
  induction n with
  | zero =>
    intro h _
    show k0_pay3 (k0_pay1 (F := F)) (blkAt m c 1 ⟨0, h⟩) (blkAt m c 0 ⟨0, h⟩) (blkAt m c 3 ⟨0, h⟩) (blkAt m c 2 ⟨0, h⟩) = _
    rw [blk1_eq m c ⟨0, h⟩ (fun _ => Fn.zeroW), blk0_eq m c ⟨0, h⟩ (fun _ => Fn.zeroW),
      blk3_eq m c ⟨0, h⟩ (Nat.zero_lt_succ _) (fun _ => Fn.zeroW), blk2_eq m c ⟨0, h⟩ (Nat.zero_lt_succ _) (fun _ => Fn.zeroW)]
    rfl
  | succ n ih =>
    intro h hn
    have h19 : n + 1 < 19 := by omega
    show (if n + 1 < 19 then
        k0_pay3 (sumAt m c n (Nat.lt_of_succ_lt h)) (blkAt m c 1 ⟨n + 1, h⟩) (blkAt m c 0 ⟨n + 1, h⟩) (blkAt m c 3 ⟨n + 1, h⟩) (blkAt m c 2 ⟨n + 1, h⟩)
      else
        k0_pay5 (blkAt m c 2 ⟨n + 1, h⟩) (blkAt m c 3 ⟨n + 1, h⟩) (sumAt m c n (Nat.lt_of_succ_lt h)) (blkAt m c 1 ⟨n + 1, h⟩) (blkAt m c 0 ⟨n + 1, h⟩)) = _
    rw [if_pos h19, ih _ (by omega), blk1_eq m c ⟨n + 1, h⟩ (fun _ => Fn.zeroW), blk0_eq m c ⟨n + 1, h⟩ (fun _ => Fn.zeroW),
      blk3_eq m c ⟨n + 1, h⟩ h19 (fun _ => Fn.zeroW), blk2_eq m c ⟨n + 1, h⟩ h19 (fun _ => Fn.zeroW)]
    rfl

/-- After the last point the first scratch buffer holds the whole contraction: block 39 enters only through the 160
    positions that lie inside the arrays, on which the staged blocks are the arrays' blocks. -/
theorem sumAt_last_eq (c : Dev nD) :
    sumAt m c 19 tLast.isLt = Fn.accLast (V m c main_call0_v0) (V m c main_call0_v1) := by
  show (if 18 + 1 < 19 then
      k0_pay3 (sumAt m c 18 (Nat.lt_of_succ_lt tLast.isLt)) (blkAt m c 1 tLast) (blkAt m c 0 tLast) (blkAt m c 3 tLast) (blkAt m c 2 tLast)
    else
      k0_pay5 (blkAt m c 2 tLast) (blkAt m c 3 tLast) (sumAt m c 18 (Nat.lt_of_succ_lt tLast.isLt)) (blkAt m c 1 tLast) (blkAt m c 0 tLast)) = _
  rw [if_neg (by omega), sumAt_eq m c 18 _ (le_refl _), blk1_eq m c tLast (fun _ => Fn.zeroW), blk0_eq m c tLast (fun _ => Fn.zeroW)]
  exact pay5_mask _ _ _ _ _ _ _
    (fun y hy => blk2_apply m c tLast (fun _ => Fn.zeroW) y (by show 2560 * (2 * 19 + 1) + (y 0).val < 100000; omega))
    (fun y hy => blk3_apply m c tLast (fun _ => Fn.zeroW) y (by show 2560 * (2 * 19 + 1) + (y 1).val < 100000; omega))

/-- The second scratch buffer holds the rectified compound embedding of the transposed compound arrays. -/
theorem embAt_eq (c : Dev nD) :
    embAt m c = k0_pay2 (V m c main_call0_v3) (V m c main_call0_v2) (V m c main_call0_v5) := by
  unfold embAt
  rw [blk5_eq, blk4_eq, blk7_eq]

/-- The row stored at the last point is the kernel's pure function of the ten arrays the launch is handed. -/
theorem rowAt_eq (c : Dev nD) :
    rowAt m c = Fn.out (F := F) (V m c main_call0_v0) (V m c main_call0_v1) (V m c main_call0_v2) (V m c main_call0_v3)
      (V m c main_call0_v4) (V m c main_call0_v5) (V m c main_call0_v6) (V m c main_call0_v7) (V m c main_call0_v8)
      (V m c main_call0_v9) := by
  unfold rowAt Fn.out
  rw [sumAt_last_eq, embAt_eq, blk6_eq, blk8_eq, blk9_eq, blk10_eq, blk11_eq]

/-! ## The ten arrays the launch is handed: the host's transposes and reshapes of the arguments -/

/-- Each of the ten arrays is the transpose, or the reshape to a column, of one argument. -/
theorem V_args (c : Dev nD) :
    V m c main_call0_v0 = transpose S100000x1024 [1, 0] (m ((c : Thread nD τ).loc main_arg0)) transposes_S1024x100000_S100000x1024_1_0
    ∧ V m c main_call0_v1 = transpose S64x100000 [1, 0] (m ((c : Thread nD τ).loc main_arg2)) transposes_S100000x64_S64x100000_1_0
    ∧ V m c main_call0_v2 = transpose S1000x1024 [1, 0] (m ((c : Thread nD τ).loc main_arg1)) transposes_S1024x1000_S1000x1024_1_0
    ∧ V m c main_call0_v3 = transpose S64x1000 [1, 0] (m ((c : Thread nD τ).loc main_arg4)) transposes_S1000x64_S64x1000_1_0
    ∧ V m c main_call0_v4 = shapeCast S64x1 (m ((c : Thread nD τ).loc main_arg3)) shapeCasts_S64_S64x1
    ∧ V m c main_call0_v5 = shapeCast S64x1 (m ((c : Thread nD τ).loc main_arg5)) shapeCasts_S64_S64x1
    ∧ V m c main_call0_v6 = transpose S64x128 [1, 0] (m ((c : Thread nD τ).loc main_arg6)) transposes_S128x64_S64x128_1_0
    ∧ V m c main_call0_v7 = shapeCast S64x1 (m ((c : Thread nD τ).loc main_arg7)) shapeCasts_S64_S64x1
    ∧ V m c main_call0_v8 = transpose S1x64 [1, 0] (m ((c : Thread nD τ).loc main_arg8)) transposes_S64x1_S1x64_1_0
    ∧ V m c main_call0_v9 = shapeCast S1x1 (m ((c : Thread nD τ).loc main_arg9)) shapeCasts_S1_S1x1 := by
  refine ⟨?_, ?_, ?_, ?_, ?_, ?_, ?_, ?_, ?_, ?_⟩ <;>
  · dsimp only [V, V0]
    simp only [hostOps0, List.flatten_cons, List.flatten_nil, List.append_nil]
    after_results
    rfl

end Cert.KernelIdeal.Hand

end
-- ==== Proof.AccPayload.lean ====
/-
  The three accumulation steps of the fused kernel read at one entry (e, b) of the 64 x 1024 running sum, at the
  exact (extended-real) values: a matrix product into a zero accumulator is the plain sum of the products over the
  contracted position; a change of float format is the identity; a position is kept by the mask exactly when it is
  below 160.
-/
import proofs.«129949_g26456998544025_cont_9to1_950_20_alg».proof.Proof.KernelFn
import Idealize.ShloMosaic.Lib.ValueIdx
import Idealize.ShloMosaic.Lib.Pipeline.Value
import Idealize.ShloMosaic.PureOps.Ideal.Laws

noncomputable section

namespace Cert.KernelIdeal.FnValue

open Idealize.ShloMosaic Idealize.SL.Sem Cert.KernelIdeal Cert.KernelIdeal.Gen Idealize.ShloMosaic.ValueIdx
open scoped BigOperators

/-- A 64 x 2560 block times a 2560 x 1024 block, accumulated into zero, read at (e, b): the sum over the 2560
    contracted positions of the products. -/
theorem blockProduct_apply {φ₁ φ₂ : FTy} (l : FVec Ideal S64x2560 φ₁) (r : FVec Ideal S2560x1024 φ₂) (e : Fin 64) (b : Fin 1024) :
    matmul dot_S64x2560_S2560x1024_S64x1024_1_0_0_1_n_n none l r (constant (F := Ideal) S64x1024 .f32 0x00000000#32) (ix2 e b)
      = ∑ j : Fin 2560, l (ix2 e j) * r (ix2 j b) := by
  refine (Ideal.matmul_constant_zero_apply _ none l r (ix2 e b)).trans ?_
  rw [← Equiv.sum_comp (contrEquiv1 dot_S64x2560_S2560x1024_S64x1024_1_0_0_1_n_n 2560 rfl rfl).symm]
  refine Finset.sum_congr rfl fun j _ => ?_
  have hl : dot_S64x2560_S2560x1024_S64x1024_1_0_0_1_n_n.lhsIdx (ix2 e b) ((contrEquiv1 dot_S64x2560_S2560x1024_S64x1024_1_0_0_1_n_n 2560 rfl rfl).symm j) = ix2 e j := by
    funext a
    match a with
    | ⟨0, _⟩ => exact Fin.ext rfl
    | ⟨1, _⟩ => exact Fin.ext ((DotDims.lhsIdx_val_of_single _ rfl _ _).trans (contrEquiv1_symm_val _ 2560 rfl rfl j))
  have hr : dot_S64x2560_S2560x1024_S64x1024_1_0_0_1_n_n.rhsIdx (ix2 e b) ((contrEquiv1 dot_S64x2560_S2560x1024_S64x1024_1_0_0_1_n_n 2560 rfl rfl).symm j) = ix2 j b := by
    funext a
    match a with
    | ⟨0, _⟩ => exact Fin.ext ((DotDims.rhsIdx_val_of_single _ rfl _ _).trans (contrEquiv1_symm_val _ 2560 rfl rfl j))
    | ⟨1, _⟩ => exact Fin.ext rfl
  rw [hl, hr]

/-- The signed comparison of a position below 2560 with 160 is the comparison of the naturals. -/
theorem slt160 (j : Nat) (hj : j < 2560) : IntOp.cmpi .slt (BitVec.ofNat 32 j) 160#32 = if j < 160 then 1#1 else 0#1 := by
  have h1 : (BitVec.ofNat 32 j).toInt = (j : Int) := by
    have h0 : (BitVec.ofNat 32 j).toNat = j := by rw [BitVec.toNat_ofNat]; omega
    rw [BitVec.toInt_eq_toNat_of_lt (by rw [h0]; omega), h0]
  have h2 : (160#32 : BitVec 32).toInt = 160 := by decide
  unfold IntOp.cmpi
  simp only [BitVec.slt, h1, h2]
  by_cases h : j < 160
  · rw [if_pos h]; have : ((j : Int) < 160) := by omega
    simp [this]
  · rw [if_neg h]; have : ¬ ((j : Int) < 160) := by omega
    simp [this]

/-- A select on that comparison is the `if` on the position. -/
theorem mask160 {α : Type} (j : Nat) (hj : j < 2560) (A B : α) :
    Scalar.select (IntOp.cmpi .slt (BitVec.ofNat 32 j) 160#32) A B = if j < 160 then A else B := by
  rw [slt160 j hj]
  by_cases h : j < 160
  · rw [if_pos h, if_pos h]; exact select_one A B
  · rw [if_neg h, if_neg h]; exact select_zero A B

/-- The running sum starts at zero. -/
theorem pay1_apply (e : Fin 64) (b : Fin 1024) : k0_pay1 (F := Ideal) (ix2 e b) = 0 := by
  unfold k0_pay1
  simp only [shapeCast_self]
  exact Ideal.ofBits_zero_f32

/-- A grid point before the last adds the products of its two blocks to the running sum. -/
theorem pay3_apply (a : Vec Ideal S64x1024 .f32) (wA : Vec Ideal S64x2560 .f32) (xA : Vec Ideal S2560x1024 .f32)
    (wB : Vec Ideal S64x2560 .f32) (xB : Vec Ideal S2560x1024 .f32) (e : Fin 64) (b : Fin 1024) :
    k0_pay3 (F := Ideal) a wA xA wB xB (ix2 e b)
      = a (ix2 e b) + ((∑ j : Fin 2560, wA (ix2 e j) * xA (ix2 j b)) + ∑ j : Fin 2560, wB (ix2 e j) * xB (ix2 j b)) := by
  unfold k0_pay3
  simp only [shapeCast_self]
  refine congrArg (a (ix2 e b) + ·) ?_
  exact congrArg₂ (· + ·) (blockProduct_apply _ _ e b) (blockProduct_apply _ _ e b)

/-- The last grid point adds the product of its first block and the product of its second block with both operands
    replaced by zero from position 160 on. -/
theorem pay5_apply (xL : Vec Ideal S2560x1024 .f32) (wL : Vec Ideal S64x2560 .f32) (a : Vec Ideal S64x1024 .f32)
    (wA : Vec Ideal S64x2560 .f32) (xA : Vec Ideal S2560x1024 .f32) (e : Fin 64) (b : Fin 1024) :
    k0_pay5 (F := Ideal) xL wL a wA xA (ix2 e b)
      = a (ix2 e b) + ((∑ j : Fin 2560, wA (ix2 e j) * xA (ix2 j b))
          + ∑ j : Fin 2560, (if j.val < 160 then wL (ix2 e j) else 0) * (if j.val < 160 then xL (ix2 j b) else 0)) := by
  unfold k0_pay5
  simp only [shapeCast_self]
  refine congrArg (a (ix2 e b) + ·) ?_
  refine congrArg₂ (· + ·) (blockProduct_apply _ _ e b) ((blockProduct_apply _ _ e b).trans ?_)
  refine Finset.sum_congr rfl fun j _ => ?_
  refine congrArg₂ (· * ·) ?_ ?_
  · show Scalar.select (IntOp.cmpi .slt (iota .tc S64x2560 32 [1] _ (ix2 e j)) 160#32) (wL (ix2 e j)) (Ideal.ofBits .f32 0x00000000#32) = _
    rw [iota_single_apply]
    show Scalar.select (IntOp.cmpi .slt (BitVec.ofNat 32 j.val) 160#32) _ _ = _
    rw [mask160 _ j.isLt, Ideal.ofBits_zero_f32]
  · show Scalar.select (IntOp.cmpi .slt (iota .tc S2560x1024 32 [0] _ (ix2 j b)) 160#32) (xL (ix2 j b)) (Ideal.ofBits .f32 0x00000000#32) = _
    rw [iota_single_apply]
    show Scalar.select (IntOp.cmpi .slt (BitVec.ofNat 32 j.val) 160#32) _ _ = _
    rw [mask160 _ j.isLt, Ideal.ofBits_zero_f32]

end Cert.KernelIdeal.FnValue

end
-- ==== Proof.BlockSum.lean ====
/-
  Regrouping a finite sum over an initial segment of the naturals into consecutive blocks of 2560 terms,
  in any commutative additive monoid (no subtraction, no cancellation is used).
-/
import Mathlib.Algebra.BigOperators.Fin
import Mathlib.Algebra.BigOperators.Intervals

open scoped BigOperators
open Finset

namespace Cert.KernelIdeal.BlockSum

variable {M : Type*} [AddCommMonoid M]

/-- The sum over the first n + 2 blocks is the sum over the first n blocks plus the sums over blocks n and n + 1. -/
theorem sum_two_blocks (f : ℕ → M) (n : ℕ) :
    ∑ k ∈ range (2560 * (n + 2)), f k
      = ∑ k ∈ range (2560 * n), f k + (∑ i ∈ range 2560, f (2560 * n + i) + ∑ i ∈ range 2560, f (2560 * (n + 1) + i)) := by
  have h : 2560 * (n + 2) = 2560 * n + 2560 + 2560 := by omega
  rw [h, Finset.sum_range_add, Finset.sum_range_add, add_assoc]
  have h' : ∀ i, 2560 * n + 2560 + i = 2560 * (n + 1) + i := fun i => by omega
  simp only [h']

/-- Terms that vanish from position N on do not contribute. -/
theorem sum_range_tail_zero (f : ℕ → M) (N m : ℕ) (h : ∀ k, N ≤ k → f k = 0) :
    ∑ k ∈ range (N + m), f k = ∑ k ∈ range N, f k := by
  rw [Finset.sum_range_add, Finset.sum_eq_zero (fun i _ => h (N + i) (Nat.le_add_right N i)), add_zero]

end Cert.KernelIdeal.BlockSum
-- ==== Proof.AccSum.lean ====
/-
  The running 64 x 1024 sum of the fused kernel, entry by entry: after grid point t it is the sum of the products over
  the first 5120 (t + 1) positions of the contraction, and after the last point the sum over all 100000 positions.
  Positions past the arrays' end are read as zero on both operands (their product is zero), which is also what the last
  point's masks make of them, so every block contributes the same expression: the sum over its 2560 positions of the
  contraction's term, a term that is zero from position 100000 on.
-/
import proofs.«129949_g26456998544025_cont_9to1_950_20_alg».proof.Proof.AccPayload
import proofs.«129949_g26456998544025_cont_9to1_950_20_alg».proof.Proof.BlockSum

noncomputable section

namespace Cert.KernelIdeal.FnValue

open Idealize.ShloMosaic Idealize.SL.Sem Cert.KernelIdeal Cert.KernelIdeal.Gen Idealize.ShloMosaic.ValueIdx
open scoped BigOperators

variable (xT : S100000x1024.Idx → EReal) (wT : S64x100000.Idx → EReal)

/-- The contraction's term at position k for entry (e, b): the product of the two operands there, zero past the end. -/
def term (e : Fin 64) (b : Fin 1024) (k : ℕ) : EReal :=
  if h : k < 100000 then wT (ix2 e ⟨k, h⟩) * xT (ix2 ⟨k, h⟩ b) else 0

/-- Block n of the transposed weights at (e, i): column 2560 n + i, zero past the end. -/
theorem blkW_apply (n : ℕ) (e : Fin 64) (i : Fin 2560) :
    Fn.blkW (F := Ideal) wT n (fun _ => Fn.zeroW) (ix2 e i)
      = if h : 2560 * n + i.val < 100000 then wT (ix2 e ⟨2560 * n + i.val, h⟩) else 0 := by
  unfold Fn.blkW
  show (if h : 2560 * n + i.val < 100000 then _ else _) = _
  by_cases h : 2560 * n + i.val < 100000
  · rw [dif_pos h, dif_pos h]
    exact congrArg wT (funext fun a => by match a with | ⟨0, _⟩ => rfl | ⟨1, _⟩ => rfl)
  · rw [dif_neg h, dif_neg h]
    exact Ideal.ofBits_zero_f32

/-- Block n of the transposed activations at (i, b): row 2560 n + i, zero past the end. -/
theorem blkX_apply (n : ℕ) (i : Fin 2560) (b : Fin 1024) :
    Fn.blkX (F := Ideal) xT n (fun _ => Fn.zeroW) (ix2 i b)
      = if h : 2560 * n + i.val < 100000 then xT (ix2 ⟨2560 * n + i.val, h⟩ b) else 0 := by
  unfold Fn.blkX
  show (if h : 2560 * n + i.val < 100000 then _ else _) = _
  by_cases h : 2560 * n + i.val < 100000
  · rw [dif_pos h, dif_pos h]
    exact congrArg xT (funext fun a => by match a with | ⟨0, _⟩ => rfl | ⟨1, _⟩ => rfl)
  · rw [dif_neg h, dif_neg h]
    exact Ideal.ofBits_zero_f32

/-- The product of the two blocks' entries at position i of block n is the contraction's term at 2560 n + i. -/
theorem blk_mul (n : ℕ) (e : Fin 64) (b : Fin 1024) (i : Fin 2560) :
    Fn.blkW (F := Ideal) wT n (fun _ => Fn.zeroW) (ix2 e i) * Fn.blkX (F := Ideal) xT n (fun _ => Fn.zeroW) (ix2 i b)
      = term xT wT e b (2560 * n + i.val) := by
  rw [blkW_apply, blkX_apply]
  unfold term
  by_cases h : 2560 * n + i.val < 100000
  · rw [dif_pos h, dif_pos h, dif_pos h]
  · rw [dif_neg h, dif_neg h, dif_neg h, mul_zero]

/-- So a block product at (e, b) is the sum of the terms over the block's positions. -/
theorem blk_sum (n : ℕ) (e : Fin 64) (b : Fin 1024) :
    ∑ i : Fin 2560, Fn.blkW (F := Ideal) wT n (fun _ => Fn.zeroW) (ix2 e i) * Fn.blkX (F := Ideal) xT n (fun _ => Fn.zeroW) (ix2 i b)
      = ∑ i ∈ Finset.range 2560, term xT wT e b (2560 * n + i) := by
  rw [← Fin.sum_univ_eq_sum_range (fun i => term xT wT e b (2560 * n + i)) 2560]
  exact Finset.sum_congr rfl fun i _ => blk_mul xT wT n e b i

/-- The masked product of block 39 is the same sum: below 160 the mask keeps both operands, from 160 on the position is
    past the arrays' end, where the term is zero. -/
theorem masked_sum (e : Fin 64) (b : Fin 1024) :
    ∑ i : Fin 2560, (if i.val < 160 then Fn.blkW (F := Ideal) wT 39 (fun _ => Fn.zeroW) (ix2 e i) else 0)
        * (if i.val < 160 then Fn.blkX (F := Ideal) xT 39 (fun _ => Fn.zeroW) (ix2 i b) else 0)
      = ∑ i ∈ Finset.range 2560, term xT wT e b (2560 * 39 + i) := by
  rw [← Fin.sum_univ_eq_sum_range (fun i => term xT wT e b (2560 * 39 + i)) 2560]
  refine Finset.sum_congr rfl fun i _ => ?_
  by_cases h : i.val < 160
  · rw [if_pos h, if_pos h]; exact blk_mul xT wT 39 e b i
  · rw [if_neg h, if_neg h, mul_zero]
    unfold term
    rw [dif_neg (by omega)]

/-- After grid point t the running sum holds the terms of the first 2 (t + 1) blocks. -/
theorem acc_apply (t : ℕ) (e : Fin 64) (b : Fin 1024) :
    Fn.acc (F := Ideal) xT wT t (ix2 e b) = ∑ k ∈ Finset.range (2560 * (2 * (t + 1))), term xT wT e b k := by
  induction t with
  | zero =>
    rw [Fn.acc, pay3_apply, pay1_apply, blk_sum, blk_sum]
    have h0 : ∑ k ∈ Finset.range (2560 * 0), term xT wT e b k = 0 := by rw [Nat.mul_zero]; exact Finset.sum_range_zero _
    rw [show 2560 * (2 * (0 + 1)) = 2560 * (0 + 2) from rfl, BlockSum.sum_two_blocks, h0]
  | succ t ih =>
    rw [Fn.acc, pay3_apply, ih, blk_sum, blk_sum]
    rw [show 2560 * (2 * (t + 1 + 1)) = 2560 * (2 * (t + 1) + 2) from by omega, BlockSum.sum_two_blocks]

/-- After the last point the running sum at (e, b) is the full contraction. -/
theorem accLast_apply (e : Fin 64) (b : Fin 1024) :
    Fn.accLast (F := Ideal) xT wT (ix2 e b) = ∑ k : Fin 100000, wT (ix2 e k) * xT (ix2 k b) := by
  unfold Fn.accLast
  rw [pay5_apply, acc_apply, blk_sum, masked_sum]
  have h2 := BlockSum.sum_two_blocks (term xT wT e b) 38
  refine (h2.symm : _ = ∑ k ∈ Finset.range (2560 * (38 + 2)), term xT wT e b k).trans ?_
  rw [show 2560 * (38 + 2) = 100000 + 2400 from rfl,
    BlockSum.sum_range_tail_zero (term xT wT e b) 100000 2400 (fun k hk => by unfold term; rw [dif_neg (by omega)]),
    ← Fin.sum_univ_eq_sum_range (term xT wT e b) 100000]
  refine Finset.sum_congr rfl fun k _ => ?_
  unfold term
  rw [dif_pos k.isLt]

end Cert.KernelIdeal.FnValue

end
-- ==== Proof.HeadPayload.lean ====
/-
  The kernel's head read entry by entry at the exact values: the three remaining matrix products as plain sums, a
  64 x 1 (or 1 x 1) column laid along the 1024 lanes read at its row, the two halves of the joining matrix read at
  columns e and 64 + e, and the rectifier as the maximum with zero.
-/
import proofs.«129949_g26456998544025_cont_9to1_950_20_alg».proof.Proof.KernelFn
import Idealize.ShloMosaic.Lib.ValueIdx
import Idealize.ShloMosaic.Lib.Pipeline.Value
import Idealize.ShloMosaic.PureOps.Ideal.Laws

noncomputable section

namespace Cert.KernelIdeal.FnValue

open Idealize.ShloMosaic Idealize.SL.Sem Cert.KernelIdeal Cert.KernelIdeal.Gen Idealize.ShloMosaic.ValueIdx
open scoped BigOperators

/-- The 64 x 1000 compound weights times the 1000 x 1024 compound features, into zero, at (e, b). -/
theorem compoundProduct_apply {φ₁ φ₂ : FTy} (l : FVec Ideal S64x1000 φ₁) (r : FVec Ideal S1000x1024 φ₂) (e : Fin 64) (b : Fin 1024) :
    matmul dot_S64x1000_S1000x1024_S64x1024_1_0_0_1_n_n none l r (constant (F := Ideal) S64x1024 .f32 0x00000000#32) (ix2 e b)
      = ∑ j : Fin 1000, l (ix2 e j) * r (ix2 j b) := by
  refine (Ideal.matmul_constant_zero_apply _ none l r (ix2 e b)).trans ?_
  rw [← Equiv.sum_comp (contrEquiv1 dot_S64x1000_S1000x1024_S64x1024_1_0_0_1_n_n 1000 rfl rfl).symm]
  refine Finset.sum_congr rfl fun j _ => ?_
  have hl : dot_S64x1000_S1000x1024_S64x1024_1_0_0_1_n_n.lhsIdx (ix2 e b) ((contrEquiv1 dot_S64x1000_S1000x1024_S64x1024_1_0_0_1_n_n 1000 rfl rfl).symm j) = ix2 e j := by
    funext a
    match a with
    | ⟨0, _⟩ => exact Fin.ext rfl
    | ⟨1, _⟩ => exact Fin.ext ((DotDims.lhsIdx_val_of_single _ rfl _ _).trans (contrEquiv1_symm_val _ 1000 rfl rfl j))
  have hr : dot_S64x1000_S1000x1024_S64x1024_1_0_0_1_n_n.rhsIdx (ix2 e b) ((contrEquiv1 dot_S64x1000_S1000x1024_S64x1024_1_0_0_1_n_n 1000 rfl rfl).symm j) = ix2 j b := by
    funext a
    match a with
    | ⟨0, _⟩ => exact Fin.ext ((DotDims.rhsIdx_val_of_single _ rfl _ _).trans (contrEquiv1_symm_val _ 1000 rfl rfl j))
    | ⟨1, _⟩ => exact Fin.ext rfl
  rw [hl, hr]

/-- A 64 x 64 half of the joining matrix times a 64 x 1024 embedding, into zero, at (e, b). -/
theorem joinProduct_apply {φ₁ φ₂ : FTy} (l : FVec Ideal S64x64 φ₁) (r : FVec Ideal S64x1024 φ₂) (e : Fin 64) (b : Fin 1024) :
    matmul dot_S64x64_S64x1024_S64x1024_1_0_0_1_n_n none l r (constant (F := Ideal) S64x1024 .f32 0x00000000#32) (ix2 e b)
      = ∑ j : Fin 64, l (ix2 e j) * r (ix2 j b) := by
  refine (Ideal.matmul_constant_zero_apply _ none l r (ix2 e b)).trans ?_
  rw [← Equiv.sum_comp (contrEquiv1 dot_S64x64_S64x1024_S64x1024_1_0_0_1_n_n 64 rfl rfl).symm]
  refine Finset.sum_congr rfl fun j _ => ?_
  have hl : dot_S64x64_S64x1024_S64x1024_1_0_0_1_n_n.lhsIdx (ix2 e b) ((contrEquiv1 dot_S64x64_S64x1024_S64x1024_1_0_0_1_n_n 64 rfl rfl).symm j) = ix2 e j := by
    funext a
    match a with
    | ⟨0, _⟩ => exact Fin.ext rfl
    | ⟨1, _⟩ => exact Fin.ext ((DotDims.lhsIdx_val_of_single _ rfl _ _).trans (contrEquiv1_symm_val _ 64 rfl rfl j))
  have hr : dot_S64x64_S64x1024_S64x1024_1_0_0_1_n_n.rhsIdx (ix2 e b) ((contrEquiv1 dot_S64x64_S64x1024_S64x1024_1_0_0_1_n_n 64 rfl rfl).symm j) = ix2 j b := by
    funext a
    match a with
    | ⟨0, _⟩ => exact Fin.ext ((DotDims.rhsIdx_val_of_single _ rfl _ _).trans (contrEquiv1_symm_val _ 64 rfl rfl j))
    | ⟨1, _⟩ => exact Fin.ext rfl
  rw [hl, hr]

/-- The 1 x 64 head weights times the 64 x 1024 hidden layer, into zero, at (0, b). -/
theorem headProduct_apply {φ₁ φ₂ : FTy} (l : FVec Ideal S1x64 φ₁) (r : FVec Ideal S64x1024 φ₂) (e : Fin 1) (b : Fin 1024) :
    matmul dot_S1x64_S64x1024_S1x1024_1_0_0_1_n_n none l r (constant (F := Ideal) S1x1024 .f32 0x00000000#32) (ix2 e b)
      = ∑ j : Fin 64, l (ix2 e j) * r (ix2 j b) := by
  refine (Ideal.matmul_constant_zero_apply _ none l r (ix2 e b)).trans ?_
  rw [← Equiv.sum_comp (contrEquiv1 dot_S1x64_S64x1024_S1x1024_1_0_0_1_n_n 64 rfl rfl).symm]
  refine Finset.sum_congr rfl fun j _ => ?_
  have hl : dot_S1x64_S64x1024_S1x1024_1_0_0_1_n_n.lhsIdx (ix2 e b) ((contrEquiv1 dot_S1x64_S64x1024_S1x1024_1_0_0_1_n_n 64 rfl rfl).symm j) = ix2 e j := by
    funext a
    match a with
    | ⟨0, _⟩ => exact Fin.ext rfl
    | ⟨1, _⟩ => exact Fin.ext ((DotDims.lhsIdx_val_of_single _ rfl _ _).trans (contrEquiv1_symm_val _ 64 rfl rfl j))
  have hr : dot_S1x64_S64x1024_S1x1024_1_0_0_1_n_n.rhsIdx (ix2 e b) ((contrEquiv1 dot_S1x64_S64x1024_S1x1024_1_0_0_1_n_n 64 rfl rfl).symm j) = ix2 j b := by
    funext a
    match a with
    | ⟨0, _⟩ => exact Fin.ext ((DotDims.rhsIdx_val_of_single _ rfl _ _).trans (contrEquiv1_symm_val _ 64 rfl rfl j))
    | ⟨1, _⟩ => exact Fin.ext rfl
  rw [hl, hr]

/-- A 64 x 1 column laid along 1024 lanes reads, at (e, b), the column's row e. -/
theorem column_apply {α : Type} (v : S64x1.Idx → α) (h : S64x1.Broadcasts S64x1024) (e : Fin 64) (b : Fin 1024) :
    broadcastTo S64x1024 v h (ix2 e b) = v (ix2 e (0 : Fin 1)) :=
  broadcastTo_apply v h (ix2 e b) (ix2 e (0 : Fin 1)) (fun a => by match a with | ⟨0, _⟩ => rfl | ⟨1, _⟩ => rfl)

/-- A 1 x 1 array laid along 1024 lanes reads its one entry everywhere. -/
theorem scalar_apply {α : Type} (v : S1x1.Idx → α) (h : S1x1.Broadcasts S1x1024) (r : Fin 1) (b : Fin 1024) :
    broadcastTo S1x1024 v h (ix2 r b) = v (ix2 (0 : Fin 1) (0 : Fin 1)) :=
  broadcastTo_apply v h (ix2 r b) (ix2 (0 : Fin 1) (0 : Fin 1)) (fun a => by match a with | ⟨0, _⟩ => rfl | ⟨1, _⟩ => rfl)

/-- Column e of the left half of a 64 x 128 matrix. -/
abbrev lo (e : Fin 64) : Fin 128 := ⟨e.val, by omega⟩
/-- Column e of the right half of a 64 x 128 matrix. -/
abbrev hi (e : Fin 64) : Fin 128 := ⟨64 + e.val, by omega⟩

/-- The left 64 x 64 half of a 64 x 128 matrix at (j, e) is the matrix at (j, e). -/
theorem leftHalf_apply {α : Type} (v : S64x128.Idx → α) (h : S64x128.Slices ![0, 0] S64x64) (j e : Fin 64) :
    extractStridedSlice S64x64 ![0, 0] v h (ix2 j e) = v (ix2 j (lo e)) :=
  extractStridedSlice_apply ![0, 0] v h (ix2 j e) (ix2 j (lo e)) (fun a => by
    match a with
    | ⟨0, _⟩ => show j.val = 0 + j.val; omega
    | ⟨1, _⟩ => show e.val = 0 + e.val; omega)

/-- The right half at (j, e) is the matrix at (j, 64 + e). -/
theorem rightHalf_apply {α : Type} (v : S64x128.Idx → α) (h : S64x128.Slices ![0, 64] S64x64) (j e : Fin 64) :
    extractStridedSlice S64x64 ![0, 64] v h (ix2 j e) = v (ix2 j (hi e)) :=
  extractStridedSlice_apply ![0, 64] v h (ix2 j e) (ix2 j (hi e)) (fun a => by
    match a with
    | ⟨0, _⟩ => show j.val = 0 + j.val; omega
    | ⟨1, _⟩ => show 64 + e.val = 64 + e.val; rfl)

/-- The rectifier's zero array. -/
theorem pay7_apply (e : Fin 64) (b : Fin 1024) : k0_pay7 (F := Ideal) (ix2 e b) = 0 := by
  unfold k0_pay7
  exact Ideal.ofBits_zero_f32

/-- The running sum plus the protein bias. -/
theorem pay6_apply (a : Vec Ideal S64x1024 .f32) (pbC : Vec Ideal S64x1 .f32) (e : Fin 64) (b : Fin 1024) :
    k0_pay6 (F := Ideal) a pbC (ix2 e b) = a (ix2 e b) + pbC (ix2 e (0 : Fin 1)) := by
  unfold k0_pay6
  simp only [shapeCast_self]
  exact congrArg (a (ix2 e b) + ·) (column_apply _ _ e b)

/-- The rectified compound embedding, transposed: row e, lane b. -/
theorem pay2_apply (cwT : Vec Ideal S64x1000 .f32) (cT : Vec Ideal S1000x1024 .f32) (cbC : Vec Ideal S64x1 .f32)
    (e : Fin 64) (b : Fin 1024) :
    k0_pay2 (F := Ideal) cwT cT cbC (ix2 e b)
      = max ((∑ k : Fin 1000, cwT (ix2 e k) * cT (ix2 k b)) + cbC (ix2 e (0 : Fin 1))) 0 := by
  unfold k0_pay2
  simp only [shapeCast_self]
  refine congrArg₂ max (congrArg₂ (· + ·) (compoundProduct_apply _ _ e b) (column_apply _ _ e b)) ?_
  exact Ideal.ofBits_zero_f32

/-- The joining layer and the head: the output row at lane b. -/
theorem pay4_apply (p z : FVec Ideal S64x1024 .f32) (jwT : Vec Ideal S64x128 .f32) (ce : Vec Ideal S64x1024 .f32)
    (jbC : Vec Ideal S64x1 .f32) (owT : Vec Ideal S1x64 .f32) (obC : Vec Ideal S1x1 .f32) (r : Fin 1) (b : Fin 1024) :
    k0_pay4 (F := Ideal) p z jwT ce jbC owT obC (ix2 r b)
      = (∑ j : Fin 64, owT (ix2 r j) *
            max (((∑ e : Fin 64, jwT (ix2 j (lo e)) * max (p (ix2 e b)) (z (ix2 e b)))
                  + ∑ e : Fin 64, jwT (ix2 j (hi e)) * ce (ix2 e b)) + jbC (ix2 j (0 : Fin 1))) 0)
          + obC (ix2 (0 : Fin 1) (0 : Fin 1)) := by
  unfold k0_pay4
  simp only [shapeCast_self]
  refine congrArg₂ (· + ·) ((headProduct_apply _ _ r b).trans ?_) (scalar_apply _ _ r b)
  refine Finset.sum_congr rfl fun j _ => congrArg (owT (ix2 r j) * ·) ?_
  refine congrArg₂ max (congrArg₂ (· + ·) (congrArg₂ (· + ·) ?_ ?_) (column_apply _ _ j b)) Ideal.ofBits_zero_f32
  · refine (joinProduct_apply _ _ j b).trans (Finset.sum_congr rfl fun e _ => ?_)
    exact congrArg (· * max (p (ix2 e b)) (z (ix2 e b))) (leftHalf_apply _ _ j e)
  · refine (joinProduct_apply _ _ j b).trans (Finset.sum_congr rfl fun e _ => ?_)
    exact congrArg (· * ce (ix2 e b)) (rightHalf_apply _ _ j e)

end Cert.KernelIdeal.FnValue

end
-- ==== Proof.OutValue.lean ====
/-
  The output row of the fused kernel as one explicit formula of the ten arrays its launch is handed, lane by lane.
-/
import proofs.«129949_g26456998544025_cont_9to1_950_20_alg».proof.Proof.AccSum
import proofs.«129949_g26456998544025_cont_9to1_950_20_alg».proof.Proof.HeadPayload

noncomputable section

namespace Cert.KernelIdeal.FnValue

open Idealize.ShloMosaic Idealize.SL.Sem Cert.KernelIdeal Cert.KernelIdeal.Gen Idealize.ShloMosaic.ValueIdx
open scoped BigOperators

/-- Lane b of the kernel's output row: the head applied to the rectified joining layer, whose two summands are the
    left half of the joining matrix against the rectified protein embedding (the full contraction over the 100000
    features plus its bias) and the right half against the rectified compound embedding. -/
theorem out_apply (xT : S100000x1024.Idx → EReal) (wT : S64x100000.Idx → EReal) (cT : S1000x1024.Idx → EReal)
    (cwT : S64x1000.Idx → EReal) (pbC cbC : S64x1.Idx → EReal) (jwT : S64x128.Idx → EReal) (jbC : S64x1.Idx → EReal)
    (owT : S1x64.Idx → EReal) (obC : S1x1.Idx → EReal) (r : Fin 1) (b : Fin 1024) :
    Fn.out (F := Ideal) xT wT cT cwT pbC cbC jwT jbC owT obC (ix2 r b)
      = (∑ j : Fin 64, owT (ix2 r j) *
            max (((∑ e : Fin 64, jwT (ix2 j (lo e)) *
                      max ((∑ k : Fin 100000, wT (ix2 e k) * xT (ix2 k b)) + pbC (ix2 e (0 : Fin 1))) 0)
                  + ∑ e : Fin 64, jwT (ix2 j (hi e)) *
                      max ((∑ k : Fin 1000, cwT (ix2 e k) * cT (ix2 k b)) + cbC (ix2 e (0 : Fin 1))) 0)
                + jbC (ix2 j (0 : Fin 1))) 0)
          + obC (ix2 (0 : Fin 1) (0 : Fin 1)) := by
  unfold Fn.out
  rw [pay4_apply]
  simp only [pay6_apply, pay7_apply, pay2_apply, accLast_apply]

end Cert.KernelIdeal.FnValue

end
-- ==== Proof.Spec.lean ====
/-
  The result of the four-layer perceptron, as one function of its ten argument arrays, entry by entry on the
  extended reals.

  With x the 1024 x 100000 protein features, c the 1024 x 1000 compound features, W, cW the two embedding
  matrices, pb, cb their biases, jW, jb the joining layer and oW, ob the head:

    pe b e     = max (sum_k x[b,k] * W[k,e] + pb[e]) 0                       (e < 64)
    ce b e     = max (sum_k c[b,k] * cW[k,e] + cb[e]) 0                      (e < 64)
    joined b e = pe b e for e < 64, ce b (e - 64) for 64 <= e < 128
    hid b j    = max (sum_e joined b e * jW[e,j] + jb[j]) 0                  (j < 64)
    G [b,0]    = sum_j hid b j * oW[j,0] + ob[0]

  The zero of the rectifiers is written as the float word it is printed as; it denotes the real zero.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1024, 100000]⟩
abbrev SC : Shape := ⟨2, ![1024, 1000]⟩
abbrev SW : Shape := ⟨2, ![100000, 64]⟩
abbrev SB : Shape := ⟨1, ![64]⟩
abbrev SCW : Shape := ⟨2, ![1000, 64]⟩
abbrev SJW : Shape := ⟨2, ![128, 64]⟩
abbrev SOW : Shape := ⟨2, ![64, 1]⟩
abbrev SOB : Shape := ⟨1, ![1]⟩
abbrev SR : Shape := ⟨2, ![1024, 1]⟩

/-- The rectifier's zero, as the float word both programs print. -/
abbrev zeroW : EReal := Ideal.ofBits .f32 0x00000000#32

/-- The protein embedding: row b of x against column e of W, plus the bias, rectified. -/
def pe (x : SX.Idx → EReal) (W : SW.Idx → EReal) (pb : SB.Idx → EReal) (b : Fin 1024) (e : Fin 64) : EReal :=
  max ((∑ k : Fin 100000, x (ix2 b k) * W (ix2 k e)) + pb (ix1 e)) zeroW

/-- The compound embedding: row b of c against column e of cW, plus the bias, rectified. -/
def ce (c : SC.Idx → EReal) (cW : SCW.Idx → EReal) (cb : SB.Idx → EReal) (b : Fin 1024) (e : Fin 64) : EReal :=
  max ((∑ k : Fin 1000, c (ix2 b k) * cW (ix2 k e)) + cb (ix1 e)) zeroW

/-- The two embeddings side by side: the protein's in columns 0..63, the compound's in columns 64..127. -/
def joined (x : SX.Idx → EReal) (c : SC.Idx → EReal) (W : SW.Idx → EReal) (pb : SB.Idx → EReal)
    (cW : SCW.Idx → EReal) (cb : SB.Idx → EReal) (b : Fin 1024) (e : Fin 128) : EReal :=
  if h : e.val < 64 then pe x W pb b ⟨e.val, h⟩ else ce c cW cb b ⟨e.val - 64, by omega⟩

/-- The joining layer: row b of the joined embeddings against column j of jW, plus the bias, rectified. -/
def hid (x : SX.Idx → EReal) (c : SC.Idx → EReal) (W : SW.Idx → EReal) (pb : SB.Idx → EReal)
    (cW : SCW.Idx → EReal) (cb : SB.Idx → EReal) (jW : SJW.Idx → EReal) (jb : SB.Idx → EReal)
    (b : Fin 1024) (j : Fin 64) : EReal :=
  max ((∑ e : Fin 128, joined x c W pb cW cb b e * jW (ix2 e j)) + jb (ix1 j)) zeroW

/-- The result: the head applied to the joining layer's output. -/
def G (x : SX.Idx → EReal) (c : SC.Idx → EReal) (W : SW.Idx → EReal) (pb : SB.Idx → EReal)
    (cW : SCW.Idx → EReal) (cb : SB.Idx → EReal) (jW : SJW.Idx → EReal) (jb : SB.Idx → EReal)
    (oW : SOW.Idx → EReal) (ob : SOB.Idx → EReal) : SR.Idx → EReal :=
  fun i => (∑ j : Fin 64, hid x c W pb cW cb jW jb (i 0) j * oW (ix2 j (0 : Fin 1))) + ob (ix1 (0 : Fin 1))

/-! ### Splitting the joined columns -/

/-- A sum over the 128 joined columns is the sum over the first 64 plus the sum over the last 64. -/
theorem sum_split (f : Fin 128 → EReal) :
    ∑ e : Fin 128, f e = (∑ e : Fin 64, f ⟨e.val, by omega⟩) + ∑ e : Fin 64, f ⟨64 + e.val, by omega⟩ :=
  Fin.sum_univ_add (a := 64) (b := 64) f

/-- Below column 64 the joined array is the protein embedding. -/
theorem joined_lo (x : SX.Idx → EReal) (c : SC.Idx → EReal) (W : SW.Idx → EReal) (pb : SB.Idx → EReal)
    (cW : SCW.Idx → EReal) (cb : SB.Idx → EReal) (b : Fin 1024) (e : Fin 64) :
    joined x c W pb cW cb b ⟨e.val, by omega⟩ = pe x W pb b e := by
  unfold joined
  rw [dif_pos (show (⟨e.val, by omega⟩ : Fin 128).val < 64 from e.isLt)]

/-- From column 64 on the joined array is the compound embedding, 64 columns to the left. -/
theorem joined_hi (x : SX.Idx → EReal) (c : SC.Idx → EReal) (W : SW.Idx → EReal) (pb : SB.Idx → EReal)
    (cW : SCW.Idx → EReal) (cb : SB.Idx → EReal) (b : Fin 1024) (e : Fin 64) :
    joined x c W pb cW cb b ⟨64 + e.val, by omega⟩ = ce c cW cb b e := by
  unfold joined
  rw [dif_neg (show ¬ (⟨64 + e.val, by omega⟩ : Fin 128).val < 64 from by show ¬ (64 + e.val < 64); omega)]
  congr 1
  exact Fin.ext (by show 64 + e.val - 64 = e.val; omega)

/-- The joining layer's sum, split at column 64. -/
theorem hid_split (x : SX.Idx → EReal) (c : SC.Idx → EReal) (W : SW.Idx → EReal) (pb : SB.Idx → EReal)
    (cW : SCW.Idx → EReal) (cb : SB.Idx → EReal) (jW : SJW.Idx → EReal) (jb : SB.Idx → EReal)
    (b : Fin 1024) (j : Fin 64) :
    hid x c W pb cW cb jW jb b j =
      max (((∑ e : Fin 64, pe x W pb b e * jW (ix2 (⟨e.val, by omega⟩ : Fin 128) j))
        + ∑ e : Fin 64, ce c cW cb b e * jW (ix2 (⟨64 + e.val, by omega⟩ : Fin 128) j)) + jb (ix1 j)) zeroW := by
  unfold hid
  rw [sum_split]
  simp only [joined_lo, joined_hi]

end Cert.Spec

end
-- ==== Proof.HostValue.lean ====
/-
  The kernel's output row, computed from the transposed and column-shaped copies the host makes of the ten arguments
  and transposed back, is the specification's function of the arguments themselves: a transpose read at (i, j) is the
  array at (j, i), a vector reshaped to a column read at (e, 0) is the vector at e, and what remains is commuting each
  product (the kernel multiplies weight by activation, the specification activation by weight).
-/
import proofs.«129949_g26456998544025_cont_9to1_950_20_alg».proof.Proof.OutValue
import proofs.«129949_g26456998544025_cont_9to1_950_20_alg».proof.Proof.Spec

noncomputable section

namespace Cert.KernelIdeal.FnValue

open Idealize.ShloMosaic Idealize.SL.Sem Cert.KernelIdeal Cert.KernelIdeal.Gen Idealize.ShloMosaic.ValueIdx
open scoped BigOperators

/-- A transposed matrix at (i, j) is the matrix at (j, i). -/
theorem transpose2_apply {α : Type} {m n : ℕ} (x : (⟨2, ![m, n]⟩ : Shape).Idx → α)
    (h : (⟨2, ![m, n]⟩ : Shape).Transposes [1, 0] ⟨2, ![n, m]⟩) (i : Fin n) (j : Fin m) :
    transpose ⟨2, ![n, m]⟩ [1, 0] x h (ix2 i j) = x (ix2 j i) :=
  transpose_apply [1, 0] x h (ix2 i j) (ix2 j i) (fun a => by match a with | ⟨0, _⟩ => rfl | ⟨1, _⟩ => rfl)

/-- A vector reshaped to a column at (e, 0) is the vector at e. -/
theorem column_of_vector_apply {α : Type} {n : ℕ} (v : (⟨1, ![n]⟩ : Shape).Idx → α)
    (h : (⟨1, ![n]⟩ : Shape).ShapeCasts ⟨2, ![n, 1]⟩) (e : Fin n) (z : Fin 1) :
    shapeCast ⟨2, ![n, 1]⟩ v h (ix2 e z) = v (ix1 e) :=
  shapeCast_apply v h (ix2 e z) (ix1 e) (by
    rw [Shape.rowMajor_val_one, Shape.rowMajor_val_two]
    show e.val = e.val * 1 + z.val
    omega)

/-- The kernel's function of the host's copies of the arguments, transposed back, is the specification. -/
theorem out_eq_spec (x : S1024x100000.Idx → EReal) (c : S1024x1000.Idx → EReal) (W : S100000x64.Idx → EReal)
    (pb : S64.Idx → EReal) (cW : S1000x64.Idx → EReal) (cb : S64.Idx → EReal) (jW : S128x64.Idx → EReal)
    (jb : S64.Idx → EReal) (oW : S64x1.Idx → EReal) (ob : S1.Idx → EReal)
    (hx : S1024x100000.Transposes [1, 0] S100000x1024) (hW : S100000x64.Transposes [1, 0] S64x100000)
    (hc : S1024x1000.Transposes [1, 0] S1000x1024) (hcW : S1000x64.Transposes [1, 0] S64x1000)
    (hb : S64.ShapeCasts S64x1) (hjW : S128x64.Transposes [1, 0] S64x128) (hoW : S64x1.Transposes [1, 0] S1x64)
    (hob : S1.ShapeCasts S1x1) (hres : S1x1024.Transposes [1, 0] S1024x1) :
    transpose S1024x1 [1, 0]
        (Fn.out (F := Ideal) (transpose S100000x1024 [1, 0] x hx) (transpose S64x100000 [1, 0] W hW)
          (transpose S1000x1024 [1, 0] c hc) (transpose S64x1000 [1, 0] cW hcW)
          (shapeCast S64x1 pb hb) (shapeCast S64x1 cb hb) (transpose S64x128 [1, 0] jW hjW)
          (shapeCast S64x1 jb hb) (transpose S1x64 [1, 0] oW hoW) (shapeCast S1x1 ob hob)) hres
      = Cert.Spec.G x c W pb cW cb jW jb oW ob := by
  funext i
  obtain ⟨b, r, rfl⟩ : ∃ (b : Fin 1024) (r : Fin 1), i = ix2 b r := ⟨i 0, i 1, eq_ix2 i⟩
  obtain rfl : r = 0 := Subsingleton.elim _ _
  refine (transpose2_apply (m := 1) (n := 1024) _ hres b (0 : Fin 1)).trans ?_
  rw [out_apply]
  simp only [column_of_vector_apply]
  unfold Cert.Spec.G
  simp only [Cert.Spec.hid_split, Cert.Spec.pe, Cert.Spec.ce, Cert.Spec.zeroW, Ideal.ofBits_zero_f32]
  refine congrArg₂ (· + ·) (Finset.sum_congr rfl fun j _ => ?_) rfl
  refine (congrArg₂ (· * ·) (transpose2_apply oW hoW (0 : Fin 1) j) ?_).trans (mul_comm _ _)
  refine congrArg (max · 0) (congrArg (· + jb (ix1 j)) (congrArg₂ (· + ·) ?_ ?_))
  · refine Finset.sum_congr rfl fun e _ => ?_
    refine (congrArg₂ (· * ·) (transpose2_apply jW hjW j (lo e)) ?_).trans (mul_comm _ _)
    refine congrArg (max · 0) (congrArg (· + pb (ix1 e)) (Finset.sum_congr rfl fun k _ => ?_))
    exact (congrArg₂ (· * ·) (transpose2_apply W hW e k) (transpose2_apply x hx k b)).trans (mul_comm _ _)
  · refine Finset.sum_congr rfl fun e _ => ?_
    refine (congrArg₂ (· * ·) (transpose2_apply jW hjW j (hi e)) ?_).trans (mul_comm _ _)
    refine congrArg (max · 0) (congrArg (· + cb (ix1 e)) (Finset.sum_congr rfl fun k _ => ?_))
    exact (congrArg₂ (· * ·) (transpose2_apply cW hcW e k) (transpose2_apply c hc k b)).trans (mul_comm _ _)

end Cert.KernelIdeal.FnValue

end
-- ==== Proof.RefSpec.lean ====
/-
  The reference program's result, read entry by entry, is the specification's function G of its ten arguments.

  Each stage of the reference is read at an index (b, e): a product of two arrays is the sum over the contracted
  coordinate, a broadcast bias is the bias at the column, the rectifier is the maximum with the zero word, and the
  concatenation along the columns reads its first piece below column 64 and its second piece from there on.
-/
import proofs.«129949_g26456998544025_cont_9to1_950_20_alg».proof.Proof.Gen.ReferenceIdeal.Read
import proofs.«129949_g26456998544025_cont_9to1_950_20_alg».proof.Proof.Spec
import proofs.«129949_g26456998544025_cont_9to1_950_20_alg».proof.Defs
import proofs.«129949_g26456998544025_cont_9to1_950_20_alg».proof.Proof.Gen.Pre_finite_inputs

noncomputable section

open scoped BigOperators

namespace Cert.RefSpec

open Cert.ReferenceIdeal Cert.ReferenceIdeal.Gen Idealize.ShloMosaic Idealize.ShloMosaic.TcCoe Idealize.SL.Sem
open Idealize.ShloMosaic.ValueIdx

variable (x0 : (⟨S1024x100000, .f32⟩ : BufTy).Contents (Elt Ideal)) (x1 : (⟨S1024x1000, .f32⟩ : BufTy).Contents (Elt Ideal))
  (x2 : (⟨S100000x64, .f32⟩ : BufTy).Contents (Elt Ideal)) (x3 : (⟨S64, .f32⟩ : BufTy).Contents (Elt Ideal))
  (x4 : (⟨S1000x64, .f32⟩ : BufTy).Contents (Elt Ideal)) (x5 : (⟨S64, .f32⟩ : BufTy).Contents (Elt Ideal))
  (x6 : (⟨S128x64, .f32⟩ : BufTy).Contents (Elt Ideal)) (x7 : (⟨S64, .f32⟩ : BufTy).Contents (Elt Ideal))
  (x8 : (⟨S64x1, .f32⟩ : BufTy).Contents (Elt Ideal)) (x9 : (⟨S1, .f32⟩ : BufTy).Contents (Elt Ideal))

/-! ### The stages' index functions at an index given by its coordinates -/

theorem lidx0 (b : Fin 1024) (e : Fin 64) (k : Fin 100000) : Read.lidx_main_v0 (ix2 b e) k = ix2 b k :=
  funext fun a => Fin.ext (by match a with | ⟨0, _⟩ => rfl | ⟨1, _⟩ => rfl)
theorem ridx0 (b : Fin 1024) (e : Fin 64) (k : Fin 100000) : Read.ridx_main_v0 (ix2 b e) k = ix2 k e :=
  funext fun a => Fin.ext (by match a with | ⟨0, _⟩ => rfl | ⟨1, _⟩ => rfl)
theorem idx12 (b : Fin 1024) (e : Fin 64) : Read.idx_main_v1 (Read.idx_main_v2 (ix2 b e)) = ix1 e :=
  funext fun a => Fin.ext (by match a with | ⟨0, _⟩ => rfl)
theorem lidx5 (b : Fin 1024) (e : Fin 64) (k : Fin 1000) : Read.lidx_main_v5 (ix2 b e) k = ix2 b k :=
  funext fun a => Fin.ext (by match a with | ⟨0, _⟩ => rfl | ⟨1, _⟩ => rfl)
theorem ridx5 (b : Fin 1024) (e : Fin 64) (k : Fin 1000) : Read.ridx_main_v5 (ix2 b e) k = ix2 k e :=
  funext fun a => Fin.ext (by match a with | ⟨0, _⟩ => rfl | ⟨1, _⟩ => rfl)
theorem idx67 (b : Fin 1024) (e : Fin 64) : Read.idx_main_v6 (Read.idx_main_v7 (ix2 b e)) = ix1 e :=
  funext fun a => Fin.ext (by match a with | ⟨0, _⟩ => rfl)
theorem lidx11 (b : Fin 1024) (j : Fin 64) (k : Fin 128) : Read.lidx_main_v11 (ix2 b j) k = ix2 b k :=
  funext fun a => Fin.ext (by match a with | ⟨0, _⟩ => rfl | ⟨1, _⟩ => rfl)
theorem ridx11 (b : Fin 1024) (j : Fin 64) (k : Fin 128) : Read.ridx_main_v11 (ix2 b j) k = ix2 k j :=
  funext fun a => Fin.ext (by match a with | ⟨0, _⟩ => rfl | ⟨1, _⟩ => rfl)
theorem idx1213 (b : Fin 1024) (j : Fin 64) : Read.idx_main_v12 (Read.idx_main_v13 (ix2 b j)) = ix1 j :=
  funext fun a => Fin.ext (by match a with | ⟨0, _⟩ => rfl)
theorem lidx16 (b : Fin 1024) (k : Fin 64) : Read.lidx_main_v16 (ix2 b (0 : Fin 1)) k = ix2 b k :=
  funext fun a => Fin.ext (by match a with | ⟨0, _⟩ => rfl | ⟨1, _⟩ => rfl)
theorem ridx16 (b : Fin 1024) (k : Fin 64) : Read.ridx_main_v16 (ix2 b (0 : Fin 1)) k = ix2 k (0 : Fin 1) :=
  funext fun a => Fin.ext (by match a with | ⟨0, _⟩ => rfl | ⟨1, _⟩ => rfl)
theorem idx1718 (b : Fin 1024) : Read.idx_main_v17 (Read.idx_main_v18 (ix2 b (0 : Fin 1))) = ix1 (0 : Fin 1) :=
  funext fun a => Fin.ext (by match a with | ⟨0, _⟩ => rfl)

/-! ### The stages at an index -/

/-- The rectified protein embedding at row b, column e. -/
theorem v4_at (b : Fin 1024) (e : Fin 64) :
    Read.val_main_v4 (F := Ideal) x0 x2 x3 (ix2 b e) = Cert.Spec.pe x0 x2 x3 b e := by
  rw [Read.val_main_v4_apply, Read.val_main_v3_apply, Read.val_main_v0_apply, Read.val_main_v2_apply,
    Read.val_main_v1_apply, Read.val_main_call0_v0_apply, Read.val_main_call0_cst_apply]
  simp only [Ideal.maximumf_def, Ideal.addf_def, Ideal.ofBits_def, lidx0, ridx0, idx12]
  unfold Cert.Spec.pe
  rfl

/-- The rectified compound embedding at row b, column e. -/
theorem v9_at (b : Fin 1024) (e : Fin 64) :
    Read.val_main_v9 (F := Ideal) x1 x4 x5 (ix2 b e) = Cert.Spec.ce x1 x4 x5 b e := by
  rw [Read.val_main_v9_apply, Read.val_main_v8_apply, Read.val_main_v5_apply, Read.val_main_v7_apply,
    Read.val_main_v6_apply, Read.val_main_call1_v0_apply, Read.val_main_call1_cst_apply]
  simp only [Ideal.maximumf_def, Ideal.addf_def, Ideal.ofBits_def, lidx5, ridx5, idx67]
  unfold Cert.Spec.ce
  rfl

/-- The two embeddings side by side, at row b, column e: the concatenation along the columns reads its first piece
    below column 64 and its second piece, 64 columns to the left, from there on. -/
theorem v10_at (b : Fin 1024) (e : Fin 128) :
    Read.val_main_v10 (F := Ideal) x0 x1 x2 x3 x4 x5 (ix2 b e) = Cert.Spec.joined x0 x1 x2 x3 x4 x5 b e := by
  unfold Read.val_main_v10 Cert.Spec.joined
  by_cases h : e.val < 64
  · rw [dif_pos h, ← v4_at]
    exact concatenate_pair_apply_left 1 _ _ concatenates_S1024x64_S1024x64_S1024x128_d1 _ rfl _ (fun a => by
      match a with
      | ⟨0, _⟩ => rfl
      | ⟨1, _⟩ => rfl)
  · rw [dif_neg h, ← v9_at]
    exact concatenate_pair_apply_right 1 _ _ concatenates_S1024x64_S1024x64_S1024x128_d1 _ rfl rfl _
      (fun a ha => by
        match a with
        | ⟨0, _⟩ => rfl
        | ⟨1, _⟩ => exact absurd rfl ha)
      (by have := Nat.not_lt.mp h; show e.val - 64 + 64 = e.val; omega)

/-- The rectified joining layer at row b, column j. -/
theorem v15_at (b : Fin 1024) (j : Fin 64) :
    Read.val_main_v15 (F := Ideal) x0 x1 x2 x3 x4 x5 x6 x7 (ix2 b j) = Cert.Spec.hid x0 x1 x2 x3 x4 x5 x6 x7 b j := by
  rw [Read.val_main_v15_apply, Read.val_main_v14_apply, Read.val_main_v11_apply, Read.val_main_v13_apply,
    Read.val_main_v12_apply, Read.val_main_call2_v0_apply, Read.val_main_call2_cst_apply]
  simp only [Ideal.maximumf_def, Ideal.addf_def, Ideal.ofBits_def, lidx11, ridx11, idx1213, v10_at]
  unfold Cert.Spec.hid
  rfl

/-- The reference's result is the specification's function of its ten arguments. -/
theorem ref_is_G :
    Read.val_main_v19 (F := Ideal) x0 x1 x2 x3 x4 x5 x6 x7 x8 x9 = Cert.Spec.G x0 x1 x2 x3 x4 x5 x6 x7 x8 x9 := by
  funext i
  obtain ⟨b, z, rfl⟩ : ∃ (b : Fin 1024) (z : Fin 1), i = ix2 b z := ⟨i 0, i 1, eq_ix2 i⟩
  obtain rfl : z = 0 := Subsingleton.elim _ _
  rw [Read.val_main_v19_apply, Read.val_main_v16_apply, Read.val_main_v18_apply, Read.val_main_v17_apply]
  simp only [Ideal.addf_def, lidx16, ridx16, idx1718, v15_at]
  unfold Cert.Spec.G
  rfl

/-! ### The reference's run -/

/-- Every run of the reference terminates with its ten arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Every run of the reference terminates with its result array at the specification's function of the ten
    arguments it was started with, and those arguments unchanged. -/
theorem run_G (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v19) =
        Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run Cert.ReferenceIdeal.defs _ _).mono
    (fun _ h c => ⟨(h c).1.trans ((Read.val_main_v19_eq _ _ _ _ _ _ _ _ _ _).trans (ref_is_G _ _ _ _ _ _ _ _ _ _)), (h c).2⟩)
    (Cert.ReferenceIdeal.Value.run (F := Ideal) m ρ)

end Cert.RefSpec

end
-- ==== Proof.lean ====
/-
  A four-layer perceptron — protein embedding, compound embedding, a joining layer over the two side by side, a
  one-column head — computed two ways.  The reference multiplies the 1024 x 100000 activations by the 100000 x 64
  weights in one product.  The kernel works on the transposes: a grid of twenty points walks the 100000 contracted
  positions in forty blocks of 2560, two blocks per point, adding the two block products to a running 64 x 1024 sum
  kept in a scratch buffer; the last block overhangs the arrays and both its operands are replaced by zero past
  position 160 before they are multiplied.  After the last point the sum gets its bias and rectifier, the joining
  matrix is applied as two products against its two halves, and the head's row is written out once.

  Over the extended reals every operation is exact and a change of float format is the identity, so both programs
  compute the same finite sums of products, grouped and ordered differently: equality needs only that addition and
  multiplication of extended reals are commutative and associative, and that a sum over 128 positions splits into
  its two halves.

  The three frames — each program terminates, faults nowhere and leaves its arguments unchanged — come from the
  runs: the reference's is its operations composed; the kernel's is the launch of its grid, with what the scratch
  buffers hold stated point by point (first point, middle points, last point).  The word-level kernel and its
  idealization have the same text, and their runs are proved alike.
-/
import proofs.«129949_g26456998544025_cont_9to1_950_20_alg».proof.Defs
import proofs.«129949_g26456998544025_cont_9to1_950_20_alg».proof.Proof.Gen.Kernel
import proofs.«129949_g26456998544025_cont_9to1_950_20_alg».proof.Proof.Gen.KernelIdeal
import proofs.«129949_g26456998544025_cont_9to1_950_20_alg».proof.Proof.Gen.ReferenceIdeal
import proofs.«129949_g26456998544025_cont_9to1_950_20_alg».proof.Proof.Gen.Pre_finite_inputs
import proofs.«129949_g26456998544025_cont_9to1_950_20_alg».proof.Proof.Body
import proofs.«129949_g26456998544025_cont_9to1_950_20_alg».proof.Proof.BodyK
import proofs.«129949_g26456998544025_cont_9to1_950_20_alg».proof.Proof.Launch
import proofs.«129949_g26456998544025_cont_9to1_950_20_alg».proof.Proof.LaunchK
import proofs.«129949_g26456998544025_cont_9to1_950_20_alg».proof.Proof.Final
import proofs.«129949_g26456998544025_cont_9to1_950_20_alg».proof.Proof.Glue
import proofs.«129949_g26456998544025_cont_9to1_950_20_alg».proof.Proof.HostValue
import proofs.«129949_g26456998544025_cont_9to1_950_20_alg».proof.Proof.RefSpec

noncomputable section

namespace Cert.Proof

open Idealize.ShloMosaic Idealize.SL.Sem

/-- The word-level kernel runs to the end and leaves its arguments unchanged. -/
theorem frame_k : Cert.frame_Kernel := fun m ρ _ =>
  (θ_run Cert.Kernel.defs _ _).mono (fun _ h c => (h c).2)
    (Cert.Kernel.Hand.run_of_body (F := Bits) m ρ (Cert.Kernel.Hand.body_obligation m) (Cert.Kernel.Hand.hin m) (Cert.Kernel.Hand.hout m))

/-- So does its idealization. -/
theorem frame_ki : Cert.frame_KernelIdeal := fun m ρ _ =>
  (θ_run Cert.KernelIdeal.defs _ _).mono (fun _ h c => (h c).2)
    (Cert.KernelIdeal.Hand.run_of_body (F := Ideal) m ρ (Cert.KernelIdeal.Hand.body_obligation m) (Cert.KernelIdeal.Hand.hin m)
      (Cert.KernelIdeal.Hand.hout m))

/-- The result array of the idealized kernel holds the specification's function of the arguments: the row stored at
    the last point is the pure function of the transposed arguments, which is the specification read through the
    host's transposes and reshapes. -/
theorem kernel_value (m : (ℓ : Loc Cert.KernelIdeal.nD Cert.KernelIdeal.τ Cert.KernelIdeal.sig) → Buf (Elt Ideal) ℓ) (c : Dev Cert.KernelIdeal.nD) :
    transpose Cert.KernelIdeal.S1024x1 [1, 0] ((Cert.KernelIdeal.Hand.dats m 0 c).arrAt 12 Cert.KernelIdeal.cfg0.N)
        Cert.KernelIdeal.Facts₀.transposes_S1x1024_S1024x1_1_0
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Hand.final_12 m c, Cert.KernelIdeal.Hand.rowAt_eq m c]
  obtain ⟨e0, e1, e2, e3, e4, e5, e6, e7, e8, e9⟩ := Cert.KernelIdeal.Hand.V_args m c
  rw [e0, e1, e2, e3, e4, e5, e6, e7, e8, e9]
  exact Cert.KernelIdeal.FnValue.out_eq_spec _ _ _ _ _ _ _ _ _ _ _ _ _ _ _ _ _ _ _

/-- Both idealized programs, from memories that agree on the arguments, end with the specification's function of
    the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (kernel_value m c), (h c).2⟩)
      (Cert.KernelIdeal.Hand.run_of_body (F := Ideal) m ρ (Cert.KernelIdeal.Hand.body_obligation m) (Cert.KernelIdeal.Hand.hin m)
        (Cert.KernelIdeal.Hand.hout m))
  · refine (θ_run Cert.ReferenceIdeal.defs _ _).mono (fun _ h c => ⟨?_, (h c).2⟩) (Cert.RefSpec.run_G m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefSpec.frame_ri, trivial, algebraic⟩

end Cert.Proof

end
